-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096 : Shape := ⟨1, ![4096]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x512 .f32) (main_arg1 : IVec S4096 32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  main_v3
-- ==== Kernel.lean ====
abbrev S4096x512 : Shape := ⟨2, ![4096, 512]⟩
abbrev S4096 : Shape := ⟨1, ![4096]⟩
abbrev S4096x1 : Shape := ⟨2, ![4096, 1]⟩
abbrev S1x4096 : Shape := ⟨2, ![1, 4096]⟩
abbrev S1x1 : Shape := ⟨2, ![1, 1]⟩
abbrev S512x512 : Shape := ⟨2, ![512, 512]⟩
abbrev S512x1 : Shape := ⟨2, ![512, 1]⟩
abbrev S1x512 : Shape := ⟨2, ![1, 512]⟩
abbrev S512 : Shape := ⟨1, ![512]⟩
abbrev S1 : Shape := ⟨1, ![1]⟩
abbrev S_ : Shape := ⟨0, ![]⟩

abbrev nBuf : Space → Nat
  | .hbm => 6
  | .vmem => 13
  | .smem => 0
  | _ => 0

abbrev bufTy : (tb : Table) → Fin (tcTables nBuf tb) → BufTy
  | .hbm, ⟨0, _⟩ => ⟨S4096x512, .f32⟩
  | .hbm, ⟨1, _⟩ => ⟨S4096, .i32⟩
  | .hbm, ⟨2, _⟩ => ⟨S4096x1, .i32⟩
  | .hbm, ⟨3, _⟩ => ⟨S1x4096, .i32⟩
  | .hbm, ⟨4, _⟩ => ⟨S1x1, .f32⟩
  | .hbm, ⟨5, _⟩ => ⟨S_, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x1, .i32⟩
  | .local _ .vmem, ⟨5, _⟩ => ⟨S512x1, .i32⟩
  | .local _ .vmem, ⟨6, _⟩ => ⟨S1x512, .i32⟩
  | .local _ .vmem, ⟨7, _⟩ => ⟨S1x512, .i32⟩
  | .local _ .vmem, ⟨8, _⟩ => ⟨S1x1, .f32⟩
  | .local _ .vmem, ⟨9, _⟩ => ⟨S1x1, .f32⟩
  | .local _ .vmem, ⟨10, _⟩ => ⟨S1x1, .f32⟩
  | .local _ .vmem, ⟨11, _⟩ => ⟨S1x1, .f32⟩
  | .local _ .vmem, ⟨12, _⟩ => ⟨S1x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg0 : BitVec 32 := BitVec.ofNat 32 (i 0).val
  let c7_i32 : BitVec 32 := 7#32
  let v99 : BitVec 1 := Scalar.cmpi .eq arg0 c7_i32
  let arg1 : BitVec 32 := BitVec.ofNat 32 (i 1).val
  let c7_i32_44 : BitVec 32 := 7#32
  let v100 : BitVec 1 := Scalar.cmpi .eq arg1 c7_i32_44
  let v101 : BitVec 1 := Scalar.andi v99 v100
  let v102 : BitVec 32 := Scalar.extui v101
  let c0_i32_45 : BitVec 32 := 0#32
  let v103 : BitVec 1 := Scalar.cmpi .ne v102 c0_i32_45
  v103

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

class Facts₀ : Prop where
  shapeCasts_S4096_S4096x1 : S4096.ShapeCasts S4096x1
  shapeCasts_S4096_S1x4096 : S4096.ShapeCasts S1x4096
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x512_S512x512_0_0 : ∀ a, (![0, 0] : Fin 2 → Nat) a + S512x512.size a ≤ S512x512.size a
  h_S512x512 : 0 < S512x512.numel
  reduces_S512x512_S512 : S512x512.Reduces [1] S512
  shapeCasts_S512_S512x1 : S512.ShapeCasts S512x1
  broadcasts_S512x1_S512x512 : S512x1.Broadcasts S512x512
  bitsLt_bf16_f32 : FTy.bits .bf16 < FTy.bits .f32
  transposes_S512x512_p1_0_S512x512 : S512x512.Transposes [1, 0] S512x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  iota_S512x1_d0_w32 : S512x1.Iotas .tc 32 [0]
  iota_S1x512_d1_w32 : S1x512.Iotas .tc 32 [1]
  broadcasts_S1x512_S512x512 : S1x512.Broadcasts S512x512
  reduces_S512x1_S1 : S512x1.Reduces [0] S1
  shapeCasts_S1_S1x1 : S1.ShapeCasts S1x1
  natLt_1_32 : 1 < 32
  shapeCasts_S1x1_S_ : S1x1.ShapeCasts S_
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x512.size a
  hwx0_0 : ∀ i : grid0.Coords, EltTy.bits .f32 = 32 ∨ (Rect.block (s := S4096x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x512.size a
  hwx0_1 : ∀ i : grid0.Coords, EltTy.bits .f32 = 32 ∨ (Rect.block (s := S4096x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .i32 = 32 ∨ (Rect.block (s := S4096x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .i32 = 32 ∨ (Rect.block (s := S1x4096) S1x512.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4096x512 : Shape := ⟨2, ![4096, 512]⟩
abbrev S4096 : Shape := ⟨1, ![4096]⟩
abbrev S_ : Shape := ⟨0, ![]⟩
abbrev S4096x1 : Shape := ⟨2, ![4096, 1]⟩
abbrev S512x4096 : Shape := ⟨2, ![512, 4096]⟩
abbrev S4096x4096 : Shape := ⟨2, ![4096, 4096]⟩
abbrev S1x4096 : Shape := ⟨2, ![1, 4096]⟩

abbrev nBuf : Space → Nat
  | .hbm => 63
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096, .i32⟩
  | .hbm, ⟨2, _⟩ => ⟨S4096x512, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x512, .f32⟩
  | .hbm, ⟨11, _⟩ => ⟨S4096x512, .f32⟩
  | .hbm, ⟨12, _⟩ => ⟨S512x4096, .f32⟩
  | .hbm, ⟨13, _⟩ => ⟨S4096x4096, .f32⟩
  | .hbm, ⟨14, _⟩ => ⟨S4096x1, .i32⟩
  | .hbm, ⟨15, _⟩ => ⟨S1x4096, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S4096x4096, .i32⟩
  | .hbm, ⟨20, _⟩ => ⟨S_, .i32⟩
  | .hbm, ⟨21, _⟩ => ⟨S4096x4096, .i32⟩
  | .hbm, ⟨22, _⟩ => ⟨S4096x4096, .i32⟩
  | .hbm, ⟨23, _⟩ => ⟨S4096x4096, .i32⟩
  | .hbm, ⟨24, _⟩ => ⟨S4096x4096, .i1⟩
  | .hbm, ⟨25, _⟩ => ⟨S_, .i1⟩
  | .hbm, ⟨26, _⟩ => ⟨S4096x4096, .i1⟩
  | .hbm, ⟨27, _⟩ => ⟨S4096x4096, .i1⟩
  | .hbm, ⟨28, _⟩ => ⟨S4096x4096, .i1⟩
  | .hbm, ⟨29, _⟩ => ⟨S4096x4096, .i32⟩
  | .hbm, ⟨30, _⟩ => ⟨S_, .i32⟩
  | .hbm, ⟨31, _⟩ => ⟨S_, .i32⟩
  | .hbm, ⟨32, _⟩ => ⟨S4096x4096, .i32⟩
  | .hbm, ⟨33, _⟩ => ⟨S_, .i32⟩
  | .hbm, ⟨34, _⟩ => ⟨S_, .i32⟩
  | .hbm, ⟨35, _⟩ => ⟨S_, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S_, .f32⟩
  | .hbm, ⟨40, _⟩ => ⟨S_, .f32⟩
  | .hbm, ⟨41, _⟩ => ⟨S4096x4096, .f32⟩
  | .hbm, ⟨42, _⟩ => ⟨S4096x4096, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S4096x4096, .f32⟩
  | .hbm, ⟨49, _⟩ => ⟨S4096x4096, .f32⟩
  | .hbm, ⟨50, _⟩ => ⟨S_, .f32⟩
  | .hbm, ⟨51, _⟩ => ⟨S4096x4096, .f32⟩
  | .hbm, ⟨52, _⟩ => ⟨S4096x4096, .f32⟩
  | .hbm, ⟨53, _⟩ => ⟨S4096x4096, .f32⟩
  | .hbm, ⟨54, _⟩ => ⟨S_, .f32⟩
  | .hbm, ⟨55, _⟩ => ⟨S_, .f32⟩
  | .hbm, ⟨56, _⟩ => ⟨S4096x4096, .f32⟩
  | .hbm, ⟨57, _⟩ => ⟨S4096x4096, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call1_v0 : Ref sig .tc := ⟨.hbm, 19, rfl⟩
abbrev main_call1_c : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_c_0 : Ref sig .tc := ⟨.hbm, 25, rfl⟩
abbrev main_call1_v5 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_0 : Ref sig .tc := ⟨.hbm, 33, rfl⟩
abbrev main_v17 : Ref sig .tc := ⟨.hbm, 34, rfl⟩
abbrev main_cst_1 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_2 : Ref sig .tc := ⟨.hbm, 39, rfl⟩
abbrev main_call2_v0 : Ref sig .tc := ⟨.hbm, 40, rfl⟩
abbrev main_call2_v1 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_4 : Ref sig .tc := ⟨.hbm, 47, rfl⟩
abbrev main_v25 : Ref sig .tc := ⟨.hbm, 48, rfl⟩
abbrev main_v26 : Ref sig .tc := ⟨.hbm, 49, rfl⟩
abbrev main_call3_cst : Ref sig .tc := ⟨.hbm, 50, rfl⟩
abbrev main_call3_v0 : Ref sig .tc := ⟨.hbm, 51, rfl⟩
abbrev main_v27 : Ref sig .tc := ⟨.hbm, 52, rfl⟩
abbrev main_v28 : Ref sig .tc := ⟨.hbm, 53, rfl⟩
abbrev main_cst_5 : Ref sig .tc := ⟨.hbm, 54, rfl⟩
abbrev main_call4_v0 : Ref sig .tc := ⟨.hbm, 55, rfl⟩
abbrev main_call4_v1 : Ref sig .tc := ⟨.hbm, 56, rfl⟩
abbrev main_v29 : Ref sig .tc := ⟨.hbm, 57, rfl⟩
abbrev main_cst_6 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩

abbrev nD : Nat := 1
abbrev τ : Topo := Topo.v7x

variable {F : FTy → Type} [FloatOps F]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x512_0_1 : S4096x1.BroadcastsInDim S4096x512 (![0, 1] : Fin 2 → Fin S4096x512.rank)
  transposes_S4096x512_S512x4096_1_0 : S4096x512.Transposes [1, 0] S512x4096
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  natLt_1_32 : 1 < 32
  reducesTo_S4096x4096_S_d0_1 : S4096x4096.ReducesTo [0, 1] S_
  dot_S4096x512_S512x4096_S4096x4096_1_0_0_1_n_n_wf : DotDims.WF S4096x512 S512x4096 S4096x4096 [1] [0] [0] [1] [] []

variable [Facts₀]

def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf

class Facts : Prop extends Facts₀ where

variable [Facts]
-- ==== Proof.BitsFrameBase.lean ====
/-
  The setting of the kernel's run: the arrays as the region finds them, each window's block at a grid point,
  the two conditions of the body in closed form over the 64 points (the first point resets the four running
  scalars; the last point writes the result), where the result window is idle, and the region's invariant with
  the four scratch scalars named.
-/
import proofs.«148408_j45200235823668_1_alg».proof.Proof.Gen.Kernel.Launch
import proofs.«148408_j45200235823668_1_alg».proof.Proof.Gen.Kernel.Skeleton
import proofs.«148408_j45200235823668_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffers when the region is entered: after the two reshapes of the labels. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any
    proof data whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- The first condition: both grid coordinates are zero (the scalars are reset). -/
abbrev cond0_0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only. -/
theorem hcond0_0 : ∀ t : Fin cfg0.N, cond0_0 (grid0.coords t) ↔ t.val % 64 = 0 :=
  (by decide +kernel : ∀ t : Fin grid0.N, cond0_0 (grid0.coords t) ↔ t.val % 64 = 0)

/-- The second condition: both grid coordinates are seven (the result is written). -/
abbrev cond0_1 (i : grid0.Coords) : Prop := k0_cond2 i = 1#1
/-- It holds at the last point only. -/
theorem hcond0_1 : ∀ t : Fin cfg0.N, cond0_1 (grid0.coords t) ↔ t.val % 64 = 63 :=
  (by decide +kernel : ∀ t : Fin grid0.N, cond0_1 (grid0.coords t) ↔ t.val % 64 = 63)

/-! ## Where the result window is idle -/

theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

/-! ## The memrefs the body is called with -/

abbrev ms0_0 (t : Fin cfg0.N) : Memref sig .tc .vmem S512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)
/-- The four scratch scalars: whole scoped buffers of the kernel's own. -/
abbrev scM0_0 : Memref sig .tc .vmem S1x1 .f32 := Memref.whole cc0_scratch0
abbrev scM0_1 : Memref sig .tc .vmem S1x1 .f32 := Memref.whole cc0_scratch1
abbrev scM0_2 : Memref sig .tc .vmem S1x1 .f32 := Memref.whole cc0_scratch2
abbrev scM0_3 : Memref sig .tc .vmem S1x1 .f32 := Memref.whole cc0_scratch3

/-- The invariant that names nothing: the four scratch scalars at some contents, the generator register at
    some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)
          ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Frame

end
-- ==== Proof.BitsFrameRunA.lean ====
/-
  The kernel's body run at the first point (the scalars are reset; the result is not written): from the four input blocks
  it returns the inputs as they were and each scratch scalar with its stores written, the result block untouched.
-/
import proofs.«148408_j45200235823668_1_alg».proof.Proof.BitsFrameBase

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces each scratch scalar ends with, found by running the body, with the run itself. -/
noncomputable def kernelRun0_A (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : cond0_0 i) (hc1 : ¬cond0_1 i)
    (x0 x1 : Vec F S512x512 .f32) (x2 : Vec F S512x1 .i32) (x3 : Vec F S1x512 .i32) :
    Σ' (LS0 : List (View.Piece (Elt F) S1x1 .f32)) (LS1 : List (View.Piece (Elt F) S1x1 .f32)) (LS2 : List (View.Piece (Elt F) S1x1 .f32)), { LS3 : List (View.Piece (Elt F) S1x1 .f32) //
      ∀ (xi4 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10) K } := by
  refine ⟨?_, ?_, ?_, ?_, fun xi4 E K => ?run⟩
  case run =>
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    iexists _; iexact HS3

end Cert.Kernel.Frame

end
-- ==== Proof.BitsFrameRunB.lean ====
/-
  The kernel's body run at a point that is neither the first nor the last (the scalars are added to): from the four input blocks and the four scalars as the point before left them
  it returns the inputs as they were and each scratch scalar with its stores written, the result block untouched.
-/
import proofs.«148408_j45200235823668_1_alg».proof.Proof.BitsFrameBase

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces each scratch scalar ends with, found by running the body, with the run itself. -/
noncomputable def kernelRun0_B (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : ¬cond0_1 i)
    (x0 x1 : Vec F S512x512 .f32) (x2 : Vec F S512x1 .i32) (x3 : Vec F S1x512 .i32) (xs0 xs1 xs2 xs3 : Vec F S1x1 .f32) :
    Σ' (LS0 : List (View.Piece (Elt F) S1x1 .f32)) (LS1 : List (View.Piece (Elt F) S1x1 .f32)) (LS2 : List (View.Piece (Elt F) S1x1 .f32)), { LS3 : List (View.Piece (Elt F) S1x1 .f32) //
      ∀ (xi4 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10) K } := by
  refine ⟨?_, ?_, ?_, ?_, fun xi4 E K => ?run⟩
  case run =>
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1; obtain rfl := harg9.eq_unread hfs2; obtain rfl := harg10.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    iexists _; iexact HS3

end Cert.Kernel.Frame

end
-- ==== Proof.BitsFrameRunC.lean ====
/-
  The kernel's body run at the last point (the scalars are added to and the result is written): from the four input blocks and the four scalars as the point before left them
  it returns the inputs as they were and each scratch scalar with its stores written, and the result block with its store written.
-/
import proofs.«148408_j45200235823668_1_alg».proof.Proof.BitsFrameBase

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces each scratch scalar and the result block ends with, found by running the body, with the run itself. -/
noncomputable def kernelRun0_C (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : cond0_1 i)
    (x0 x1 : Vec F S512x512 .f32) (x2 : Vec F S512x1 .i32) (x3 : Vec F S1x512 .i32) (xs0 xs1 xs2 xs3 : Vec F S1x1 .f32) :
    Σ' (L4 : List (View.Piece (Elt F) S1x1 .f32)) (LS0 : List (View.Piece (Elt F) S1x1 .f32)) (LS1 : List (View.Piece (Elt F) S1x1 .f32)) (LS2 : List (View.Piece (Elt F) S1x1 .f32)), { LS3 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg7.eq_unread hfs0; obtain rfl := harg8.eq_unread hfs1; obtain rfl := harg9.eq_unread hfs2; obtain rfl := harg10.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    isplitl [HS2]; · iexists _; iexact HS2
    iexists _; iexact HS3

end Cert.Kernel.Frame

end
-- ==== Proof.BitsFrameData.lean ====
/-
  The proof data of the kernel's pipeline: what the four running scalars and the result block hold after each
  of the 64 grid points — the first point's run from anything, every later point's run from what the point
  before left, the last point's run also writing the result —, the region's invariant carrying the four
  scalars between points, and the body's obligation at every point.
-/
import proofs.«148408_j45200235823668_1_alg».proof.Proof.BitsFrameRunA
import proofs.«148408_j45200235823668_1_alg».proof.Proof.BitsFrameRunB
import proofs.«148408_j45200235823668_1_alg».proof.Proof.BitsFrameRunC

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a list of stores leaves in a scalar -/

/-- What a list of stores (last first) leaves in a [1,1] buffer they cover: read back over arbitrary contents. -/
def rd (L : List (View.Piece (Elt F) S1x1 .f32)) : Vec F S1x1 .f32 :=
  scM0_0.view.read (Elt F) (scM0_0.view.writes (Elt F) scM0_0.view.junk L)

/-- The result block and the four scalars after a point. -/
structure Outs (F : FTy → Type) where
  o4 : Vec F S1x1 .f32
  s0 : Vec F S1x1 .f32
  s1 : Vec F S1x1 .f32
  s2 : Vec F S1x1 .f32
  s3 : Vec F S1x1 .f32

/-- After the first point: the scalars as its run leaves them (the result block is not written). -/
def outA (c : Dev nD) (t : Fin cfg0.N) (hc0 : cond0_0 (grid0.coords t)) (hc1 : ¬cond0_1 (grid0.coords t)) : Outs F :=
  ⟨rd [],
   rd (kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t)).1,
   rd (kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t)).2.1,
   rd (kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t)).2.2.1,
   rd (kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t)).2.2.2.1⟩

/-- After a middle point, from what the point before left. -/
def outB (c : Dev nD) (t : Fin cfg0.N) (hc0 : ¬cond0_0 (grid0.coords t)) (hc1 : ¬cond0_1 (grid0.coords t)) (p : Outs F) : Outs F :=
  ⟨rd [],
   rd (kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) p.s0 p.s1 p.s2 p.s3).1,
   rd (kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) p.s0 p.s1 p.s2 p.s3).2.1,
   rd (kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) p.s0 p.s1 p.s2 p.s3).2.2.1,
   rd (kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) p.s0 p.s1 p.s2 p.s3).2.2.2.1⟩

/-- After the last point, from what the point before left: the result block is written too. -/
def outC (c : Dev nD) (t : Fin cfg0.N) (hc0 : ¬cond0_0 (grid0.coords t)) (hc1 : cond0_1 (grid0.coords t)) (p : Outs F) : Outs F :=
  ⟨rd (kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) p.s0 p.s1 p.s2 p.s3).1,
   rd (kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) p.s0 p.s1 p.s2 p.s3).2.1,
   rd (kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) p.s0 p.s1 p.s2 p.s3).2.2.1,
   rd (kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) p.s0 p.s1 p.s2 p.s3).2.2.2.1,
   rd (kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) p.s0 p.s1 p.s2 p.s3).2.2.2.2.1⟩

theorem N64 : cfg0.N = 64 := N_0

/-- The accumulation: what the result block and the scalars hold after the body at position `n`. -/
def outsAt0 (c : Dev nD) : (n : ℕ) → n < cfg0.N → Outs F
  | 0, hn => outA m c ⟨0, hn⟩ ((hcond0_0 ⟨0, hn⟩).mpr (Nat.zero_mod _)) (fun h => (fun h => by (try dsimp only at h); omega) ((hcond0_1 ⟨0, hn⟩).mp h))
  | n + 1, hn =>
    if h1 : (n + 1) % 64 = 63 then
      outC m c ⟨n + 1, hn⟩ (fun h => (fun h => by have hN : n + 1 < 64 := lt_of_lt_of_eq hn N64; (try dsimp only at h); omega) ((hcond0_0 ⟨n + 1, hn⟩).mp h))
        ((hcond0_1 ⟨n + 1, hn⟩).mpr h1) (outsAt0 c n (Nat.lt_of_succ_lt hn))
    else
      outB m c ⟨n + 1, hn⟩ (fun h => (fun h => by have hN : n + 1 < 64 := lt_of_lt_of_eq hn N64; (try dsimp only at h); omega) ((hcond0_0 ⟨n + 1, hn⟩).mp h))
        (fun h => h1 ((hcond0_1 ⟨n + 1, hn⟩).mp h)) (outsAt0 c n (Nat.lt_of_succ_lt hn))

theorem outsAt0_A (c : Dev nD) (t : Fin cfg0.N) (h0 : t.val % 64 = 0) (h1 : ¬t.val % 64 = 63) :
    outsAt0 m c t.val t.isLt = outA m c t ((hcond0_0 t).mpr h0) (fun h => h1 ((hcond0_1 t).mp h)) := by
  obtain ⟨n, hn⟩ := t
  have hN : n < 64 := lt_of_lt_of_eq hn N64
  cases n with
  | zero => exact rfl
  | succ n => exact (by exfalso; (try dsimp only at h0); omega)

theorem outsAt0_B (c : Dev nD) (t : Fin cfg0.N) (h0 : ¬t.val % 64 = 0) (h1 : ¬t.val % 64 = 63) :
    outsAt0 m c t.val t.isLt = outB m c t (fun h => h0 ((hcond0_0 t).mp h)) (fun h => h1 ((hcond0_1 t).mp h))
      (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h1).trans rfl

theorem outsAt0_C (c : Dev nD) (t : Fin cfg0.N) (h0 : ¬t.val % 64 = 0) (h1 : t.val % 64 = 63) :
    outsAt0 m c t.val t.isLt = outC m c t (fun h => h0 ((hcond0_0 t).mp h)) ((hcond0_1 t).mpr h1)
      (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_pos h1).trans rfl

/-! ## The invariant -/

/-- The four scalars at the contents `o` names, the generator register at some state. -/
def PhiAt (c : Dev nD) (o : Outs F) : sProp 𝕄 :=
  iprop(iprop(owns (c : Thread nD τ) scM0_0 fullShare o.s0 ∗ owns (c : Thread nD τ) scM0_1 fullShare o.s1
      ∗ owns (c : Thread nD τ) scM0_2 fullShare o.s2 ∗ owns (c : Thread nD τ) scM0_3 fullShare o.s3) ∗ (∃ r, prngReg c r))

/-- The region invariant before position `n`: before the first point nothing is named; afterwards the four
    scalars hold what the point before left. -/
def PhiS (c : Dev nD) : (n : ℕ) → n ≤ cfg0.N → sProp 𝕄
  | 0, _ => Pipeline.ΦA spec0 c
  | n + 1, hn => PhiAt c (outsAt0 m c n hn)

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) : PhiS m c (n + 1) hn = PhiAt c (outsAt0 m c n hn) := rfl
theorem PhiS_pos (c : Dev nD) (n : ℕ) (h : n ≤ cfg0.N) (hz : n ≠ 0) :
    PhiS m c n h = PhiAt c (outsAt0 m c (n - 1) (by omega)) := by
  cases n with
  | zero => exact absurd rfl hz
  | succ n => rfl

/-! ## The proof data -/

/-- The proof data on core `c`: the arrays as the region finds them; after the body each input's buffer at its
    block and the result's at the accumulation's; the invariant above; nothing owed; the array the two row
    windows both read held by halves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).o4
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).o4 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- Stores that tile a [1,1] buffer cover it. -/
theorem rd_owns (c : Dev nD) (M : Memref sig .tc .vmem S1x1 .f32) (L : List (View.Piece (Elt F) S1x1 .f32))
    (hL : ∀ y : S1x1.Idx, ∃ pc ∈ L, y ∈ pc.1.set) :
    (iprop(∃ f, M.view.loc (c : Thread nD τ) ↦[M.view.set]{fullShare} M.view.writes (Elt F) f L) : sProp 𝕄)
      ⊢ owns (c : Thread nD τ) M fullShare (rd L) := by
  unfold owns rd
  iintro ⟨%f, H⟩
  iexists _; isplitr
  swap; · iexact H
  ipureintro; exact View.read_writes_of_cover _ _ _ _ _ hL

end Cert.Kernel.Frame

end
-- ==== Proof.BitsFrameObl.lean ====
/-
  The body's obligation at every grid point: the inputs' staging buffers hold their blocks; the first point
  runs from scalars at anything, every later point from the scalars the point before left; each leaves the
  scalars at the accumulation's contents, and the last also the result block; the result window is idle and
  handed back untouched at every other point.
-/
import proofs.«148408_j45200235823668_1_alg».proof.Proof.BitsFrameData

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem live_0 (c : Dev nD) (t : Fin cfg0.N) : (dats m 0 c).leavesExact 0 t = owns (c : Thread nD τ) (ms0_0 t) fullShare (iblk m c 0 t) := by
  rw [← after0_0 m c t]
theorem live_1 (c : Dev nD) (t : Fin cfg0.N) : (dats m 0 c).leavesExact 1 t = owns (c : Thread nD τ) (ms0_1 t) fullShare (iblk m c 1 t) := by
  rw [← after0_1 m c t]
theorem live_2 (c : Dev nD) (t : Fin cfg0.N) : (dats m 0 c).leavesExact 2 t = owns (c : Thread nD τ) (ms0_2 t) fullShare (iblk m c 2 t) := by
  rw [← after0_2 m c t]
theorem live_3 (c : Dev nD) (t : Fin cfg0.N) : (dats m 0 c).leavesExact 3 t = owns (c : Thread nD τ) (ms0_3 t) fullShare (iblk m c 3 t) := by
  rw [← after0_3 m c t]

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [live_0, live_1, live_2, live_3]
  have hN : t.val < 64 := lt_of_lt_of_eq t.isLt N64
  by_cases h0 : t.val % 64 = 0
  · have h1 : ¬t.val % 64 = 63 := by omega
    have hz : t.val = 0 := by omega
    rw [Dat.leavesExact_idle (dats m 0 c) 4 t (idleAt0_4 t (fun h => h1 ((hcond0_1 t).mp h))) (noFlush0_4 t (fun h => h1 ((hcond0_1 t).mp h)))]
    rw [outsAt0_A m c t h0 h1]
    rw [PhiS_castSucc m c t, PhiS_zero m c _ _ hz, PhiA0_eq]
    unfold outA; (try dsimp only)
    iintro ⟨⟨⟨HS0, HS1, HS2, HS3⟩, Hg⟩, Ho, ⟨%d0, H0⟩, ⟨%d1, H1⟩, ⟨%d2, H2⟩, ⟨%d3, H3⟩, ⟨%d4, H4⟩⟩
    iapply ((kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t)).2.2.2.2 _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    isplitl [HS3]; · iexact HS3
    iintro ⟨H0, H1, H2, H3, H4, HS0, HS1, HS2, HS3⟩
    isplitl [HS0 HS1 HS2 HS3 Hg]
    · unfold PhiAt
      isplitl [HS0 HS1 HS2 HS3]
      · isplitl [HS0]; · iapply (rd_owns c scM0_0 _ (View.cover_of_tiledL (kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t)).1 S1x1.size (by sl_kernel_rfl))); iexact HS0
        isplitl [HS1]; · iapply (rd_owns c scM0_1 _ (View.cover_of_tiledL (kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t)).2.1 S1x1.size (by sl_kernel_rfl))); iexact HS1
        isplitl [HS2]; · iapply (rd_owns c scM0_2 _ (View.cover_of_tiledL (kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t)).2.2.1 S1x1.size (by sl_kernel_rfl))); iexact HS2
        iapply (rd_owns c scM0_3 _ (View.cover_of_tiledL (kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t)).2.2.2.1 S1x1.size (by sl_kernel_rfl))); iexact HS3
      iexact Hg
    isplitl [Ho]; · iexact Ho
    isplitl [H0]; · iexact H0
    isplitl [H1]; · iexact H1
    isplitl [H2]; · iexact H2
    isplitl [H3]; · iexact H3
    iexists _; iexact H4
  · have hz : t.val ≠ 0 := by omega
    by_cases h1 : t.val % 64 = 63
    · rw [show (dats m 0 c).leavesExact 4 t = owns (c : Thread nD τ) (ms0_4 t) fullShare ((dats m 0 c).after 4 t) from by
        unfold Dat.leavesExact; rw [liveAt0_4 t ((hcond0_1 t).mpr h1)], after0_4]
      rw [outsAt0_C m c t h0 h1]
      rw [PhiS_castSucc m c t, PhiS_pos m c _ _ hz]
      unfold outC PhiAt; (try dsimp only)
      iintro ⟨⟨⟨HS0, HS1, HS2, HS3⟩, Hg⟩, Ho, ⟨%d0, H0⟩, ⟨%d1, H1⟩, ⟨%d2, H2⟩, ⟨%d3, H3⟩, ⟨%d4, H4⟩⟩
      iapply ((kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3).2.2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      isplitl [HS3]; · iexact HS3
      iintro ⟨H0, H1, H2, H3, H4, HS0, HS1, HS2, HS3⟩
      isplitl [HS0 HS1 HS2 HS3 Hg]
      · isplitl [HS0 HS1 HS2 HS3]
        · isplitl [HS0]; · iapply (rd_owns c scM0_0 _ (View.cover_of_tiledL (kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3).2.1 S1x1.size (by sl_kernel_rfl))); iexact HS0
          isplitl [HS1]; · iapply (rd_owns c scM0_1 _ (View.cover_of_tiledL (kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3).2.2.1 S1x1.size (by sl_kernel_rfl))); iexact HS1
          isplitl [HS2]; · iapply (rd_owns c scM0_2 _ (View.cover_of_tiledL (kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3).2.2.2.1 S1x1.size (by sl_kernel_rfl))); iexact HS2
          iapply (rd_owns c scM0_3 _ (View.cover_of_tiledL (kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3).2.2.2.2.1 S1x1.size (by sl_kernel_rfl))); iexact HS3
        iexact Hg
      isplitl [Ho]; · iexact Ho
      isplitl [H0]; · iexact H0
      isplitl [H1]; · iexact H1
      isplitl [H2]; · iexact H2
      isplitl [H3]; · iexact H3
      iapply (rd_owns c (ms0_4 t) _ (View.cover_of_tiledL (kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3).1 S1x1.size (by sl_kernel_rfl))); iexact H4
    · rw [Dat.leavesExact_idle (dats m 0 c) 4 t (idleAt0_4 t (fun h => h1 ((hcond0_1 t).mp h))) (noFlush0_4 t (fun h => h1 ((hcond0_1 t).mp h)))]
      rw [outsAt0_B m c t h0 h1]
      rw [PhiS_castSucc m c t, PhiS_pos m c _ _ hz]
      unfold outB PhiAt; (try dsimp only)
      iintro ⟨⟨⟨HS0, HS1, HS2, HS3⟩, Hg⟩, Ho, ⟨%d0, H0⟩, ⟨%d1, H1⟩, ⟨%d2, H2⟩, ⟨%d3, H3⟩, ⟨%d4, H4⟩⟩
      iapply ((kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, HS0, HS1, HS2, HS3⟩
      isplitl [HS0 HS1 HS2 HS3 Hg]
      · isplitl [HS0 HS1 HS2 HS3]
        · isplitl [HS0]; · iapply (rd_owns c scM0_0 _ (View.cover_of_tiledL (kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3).1 S1x1.size (by sl_kernel_rfl))); iexact HS0
          isplitl [HS1]; · iapply (rd_owns c scM0_1 _ (View.cover_of_tiledL (kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3).2.1 S1x1.size (by sl_kernel_rfl))); iexact HS1
          isplitl [HS2]; · iapply (rd_owns c scM0_2 _ (View.cover_of_tiledL (kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3).2.2.1 S1x1.size (by sl_kernel_rfl))); iexact HS2
          iapply (rd_owns c scM0_3 _ (View.cover_of_tiledL (kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3).2.2.2.1 S1x1.size (by sl_kernel_rfl))); iexact HS3
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Frame

end
-- ==== Proof.BitsFrameBoundary.lean ====
/-
  The thread state between the segments of @main: the six unscoped buffers held whole, the pipeline's arrays with
  the rows array split by halves between the two windows that read it, and the buffers' contents at each segment
  boundary (launch; after the two reshapes of the labels; at the region's exit; after the reshape of the result).
-/
import proofs.«148408_j45200235823668_1_alg».proof.Proof.BitsFrameObl
import Idealize.ShloMosaic.Lib.Pipeline.Regions

set_option maxRecDepth 16384

noncomputable section

namespace Cert.Kernel.Frame

open Idealize.ShloMosaic Idealize.ShloMosaic.TcCoe Idealize.ShloMosaic.Tactic
open Idealize.SL Idealize.SL.RA Idealize.SL.BI
open Idealize.SL.BI (sProp bigSep bigSepL bigSep_univ_eq_bigSepL bigSep_eq_bigSepL_of_eq)
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The thread state: every unscoped buffer held whole -/

/-- The six unscoped buffers, one by one. -/
theorem held_eq (c : Dev nD) (W : Valuation τ sig (Elt F)) :
    (StableHlo.held (c : Thread nD τ) (Pipeline.ucRefs τ sig) W : sProp 𝕄)
      = iprop((((c : Thread nD τ).1, Proc.devRef .tc main_arg0) ↦{fullShare} W (Proc.devRef .tc main_arg0))
          ∗ (((c : Thread nD τ).1, Proc.devRef .tc main_arg1) ↦{fullShare} W (Proc.devRef .tc main_arg1))
          ∗ (((c : Thread nD τ).1, Proc.devRef .tc main_v0) ↦{fullShare} W (Proc.devRef .tc main_v0))
          ∗ (((c : Thread nD τ).1, Proc.devRef .tc main_v1) ↦{fullShare} W (Proc.devRef .tc main_v1))
          ∗ (((c : Thread nD τ).1, Proc.devRef .tc main_v2) ↦{fullShare} W (Proc.devRef .tc main_v2))
          ∗ (((c : Thread nD τ).1, Proc.devRef .tc main_v3) ↦{fullShare} W (Proc.devRef .tc main_v3))) := by
  unfold StableHlo.held
  rw [bigSep_eq_bigSepL_of_eq [Proc.devRef .tc main_arg0, Proc.devRef .tc main_arg1, Proc.devRef .tc main_v0, Proc.devRef .tc main_v1, Proc.devRef .tc main_v2, Proc.devRef .tc main_v3] (by decide) (by decide)]
  rfl

/-- The pipeline's arrays for any proof data that holds the rows array by halves: the rows array at a half share
    for each of the two windows that read it, the two label arrays and the result's array whole. -/
theorem arrays0_eq' (c : Dev nD) (dat : Dat τ (Elt F) Unit ℕ (UR sig nD τ) ℕ cfg0 c)
    (hq0 : dat.q 0 = fullShare.left) (hq1 : dat.q 1 = fullShare.right) (hq2 : dat.q 2 = fullShare) (hq3 : dat.q 3 = fullShare)
    (Fa : (w : Fin cfg0.W) → Buf (Elt F) ((cfg0.win w).arr.view.loc (c : Thread nD τ))) :
    (dat.arrays Fa : sProp 𝕄)
      = iprop((((c : Thread nD τ).1, Proc.devRef .tc main_arg0) ↦{fullShare.left} Fa 0)
          ∗ (((c : Thread nD τ).1, Proc.devRef .tc main_arg0) ↦{fullShare.right} Fa 1)
          ∗ (((c : Thread nD τ).1, Proc.devRef .tc main_v0) ↦{fullShare} Fa 2)
          ∗ (((c : Thread nD τ).1, Proc.devRef .tc main_v1) ↦{fullShare} Fa 3)
          ∗ (((c : Thread nD τ).1, Proc.devRef .tc main_v2) ↦{fullShare} Fa 4)) := by
  have s0 : dat.share 0 = fullShare.left := hq0
  have s1 : dat.share 1 = fullShare.right := hq1
  have s2 : dat.share 2 = fullShare := hq2
  have s3 : dat.share 3 = fullShare := hq3
  have s4 : dat.share 4 = fullShare := rfl
  have e0 : (cfg0.win (0 : Fin 5)).arr.view.set = Finset.univ := (arr_whole0 0).set_eq_univ
  have e2 : (cfg0.win (2 : Fin 5)).arr.view.set = Finset.univ := (arr_whole0 2).set_eq_univ
  have e3 : (cfg0.win (3 : Fin 5)).arr.view.set = Finset.univ := (arr_whole0 3).set_eq_univ
  have e4 : (cfg0.win (4 : Fin 5)).arr.view.set = Finset.univ := (arr_whole0 4).set_eq_univ
  rw [Dat.arrays, bigSep_W0, s0, s1, s2, s3, s4, e0, e2, e3, e4]

theorem arrays0_eq (c : Dev nD) (Fa : (w : Fin cfg0.W) → Buf (Elt F) ((cfg0.win w).arr.view.loc (c : Thread nD τ))) :
    ((dats m 0 c).arrays Fa : sProp 𝕄)
      = iprop((((c : Thread nD τ).1, Proc.devRef .tc main_arg0) ↦{fullShare.left} Fa 0)
          ∗ (((c : Thread nD τ).1, Proc.devRef .tc main_arg0) ↦{fullShare.right} Fa 1)
          ∗ (((c : Thread nD τ).1, Proc.devRef .tc main_v0) ↦{fullShare} Fa 2)
          ∗ (((c : Thread nD τ).1, Proc.devRef .tc main_v1) ↦{fullShare} Fa 3)
          ∗ (((c : Thread nD τ).1, Proc.devRef .tc main_v2) ↦{fullShare} Fa 4)) :=
  arrays0_eq' c (dats m 0 c) (by dsimp only [dats]) (by dsimp only [dats]) (by dsimp only [dats]) (by dsimp only [dats]) Fa

/-! ## The contents at each segment boundary -/

/-- Core `c`'s buffers at launch; -/
abbrev W0 : Dev nD → Valuation τ sig (Elt F) := fun c b => m ((c : Dev nD), b)
/-- after the two reshapes (the region's entry); -/
abbrev W1 : Dev nD → Valuation τ sig (Elt F) := fun c => StableHlo.after hostOps0 (W0 m c)
/-- at the region's exit: the result's array at what the pipeline leaves, every other buffer as entered; -/
def W2 (c : Dev nD) : Valuation τ sig (Elt F) :=
  Function.update (W1 m c) (Proc.devRef .tc main_v2) ((dats m 0 c).arrAt 4 cfg0.N)
/-- after the last reshape. -/
abbrev W3 : Dev nD → Valuation τ sig (Elt F) := fun c => StableHlo.after hostOps1 (W2 m c)

theorem W2_v2 (c : Dev nD) : W2 m c (Proc.devRef .tc main_v2) = (dats m 0 c).arrAt 4 cfg0.N := Function.update_self ..
theorem W2_arg0 (c : Dev nD) : W2 m c (Proc.devRef .tc main_arg0) = W1 m c (Proc.devRef .tc main_arg0) := Function.update_of_ne (StableHlo.devRef_ne_of_ne (by decide)) ..
theorem W2_arg1 (c : Dev nD) : W2 m c (Proc.devRef .tc main_arg1) = W1 m c (Proc.devRef .tc main_arg1) := Function.update_of_ne (StableHlo.devRef_ne_of_ne (by decide)) ..
theorem W2_v0 (c : Dev nD) : W2 m c (Proc.devRef .tc main_v0) = W1 m c (Proc.devRef .tc main_v0) := Function.update_of_ne (StableHlo.devRef_ne_of_ne (by decide)) ..
theorem W2_v1 (c : Dev nD) : W2 m c (Proc.devRef .tc main_v1) = W1 m c (Proc.devRef .tc main_v1) := Function.update_of_ne (StableHlo.devRef_ne_of_ne (by decide)) ..
theorem W2_v3 (c : Dev nD) : W2 m c (Proc.devRef .tc main_v3) = W1 m c (Proc.devRef .tc main_v3) := Function.update_of_ne (StableHlo.devRef_ne_of_ne (by decide)) ..

/-- The arguments end as launched: no host operation writes one and the region only reads them. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := StableHlo.after_of_forall_not_mem (b := Proc.devRef .tc main_arg0) _ _ (List.forall_iff_forall_mem.mp (by
          simp only [hostOps1, List.Forall, StableHlo.reshape_writes, Finset.mem_singleton]
          repeat' apply And.intro
          all_goals exact StableHlo.devRef_ne_of_ne (by decide)))
    _ = W1 m c (Proc.devRef .tc main_arg0) := Function.update_of_ne (StableHlo.devRef_ne_of_ne (by decide)) ..
    _ = W0 m c (Proc.devRef .tc main_arg0) := StableHlo.after_of_forall_not_mem (b := Proc.devRef .tc main_arg0) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := StableHlo.after_of_forall_not_mem (b := Proc.devRef .tc main_arg1) _ _ (List.forall_iff_forall_mem.mp (by
          simp only [hostOps1, List.Forall, StableHlo.reshape_writes, Finset.mem_singleton]
          repeat' apply And.intro
          all_goals exact StableHlo.devRef_ne_of_ne (by decide)))
    _ = W1 m c (Proc.devRef .tc main_arg1) := Function.update_of_ne (StableHlo.devRef_ne_of_ne (by decide)) ..
    _ = W0 m c (Proc.devRef .tc main_arg1) := StableHlo.after_of_forall_not_mem (b := Proc.devRef .tc main_arg1) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg1) := rfl

end Cert.Kernel.Frame

end
-- ==== Proof.BitsFrameLaunch.lean ====
/-
  The launch: @main as a host stretch (the two reshapes of the labels), the kernel's region and a host stretch
  (the reshape of the result), run in order from any memory with zero counters. The region is entered from every
  unscoped buffer held whole; the rows array, which two windows read, is split into two half shares for them and
  joined again at the exit; the result's array leaves the region at what the last point wrote back.
-/
import proofs.«148408_j45200235823668_1_alg».proof.Proof.BitsFrameBoundary
import Idealize.ShloMosaic.Lib.Pipeline.Regions

set_option maxRecDepth 16384

noncomputable section

namespace Cert.Kernel.Frame

open Idealize.ShloMosaic Idealize.ShloMosaic.TcCoe Idealize.ShloMosaic.Tactic
open Idealize.SL Idealize.SL.RA Idealize.SL.BI
open Idealize.SL.BI (sProp bigSep bigSepL bigSep_univ_eq_bigSepL bigSep_eq_bigSepL_of_eq)
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and what rides along -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dats m 0 c
abbrev 𝒱₀ : Variants := Variants.none
/-- No core owes another anything: no level is assigned. -/
abbrev L : GSem nD τ sig → Finset Unit := fun _ => ∅
abbrev lv : GSem nD τ sig → Unit → ℕ := fun _ _ => 0
/-- Beside the buffers through every segment: the generator register at some state and the core owing nothing. -/
abbrev R (c : Dev nD) : sProp 𝕄 := iprop((∃ r, prngReg c r) ∗ ∃ W, owes (c : Thread nD τ) (0 : CellTallies nD τ sig Unit) W)

/-- A host stretch as a segment over the unscoped references. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state: every unscoped buffer at the last boundary's contents, the generator register. -/
abbrev Tₙ (c : Dev nD) : sProp 𝕄 := iprop(StableHlo.held (c : Thread nD τ) (Pipeline.ucRefs τ sig) (W3 m c) ∗ ∃ r, prngReg c r)

/-- After any point but the first the invariant gives back the one that names nothing. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  unfold PhiAt
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

/-! ## The region as a segment -/

set_option backward.isDefEq.respectTransparency.types false in
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := iprop((((c : Thread nD τ).1, Proc.devRef .tc main_arg1) ↦{fullShare} W1 m c (Proc.devRef .tc main_arg1))
    ∗ (((c : Thread nD τ).1, Proc.devRef .tc main_v3) ↦{fullShare} W1 m c (Proc.devRef .tc main_v3)))
  hentry c := by
    rw [Pipeline.ownSems0_none, held_eq]
    rw [show ((pdats m 0 c).arrays ((pdats m 0 c).arrAt · 0) : sProp 𝕄) = (dats m 0 c).arrays ((dats m 0 c).arrAt · 0) from rfl, arrays0_eq]
    iintro ⟨⟨⟨Ha0, Ha1, Hv0, Hv1, Hv2, Hv3⟩, Hp, HO⟩, -, -⟩
    ihave Hs := (pointsTo_share (PosShare.mem_left_op_right fullShare)).1 $$ Ha0
    icases Hs with ⟨HaL, HaR⟩
    imodintro
    isplitl [HaL HaR Hv0 Hv1 Hv2]
    · isplitl [HaL]; · iexact HaL
      isplitl [HaR]; · iexact HaR
      isplitl [Hv0]; · iexact Hv0
      isplitl [Hv1]; · iexact Hv1
      iexact Hv2
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    isplitl [Ha1]; · iexact Ha1
    iexact Hv3
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (Phi_out m c (Fin.last _) (by rw [Fin.val_last]; have := N64; omega)).trans ?_
    unfold Pipeline.ΦA
    iintro ⟨Hr, Hp⟩
    isplitl [Hp]; · iexact Hp
    isplitr; · iempintro
    iexact Hr
  hexit c := by
    rw [show ((pdats m 0 c).arrays ((pdats m 0 c).arrAt · (Pipeline.pin (pcfgs (F := F)) adm 0).N) : sProp 𝕄) = (dats m 0 c).arrays ((dats m 0 c).arrAt · cfg0.N) from rfl, arrays0_eq, held_eq]
    rw [(dats m 0 c).arrAt_in 0 rfl _, (dats m 0 c).arrAt_in 1 rfl _, (dats m 0 c).arrAt_in 2 rfl _, (dats m 0 c).arrAt_in 3 rfl _]
    rw [W2_v2, W2_arg0, W2_arg1, W2_v0, W2_v1, W2_v3]
    iintro ⟨⟨HaL, HaR, Hv0, Hv1, Hv2⟩, HO, HY, ⟨Ha1, Hv3⟩⟩
    imodintro
    isplitl [HaL HaR Hv0 Hv1 Hv2 Ha1 Hv3]
    · isplitl [HaL HaR]
      · iapply (pointsTo_share (PosShare.mem_left_op_right fullShare)).2
        isplitl [HaL]; · iexact HaL
        iexact HaR
      isplitl [Ha1]; · iexact Ha1
      isplitl [Hv0]; · iexact Hv0
      isplitl [Hv1]; · iexact Hv1
      isplitl [Hv2]; · iexact Hv2
      iexact Hv3
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)) ]

theorem main_run (c : Dev nD) : main (F := F) c = Pipeline.Seg.run (segs m) := (main_chain c).trans (by chain_rfl)

set_option backward.isDefEq.respectTransparency.types false in
/-- THE RUN: from any memory with zero counters every weakly fair execution of @main terminates, nothing faulting,
    with the result at the last boundary's contents and both arguments as launched. -/
theorem run_main : θ_run defs (onTc (τ := τ) (main (F := F))) ⟨m, fun _ => 0, ρ⟩ (fun r => ∀ c : Dev nD,
      r.2.mem ((c.tc : Thread nD τ).loc main_v3) = W3 m c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => by
      show iprop(StableHlo.held (c : Thread nD τ) (Pipeline.ucRefs τ sig) (W3 m c) ∗ R c)
        ⊢ iprop(Tₙ m c ∗ ∃ W, owes (c : Thread nD τ) (0 : CellTallies nD τ sig Unit) W)
      iintro ⟨Hh, Hp, HO⟩
      isplitr [HO]
      · isplitl [Hh]; · iexact Hh
        iexact Hp
      · iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨h c _ (mem_uc main_v3 (by decide)),
       (h c _ (mem_uc main_arg0 (by decide))).trans (W3_main_arg0 m c),
       (h c _ (mem_uc main_arg1 (by decide))).trans (W3_main_arg1 m c)⟩)

end Cert.Kernel.Frame

end
-- ==== Proof.FrameBase.lean ====
/-
  The setting of the kernel's run: the arrays as the region finds them, each window's block at a grid point,
  the two conditions of the body in closed form over the 64 points (the first point resets the four running
  scalars; the last point writes the result), where the result window is idle, and the region's invariant with
  the four scratch scalars named.
-/
import proofs.«148408_j45200235823668_1_alg».proof.Proof.Gen.KernelIdeal.Launch
import proofs.«148408_j45200235823668_1_alg».proof.Proof.Gen.KernelIdeal.Skeleton
import proofs.«148408_j45200235823668_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffers when the region is entered: after the two reshapes of the labels. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any
    proof data whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- The first condition: both grid coordinates are zero (the scalars are reset). -/
abbrev cond0_0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only. -/
theorem hcond0_0 : ∀ t : Fin cfg0.N, cond0_0 (grid0.coords t) ↔ t.val % 64 = 0 :=
  (by decide +kernel : ∀ t : Fin grid0.N, cond0_0 (grid0.coords t) ↔ t.val % 64 = 0)

/-- The second condition: both grid coordinates are seven (the result is written). -/
abbrev cond0_1 (i : grid0.Coords) : Prop := k0_cond2 i = 1#1
/-- It holds at the last point only. -/
theorem hcond0_1 : ∀ t : Fin cfg0.N, cond0_1 (grid0.coords t) ↔ t.val % 64 = 63 :=
  (by decide +kernel : ∀ t : Fin grid0.N, cond0_1 (grid0.coords t) ↔ t.val % 64 = 63)

/-! ## Where the result window is idle -/

theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

/-! ## The memrefs the body is called with -/

abbrev ms0_0 (t : Fin cfg0.N) : Memref sig .tc .vmem S512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)
/-- The four scratch scalars: whole scoped buffers of the kernel's own. -/
abbrev scM0_0 : Memref sig .tc .vmem S1x1 .f32 := Memref.whole cc0_scratch0
abbrev scM0_1 : Memref sig .tc .vmem S1x1 .f32 := Memref.whole cc0_scratch1
abbrev scM0_2 : Memref sig .tc .vmem S1x1 .f32 := Memref.whole cc0_scratch2
abbrev scM0_3 : Memref sig .tc .vmem S1x1 .f32 := Memref.whole cc0_scratch3

/-- The invariant that names nothing: the four scratch scalars at some contents, the generator register at
    some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)
          ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Frame

end
-- ==== Proof.FrameRunA.lean ====
/-
  The kernel's body run at the first point (the scalars are reset; the result is not written): from the four input blocks
  it returns the inputs as they were and each scratch scalar with its stores written, the result block untouched.
-/
import proofs.«148408_j45200235823668_1_alg».proof.Proof.FrameBase

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces each scratch scalar ends with, found by running the body, with the run itself. -/
noncomputable def kernelRun0_A (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : cond0_0 i) (hc1 : ¬cond0_1 i)
    (x0 x1 : Vec F S512x512 .f32) (x2 : Vec F S512x1 .i32) (x3 : Vec F S1x512 .i32) :
    Σ' (LS0 : List (View.Piece (Elt F) S1x1 .f32)) (LS1 : List (View.Piece (Elt F) S1x1 .f32)) (LS2 : List (View.Piece (Elt F) S1x1 .f32)), { LS3 : List (View.Piece (Elt F) S1x1 .f32) //
      ∀ (xi4 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10) K } := by
  refine ⟨?_, ?_, ?_, ?_, fun xi4 E K => ?run⟩
  case run =>
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    iexists _; iexact HS3

end Cert.KernelIdeal.Frame

end
-- ==== Proof.FrameRunB.lean ====
/-
  The kernel's body run at a point that is neither the first nor the last (the scalars are added to): from the four input blocks and the four scalars as the point before left them
  it returns the inputs as they were and each scratch scalar with its stores written, the result block untouched.
-/
import proofs.«148408_j45200235823668_1_alg».proof.Proof.FrameBase

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces each scratch scalar ends with, found by running the body, with the run itself. -/
noncomputable def kernelRun0_B (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : ¬cond0_1 i)
    (x0 x1 : Vec F S512x512 .f32) (x2 : Vec F S512x1 .i32) (x3 : Vec F S1x512 .i32) (xs0 xs1 xs2 xs3 : Vec F S1x1 .f32) :
    Σ' (LS0 : List (View.Piece (Elt F) S1x1 .f32)) (LS1 : List (View.Piece (Elt F) S1x1 .f32)) (LS2 : List (View.Piece (Elt F) S1x1 .f32)), { LS3 : List (View.Piece (Elt F) S1x1 .f32) //
      ∀ (xi4 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10) K } := by
  refine ⟨?_, ?_, ?_, ?_, fun xi4 E K => ?run⟩
  case run =>
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1; obtain rfl := harg9.eq_unread hfs2; obtain rfl := harg10.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    iexists _; iexact HS3

end Cert.KernelIdeal.Frame

end
-- ==== Proof.FrameRunC.lean ====
/-
  The kernel's body run at the last point (the scalars are added to and the result is written): from the four input blocks and the four scalars as the point before left them
  it returns the inputs as they were and each scratch scalar with its stores written, and the result block with its store written.
-/
import proofs.«148408_j45200235823668_1_alg».proof.Proof.FrameBase

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces each scratch scalar and the result block ends with, found by running the body, with the run itself. -/
noncomputable def kernelRun0_C (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : cond0_1 i)
    (x0 x1 : Vec F S512x512 .f32) (x2 : Vec F S512x1 .i32) (x3 : Vec F S1x512 .i32) (xs0 xs1 xs2 xs3 : Vec F S1x1 .f32) :
    Σ' (L4 : List (View.Piece (Elt F) S1x1 .f32)) (LS0 : List (View.Piece (Elt F) S1x1 .f32)) (LS1 : List (View.Piece (Elt F) S1x1 .f32)) (LS2 : List (View.Piece (Elt F) S1x1 .f32)), { LS3 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg7.eq_unread hfs0; obtain rfl := harg8.eq_unread hfs1; obtain rfl := harg9.eq_unread hfs2; obtain rfl := harg10.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    isplitl [HS2]; · iexists _; iexact HS2
    iexists _; iexact HS3

end Cert.KernelIdeal.Frame

end
-- ==== Proof.FrameData.lean ====
/-
  The proof data of the kernel's pipeline: what the four running scalars and the result block hold after each
  of the 64 grid points — the first point's run from anything, every later point's run from what the point
  before left, the last point's run also writing the result —, the region's invariant carrying the four
  scalars between points, and the body's obligation at every point.
-/
import proofs.«148408_j45200235823668_1_alg».proof.Proof.FrameRunA
import proofs.«148408_j45200235823668_1_alg».proof.Proof.FrameRunB
import proofs.«148408_j45200235823668_1_alg».proof.Proof.FrameRunC

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a list of stores leaves in a scalar -/

/-- What a list of stores (last first) leaves in a [1,1] buffer they cover: read back over arbitrary contents. -/
def rd (L : List (View.Piece (Elt F) S1x1 .f32)) : Vec F S1x1 .f32 :=
  scM0_0.view.read (Elt F) (scM0_0.view.writes (Elt F) scM0_0.view.junk L)

/-- The result block and the four scalars after a point. -/
structure Outs (F : FTy → Type) where
  o4 : Vec F S1x1 .f32
  s0 : Vec F S1x1 .f32
  s1 : Vec F S1x1 .f32
  s2 : Vec F S1x1 .f32
  s3 : Vec F S1x1 .f32

/-- After the first point: the scalars as its run leaves them (the result block is not written). -/
def outA (c : Dev nD) (t : Fin cfg0.N) (hc0 : cond0_0 (grid0.coords t)) (hc1 : ¬cond0_1 (grid0.coords t)) : Outs F :=
  ⟨rd [],
   rd (kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t)).1,
   rd (kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t)).2.1,
   rd (kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t)).2.2.1,
   rd (kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t)).2.2.2.1⟩

/-- After a middle point, from what the point before left. -/
def outB (c : Dev nD) (t : Fin cfg0.N) (hc0 : ¬cond0_0 (grid0.coords t)) (hc1 : ¬cond0_1 (grid0.coords t)) (p : Outs F) : Outs F :=
  ⟨rd [],
   rd (kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) p.s0 p.s1 p.s2 p.s3).1,
   rd (kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) p.s0 p.s1 p.s2 p.s3).2.1,
   rd (kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) p.s0 p.s1 p.s2 p.s3).2.2.1,
   rd (kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) p.s0 p.s1 p.s2 p.s3).2.2.2.1⟩

/-- After the last point, from what the point before left: the result block is written too. -/
def outC (c : Dev nD) (t : Fin cfg0.N) (hc0 : ¬cond0_0 (grid0.coords t)) (hc1 : cond0_1 (grid0.coords t)) (p : Outs F) : Outs F :=
  ⟨rd (kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) p.s0 p.s1 p.s2 p.s3).1,
   rd (kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) p.s0 p.s1 p.s2 p.s3).2.1,
   rd (kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) p.s0 p.s1 p.s2 p.s3).2.2.1,
   rd (kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) p.s0 p.s1 p.s2 p.s3).2.2.2.1,
   rd (kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) p.s0 p.s1 p.s2 p.s3).2.2.2.2.1⟩

theorem N64 : cfg0.N = 64 := N_0

/-- The accumulation: what the result block and the scalars hold after the body at position `n`. -/
def outsAt0 (c : Dev nD) : (n : ℕ) → n < cfg0.N → Outs F
  | 0, hn => outA m c ⟨0, hn⟩ ((hcond0_0 ⟨0, hn⟩).mpr (Nat.zero_mod _)) (fun h => (fun h => by (try dsimp only at h); omega) ((hcond0_1 ⟨0, hn⟩).mp h))
  | n + 1, hn =>
    if h1 : (n + 1) % 64 = 63 then
      outC m c ⟨n + 1, hn⟩ (fun h => (fun h => by have hN : n + 1 < 64 := lt_of_lt_of_eq hn N64; (try dsimp only at h); omega) ((hcond0_0 ⟨n + 1, hn⟩).mp h))
        ((hcond0_1 ⟨n + 1, hn⟩).mpr h1) (outsAt0 c n (Nat.lt_of_succ_lt hn))
    else
      outB m c ⟨n + 1, hn⟩ (fun h => (fun h => by have hN : n + 1 < 64 := lt_of_lt_of_eq hn N64; (try dsimp only at h); omega) ((hcond0_0 ⟨n + 1, hn⟩).mp h))
        (fun h => h1 ((hcond0_1 ⟨n + 1, hn⟩).mp h)) (outsAt0 c n (Nat.lt_of_succ_lt hn))

theorem outsAt0_A (c : Dev nD) (t : Fin cfg0.N) (h0 : t.val % 64 = 0) (h1 : ¬t.val % 64 = 63) :
    outsAt0 m c t.val t.isLt = outA m c t ((hcond0_0 t).mpr h0) (fun h => h1 ((hcond0_1 t).mp h)) := by
  obtain ⟨n, hn⟩ := t
  have hN : n < 64 := lt_of_lt_of_eq hn N64
  cases n with
  | zero => exact rfl
  | succ n => exact (by exfalso; (try dsimp only at h0); omega)

theorem outsAt0_B (c : Dev nD) (t : Fin cfg0.N) (h0 : ¬t.val % 64 = 0) (h1 : ¬t.val % 64 = 63) :
    outsAt0 m c t.val t.isLt = outB m c t (fun h => h0 ((hcond0_0 t).mp h)) (fun h => h1 ((hcond0_1 t).mp h))
      (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h1).trans rfl

theorem outsAt0_C (c : Dev nD) (t : Fin cfg0.N) (h0 : ¬t.val % 64 = 0) (h1 : t.val % 64 = 63) :
    outsAt0 m c t.val t.isLt = outC m c t (fun h => h0 ((hcond0_0 t).mp h)) ((hcond0_1 t).mpr h1)
      (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_pos h1).trans rfl

/-! ## The invariant -/

/-- The four scalars at the contents `o` names, the generator register at some state. -/
def PhiAt (c : Dev nD) (o : Outs F) : sProp 𝕄 :=
  iprop(iprop(owns (c : Thread nD τ) scM0_0 fullShare o.s0 ∗ owns (c : Thread nD τ) scM0_1 fullShare o.s1
      ∗ owns (c : Thread nD τ) scM0_2 fullShare o.s2 ∗ owns (c : Thread nD τ) scM0_3 fullShare o.s3) ∗ (∃ r, prngReg c r))

/-- The region invariant before position `n`: before the first point nothing is named; afterwards the four
    scalars hold what the point before left. -/
def PhiS (c : Dev nD) : (n : ℕ) → n ≤ cfg0.N → sProp 𝕄
  | 0, _ => Pipeline.ΦA spec0 c
  | n + 1, hn => PhiAt c (outsAt0 m c n hn)

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) : PhiS m c (n + 1) hn = PhiAt c (outsAt0 m c n hn) := rfl
theorem PhiS_pos (c : Dev nD) (n : ℕ) (h : n ≤ cfg0.N) (hz : n ≠ 0) :
    PhiS m c n h = PhiAt c (outsAt0 m c (n - 1) (by omega)) := by
  cases n with
  | zero => exact absurd rfl hz
  | succ n => rfl

/-! ## The proof data -/

/-- The proof data on core `c`: the arrays as the region finds them; after the body each input's buffer at its
    block and the result's at the accumulation's; the invariant above; nothing owed; the array the two row
    windows both read held by halves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).o4
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).o4 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- Stores that tile a [1,1] buffer cover it. -/
theorem rd_owns (c : Dev nD) (M : Memref sig .tc .vmem S1x1 .f32) (L : List (View.Piece (Elt F) S1x1 .f32))
    (hL : ∀ y : S1x1.Idx, ∃ pc ∈ L, y ∈ pc.1.set) :
    (iprop(∃ f, M.view.loc (c : Thread nD τ) ↦[M.view.set]{fullShare} M.view.writes (Elt F) f L) : sProp 𝕄)
      ⊢ owns (c : Thread nD τ) M fullShare (rd L) := by
  unfold owns rd
  iintro ⟨%f, H⟩
  iexists _; isplitr
  swap; · iexact H
  ipureintro; exact View.read_writes_of_cover _ _ _ _ _ hL

end Cert.KernelIdeal.Frame

end
-- ==== Proof.FrameObl.lean ====
/-
  The body's obligation at every grid point: the inputs' staging buffers hold their blocks; the first point
  runs from scalars at anything, every later point from the scalars the point before left; each leaves the
  scalars at the accumulation's contents, and the last also the result block; the result window is idle and
  handed back untouched at every other point.
-/
import proofs.«148408_j45200235823668_1_alg».proof.Proof.FrameData

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem live_0 (c : Dev nD) (t : Fin cfg0.N) : (dats m 0 c).leavesExact 0 t = owns (c : Thread nD τ) (ms0_0 t) fullShare (iblk m c 0 t) := by
  rw [← after0_0 m c t]
theorem live_1 (c : Dev nD) (t : Fin cfg0.N) : (dats m 0 c).leavesExact 1 t = owns (c : Thread nD τ) (ms0_1 t) fullShare (iblk m c 1 t) := by
  rw [← after0_1 m c t]
theorem live_2 (c : Dev nD) (t : Fin cfg0.N) : (dats m 0 c).leavesExact 2 t = owns (c : Thread nD τ) (ms0_2 t) fullShare (iblk m c 2 t) := by
  rw [← after0_2 m c t]
theorem live_3 (c : Dev nD) (t : Fin cfg0.N) : (dats m 0 c).leavesExact 3 t = owns (c : Thread nD τ) (ms0_3 t) fullShare (iblk m c 3 t) := by
  rw [← after0_3 m c t]

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [live_0, live_1, live_2, live_3]
  have hN : t.val < 64 := lt_of_lt_of_eq t.isLt N64
  by_cases h0 : t.val % 64 = 0
  · have h1 : ¬t.val % 64 = 63 := by omega
    have hz : t.val = 0 := by omega
    rw [Dat.leavesExact_idle (dats m 0 c) 4 t (idleAt0_4 t (fun h => h1 ((hcond0_1 t).mp h))) (noFlush0_4 t (fun h => h1 ((hcond0_1 t).mp h)))]
    rw [outsAt0_A m c t h0 h1]
    rw [PhiS_castSucc m c t, PhiS_zero m c _ _ hz, PhiA0_eq]
    unfold outA; (try dsimp only)
    iintro ⟨⟨⟨HS0, HS1, HS2, HS3⟩, Hg⟩, Ho, ⟨%d0, H0⟩, ⟨%d1, H1⟩, ⟨%d2, H2⟩, ⟨%d3, H3⟩, ⟨%d4, H4⟩⟩
    iapply ((kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t)).2.2.2.2 _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    isplitl [HS3]; · iexact HS3
    iintro ⟨H0, H1, H2, H3, H4, HS0, HS1, HS2, HS3⟩
    isplitl [HS0 HS1 HS2 HS3 Hg]
    · unfold PhiAt
      isplitl [HS0 HS1 HS2 HS3]
      · isplitl [HS0]; · iapply (rd_owns c scM0_0 _ (View.cover_of_tiledL (kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t)).1 S1x1.size (by sl_kernel_rfl))); iexact HS0
        isplitl [HS1]; · iapply (rd_owns c scM0_1 _ (View.cover_of_tiledL (kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t)).2.1 S1x1.size (by sl_kernel_rfl))); iexact HS1
        isplitl [HS2]; · iapply (rd_owns c scM0_2 _ (View.cover_of_tiledL (kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t)).2.2.1 S1x1.size (by sl_kernel_rfl))); iexact HS2
        iapply (rd_owns c scM0_3 _ (View.cover_of_tiledL (kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t)).2.2.2.1 S1x1.size (by sl_kernel_rfl))); iexact HS3
      iexact Hg
    isplitl [Ho]; · iexact Ho
    isplitl [H0]; · iexact H0
    isplitl [H1]; · iexact H1
    isplitl [H2]; · iexact H2
    isplitl [H3]; · iexact H3
    iexists _; iexact H4
  · have hz : t.val ≠ 0 := by omega
    by_cases h1 : t.val % 64 = 63
    · rw [show (dats m 0 c).leavesExact 4 t = owns (c : Thread nD τ) (ms0_4 t) fullShare ((dats m 0 c).after 4 t) from by
        unfold Dat.leavesExact; rw [liveAt0_4 t ((hcond0_1 t).mpr h1)], after0_4]
      rw [outsAt0_C m c t h0 h1]
      rw [PhiS_castSucc m c t, PhiS_pos m c _ _ hz]
      unfold outC PhiAt; (try dsimp only)
      iintro ⟨⟨⟨HS0, HS1, HS2, HS3⟩, Hg⟩, Ho, ⟨%d0, H0⟩, ⟨%d1, H1⟩, ⟨%d2, H2⟩, ⟨%d3, H3⟩, ⟨%d4, H4⟩⟩
      iapply ((kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3).2.2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      isplitl [HS3]; · iexact HS3
      iintro ⟨H0, H1, H2, H3, H4, HS0, HS1, HS2, HS3⟩
      isplitl [HS0 HS1 HS2 HS3 Hg]
      · isplitl [HS0 HS1 HS2 HS3]
        · isplitl [HS0]; · iapply (rd_owns c scM0_0 _ (View.cover_of_tiledL (kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3).2.1 S1x1.size (by sl_kernel_rfl))); iexact HS0
          isplitl [HS1]; · iapply (rd_owns c scM0_1 _ (View.cover_of_tiledL (kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3).2.2.1 S1x1.size (by sl_kernel_rfl))); iexact HS1
          isplitl [HS2]; · iapply (rd_owns c scM0_2 _ (View.cover_of_tiledL (kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3).2.2.2.1 S1x1.size (by sl_kernel_rfl))); iexact HS2
          iapply (rd_owns c scM0_3 _ (View.cover_of_tiledL (kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3).2.2.2.2.1 S1x1.size (by sl_kernel_rfl))); iexact HS3
        iexact Hg
      isplitl [Ho]; · iexact Ho
      isplitl [H0]; · iexact H0
      isplitl [H1]; · iexact H1
      isplitl [H2]; · iexact H2
      isplitl [H3]; · iexact H3
      iapply (rd_owns c (ms0_4 t) _ (View.cover_of_tiledL (kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3).1 S1x1.size (by sl_kernel_rfl))); iexact H4
    · rw [Dat.leavesExact_idle (dats m 0 c) 4 t (idleAt0_4 t (fun h => h1 ((hcond0_1 t).mp h))) (noFlush0_4 t (fun h => h1 ((hcond0_1 t).mp h)))]
      rw [outsAt0_B m c t h0 h1]
      rw [PhiS_castSucc m c t, PhiS_pos m c _ _ hz]
      unfold outB PhiAt; (try dsimp only)
      iintro ⟨⟨⟨HS0, HS1, HS2, HS3⟩, Hg⟩, Ho, ⟨%d0, H0⟩, ⟨%d1, H1⟩, ⟨%d2, H2⟩, ⟨%d3, H3⟩, ⟨%d4, H4⟩⟩
      iapply ((kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, HS0, HS1, HS2, HS3⟩
      isplitl [HS0 HS1 HS2 HS3 Hg]
      · isplitl [HS0 HS1 HS2 HS3]
        · isplitl [HS0]; · iapply (rd_owns c scM0_0 _ (View.cover_of_tiledL (kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3).1 S1x1.size (by sl_kernel_rfl))); iexact HS0
          isplitl [HS1]; · iapply (rd_owns c scM0_1 _ (View.cover_of_tiledL (kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3).2.1 S1x1.size (by sl_kernel_rfl))); iexact HS1
          isplitl [HS2]; · iapply (rd_owns c scM0_2 _ (View.cover_of_tiledL (kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3).2.2.1 S1x1.size (by sl_kernel_rfl))); iexact HS2
          iapply (rd_owns c scM0_3 _ (View.cover_of_tiledL (kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3).2.2.2.1 S1x1.size (by sl_kernel_rfl))); iexact HS3
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Frame

end
-- ==== Proof.FrameBoundary.lean ====
/-
  The thread state between the segments of @main: the six unscoped buffers held whole, the pipeline's arrays with
  the rows array split by halves between the two windows that read it, and the buffers' contents at each segment
  boundary (launch; after the two reshapes of the labels; at the region's exit; after the reshape of the result).
-/
import proofs.«148408_j45200235823668_1_alg».proof.Proof.FrameObl
import Idealize.ShloMosaic.Lib.Pipeline.Regions

set_option maxRecDepth 16384

noncomputable section

namespace Cert.KernelIdeal.Frame

open Idealize.ShloMosaic Idealize.ShloMosaic.TcCoe Idealize.ShloMosaic.Tactic
open Idealize.SL Idealize.SL.RA Idealize.SL.BI
open Idealize.SL.BI (sProp bigSep bigSepL bigSep_univ_eq_bigSepL bigSep_eq_bigSepL_of_eq)
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The thread state: every unscoped buffer held whole -/

/-- The six unscoped buffers, one by one. -/
theorem held_eq (c : Dev nD) (W : Valuation τ sig (Elt F)) :
    (StableHlo.held (c : Thread nD τ) (Pipeline.ucRefs τ sig) W : sProp 𝕄)
      = iprop((((c : Thread nD τ).1, Proc.devRef .tc main_arg0) ↦{fullShare} W (Proc.devRef .tc main_arg0))
          ∗ (((c : Thread nD τ).1, Proc.devRef .tc main_arg1) ↦{fullShare} W (Proc.devRef .tc main_arg1))
          ∗ (((c : Thread nD τ).1, Proc.devRef .tc main_v0) ↦{fullShare} W (Proc.devRef .tc main_v0))
          ∗ (((c : Thread nD τ).1, Proc.devRef .tc main_v1) ↦{fullShare} W (Proc.devRef .tc main_v1))
          ∗ (((c : Thread nD τ).1, Proc.devRef .tc main_v2) ↦{fullShare} W (Proc.devRef .tc main_v2))
          ∗ (((c : Thread nD τ).1, Proc.devRef .tc main_v3) ↦{fullShare} W (Proc.devRef .tc main_v3))) := by
  unfold StableHlo.held
  rw [bigSep_eq_bigSepL_of_eq [Proc.devRef .tc main_arg0, Proc.devRef .tc main_arg1, Proc.devRef .tc main_v0, Proc.devRef .tc main_v1, Proc.devRef .tc main_v2, Proc.devRef .tc main_v3] (by decide) (by decide)]
  rfl

/-- The pipeline's arrays for any proof data that holds the rows array by halves: the rows array at a half share
    for each of the two windows that read it, the two label arrays and the result's array whole. -/
theorem arrays0_eq' (c : Dev nD) (dat : Dat τ (Elt F) Unit ℕ (UR sig nD τ) ℕ cfg0 c)
    (hq0 : dat.q 0 = fullShare.left) (hq1 : dat.q 1 = fullShare.right) (hq2 : dat.q 2 = fullShare) (hq3 : dat.q 3 = fullShare)
    (Fa : (w : Fin cfg0.W) → Buf (Elt F) ((cfg0.win w).arr.view.loc (c : Thread nD τ))) :
    (dat.arrays Fa : sProp 𝕄)
      = iprop((((c : Thread nD τ).1, Proc.devRef .tc main_arg0) ↦{fullShare.left} Fa 0)
          ∗ (((c : Thread nD τ).1, Proc.devRef .tc main_arg0) ↦{fullShare.right} Fa 1)
          ∗ (((c : Thread nD τ).1, Proc.devRef .tc main_v0) ↦{fullShare} Fa 2)
          ∗ (((c : Thread nD τ).1, Proc.devRef .tc main_v1) ↦{fullShare} Fa 3)
          ∗ (((c : Thread nD τ).1, Proc.devRef .tc main_v2) ↦{fullShare} Fa 4)) := by
  have s0 : dat.share 0 = fullShare.left := hq0
  have s1 : dat.share 1 = fullShare.right := hq1
  have s2 : dat.share 2 = fullShare := hq2
  have s3 : dat.share 3 = fullShare := hq3
  have s4 : dat.share 4 = fullShare := rfl
  have e0 : (cfg0.win (0 : Fin 5)).arr.view.set = Finset.univ := (arr_whole0 0).set_eq_univ
  have e2 : (cfg0.win (2 : Fin 5)).arr.view.set = Finset.univ := (arr_whole0 2).set_eq_univ
  have e3 : (cfg0.win (3 : Fin 5)).arr.view.set = Finset.univ := (arr_whole0 3).set_eq_univ
  have e4 : (cfg0.win (4 : Fin 5)).arr.view.set = Finset.univ := (arr_whole0 4).set_eq_univ
  rw [Dat.arrays, bigSep_W0, s0, s1, s2, s3, s4, e0, e2, e3, e4]

theorem arrays0_eq (c : Dev nD) (Fa : (w : Fin cfg0.W) → Buf (Elt F) ((cfg0.win w).arr.view.loc (c : Thread nD τ))) :
    ((dats m 0 c).arrays Fa : sProp 𝕄)
      = iprop((((c : Thread nD τ).1, Proc.devRef .tc main_arg0) ↦{fullShare.left} Fa 0)
          ∗ (((c : Thread nD τ).1, Proc.devRef .tc main_arg0) ↦{fullShare.right} Fa 1)
          ∗ (((c : Thread nD τ).1, Proc.devRef .tc main_v0) ↦{fullShare} Fa 2)
          ∗ (((c : Thread nD τ).1, Proc.devRef .tc main_v1) ↦{fullShare} Fa 3)
          ∗ (((c : Thread nD τ).1, Proc.devRef .tc main_v2) ↦{fullShare} Fa 4)) :=
  arrays0_eq' c (dats m 0 c) (by dsimp only [dats]) (by dsimp only [dats]) (by dsimp only [dats]) (by dsimp only [dats]) Fa

/-! ## The contents at each segment boundary -/

/-- Core `c`'s buffers at launch; -/
abbrev W0 : Dev nD → Valuation τ sig (Elt F) := fun c b => m ((c : Dev nD), b)
/-- after the two reshapes (the region's entry); -/
abbrev W1 : Dev nD → Valuation τ sig (Elt F) := fun c => StableHlo.after hostOps0 (W0 m c)
/-- at the region's exit: the result's array at what the pipeline leaves, every other buffer as entered; -/
def W2 (c : Dev nD) : Valuation τ sig (Elt F) :=
  Function.update (W1 m c) (Proc.devRef .tc main_v2) ((dats m 0 c).arrAt 4 cfg0.N)
/-- after the last reshape. -/
abbrev W3 : Dev nD → Valuation τ sig (Elt F) := fun c => StableHlo.after hostOps1 (W2 m c)

theorem W2_v2 (c : Dev nD) : W2 m c (Proc.devRef .tc main_v2) = (dats m 0 c).arrAt 4 cfg0.N := Function.update_self ..
theorem W2_arg0 (c : Dev nD) : W2 m c (Proc.devRef .tc main_arg0) = W1 m c (Proc.devRef .tc main_arg0) := Function.update_of_ne (StableHlo.devRef_ne_of_ne (by decide)) ..
theorem W2_arg1 (c : Dev nD) : W2 m c (Proc.devRef .tc main_arg1) = W1 m c (Proc.devRef .tc main_arg1) := Function.update_of_ne (StableHlo.devRef_ne_of_ne (by decide)) ..
theorem W2_v0 (c : Dev nD) : W2 m c (Proc.devRef .tc main_v0) = W1 m c (Proc.devRef .tc main_v0) := Function.update_of_ne (StableHlo.devRef_ne_of_ne (by decide)) ..
theorem W2_v1 (c : Dev nD) : W2 m c (Proc.devRef .tc main_v1) = W1 m c (Proc.devRef .tc main_v1) := Function.update_of_ne (StableHlo.devRef_ne_of_ne (by decide)) ..
theorem W2_v3 (c : Dev nD) : W2 m c (Proc.devRef .tc main_v3) = W1 m c (Proc.devRef .tc main_v3) := Function.update_of_ne (StableHlo.devRef_ne_of_ne (by decide)) ..

/-- The arguments end as launched: no host operation writes one and the region only reads them. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := StableHlo.after_of_forall_not_mem (b := Proc.devRef .tc main_arg0) _ _ (List.forall_iff_forall_mem.mp (by
          simp only [hostOps1, List.Forall, StableHlo.reshape_writes, Finset.mem_singleton]
          repeat' apply And.intro
          all_goals exact StableHlo.devRef_ne_of_ne (by decide)))
    _ = W1 m c (Proc.devRef .tc main_arg0) := Function.update_of_ne (StableHlo.devRef_ne_of_ne (by decide)) ..
    _ = W0 m c (Proc.devRef .tc main_arg0) := StableHlo.after_of_forall_not_mem (b := Proc.devRef .tc main_arg0) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := StableHlo.after_of_forall_not_mem (b := Proc.devRef .tc main_arg1) _ _ (List.forall_iff_forall_mem.mp (by
          simp only [hostOps1, List.Forall, StableHlo.reshape_writes, Finset.mem_singleton]
          repeat' apply And.intro
          all_goals exact StableHlo.devRef_ne_of_ne (by decide)))
    _ = W1 m c (Proc.devRef .tc main_arg1) := Function.update_of_ne (StableHlo.devRef_ne_of_ne (by decide)) ..
    _ = W0 m c (Proc.devRef .tc main_arg1) := StableHlo.after_of_forall_not_mem (b := Proc.devRef .tc main_arg1) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg1) := rfl

end Cert.KernelIdeal.Frame

end
-- ==== Proof.FrameLaunch.lean ====
/-
  The launch: @main as a host stretch (the two reshapes of the labels), the kernel's region and a host stretch
  (the reshape of the result), run in order from any memory with zero counters. The region is entered from every
  unscoped buffer held whole; the rows array, which two windows read, is split into two half shares for them and
  joined again at the exit; the result's array leaves the region at what the last point wrote back.
-/
import proofs.«148408_j45200235823668_1_alg».proof.Proof.FrameBoundary
import Idealize.ShloMosaic.Lib.Pipeline.Regions

set_option maxRecDepth 16384

noncomputable section

namespace Cert.KernelIdeal.Frame

open Idealize.ShloMosaic Idealize.ShloMosaic.TcCoe Idealize.ShloMosaic.Tactic
open Idealize.SL Idealize.SL.RA Idealize.SL.BI
open Idealize.SL.BI (sProp bigSep bigSepL bigSep_univ_eq_bigSepL bigSep_eq_bigSepL_of_eq)
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and what rides along -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dats m 0 c
abbrev 𝒱₀ : Variants := Variants.none
/-- No core owes another anything: no level is assigned. -/
abbrev L : GSem nD τ sig → Finset Unit := fun _ => ∅
abbrev lv : GSem nD τ sig → Unit → ℕ := fun _ _ => 0
/-- Beside the buffers through every segment: the generator register at some state and the core owing nothing. -/
abbrev R (c : Dev nD) : sProp 𝕄 := iprop((∃ r, prngReg c r) ∗ ∃ W, owes (c : Thread nD τ) (0 : CellTallies nD τ sig Unit) W)

/-- A host stretch as a segment over the unscoped references. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state: every unscoped buffer at the last boundary's contents, the generator register. -/
abbrev Tₙ (c : Dev nD) : sProp 𝕄 := iprop(StableHlo.held (c : Thread nD τ) (Pipeline.ucRefs τ sig) (W3 m c) ∗ ∃ r, prngReg c r)

/-- After any point but the first the invariant gives back the one that names nothing. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  unfold PhiAt
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

/-! ## The region as a segment -/

set_option backward.isDefEq.respectTransparency.types false in
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := iprop((((c : Thread nD τ).1, Proc.devRef .tc main_arg1) ↦{fullShare} W1 m c (Proc.devRef .tc main_arg1))
    ∗ (((c : Thread nD τ).1, Proc.devRef .tc main_v3) ↦{fullShare} W1 m c (Proc.devRef .tc main_v3)))
  hentry c := by
    rw [Pipeline.ownSems0_none, held_eq]
    rw [show ((pdats m 0 c).arrays ((pdats m 0 c).arrAt · 0) : sProp 𝕄) = (dats m 0 c).arrays ((dats m 0 c).arrAt · 0) from rfl, arrays0_eq]
    iintro ⟨⟨⟨Ha0, Ha1, Hv0, Hv1, Hv2, Hv3⟩, Hp, HO⟩, -, -⟩
    ihave Hs := (pointsTo_share (PosShare.mem_left_op_right fullShare)).1 $$ Ha0
    icases Hs with ⟨HaL, HaR⟩
    imodintro
    isplitl [HaL HaR Hv0 Hv1 Hv2]
    · isplitl [HaL]; · iexact HaL
      isplitl [HaR]; · iexact HaR
      isplitl [Hv0]; · iexact Hv0
      isplitl [Hv1]; · iexact Hv1
      iexact Hv2
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    isplitl [Ha1]; · iexact Ha1
    iexact Hv3
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (Phi_out m c (Fin.last _) (by rw [Fin.val_last]; have := N64; omega)).trans ?_
    unfold Pipeline.ΦA
    iintro ⟨Hr, Hp⟩
    isplitl [Hp]; · iexact Hp
    isplitr; · iempintro
    iexact Hr
  hexit c := by
    rw [show ((pdats m 0 c).arrays ((pdats m 0 c).arrAt · (Pipeline.pin (pcfgs (F := F)) adm 0).N) : sProp 𝕄) = (dats m 0 c).arrays ((dats m 0 c).arrAt · cfg0.N) from rfl, arrays0_eq, held_eq]
    rw [(dats m 0 c).arrAt_in 0 rfl _, (dats m 0 c).arrAt_in 1 rfl _, (dats m 0 c).arrAt_in 2 rfl _, (dats m 0 c).arrAt_in 3 rfl _]
    rw [W2_v2, W2_arg0, W2_arg1, W2_v0, W2_v1, W2_v3]
    iintro ⟨⟨HaL, HaR, Hv0, Hv1, Hv2⟩, HO, HY, ⟨Ha1, Hv3⟩⟩
    imodintro
    isplitl [HaL HaR Hv0 Hv1 Hv2 Ha1 Hv3]
    · isplitl [HaL HaR]
      · iapply (pointsTo_share (PosShare.mem_left_op_right fullShare)).2
        isplitl [HaL]; · iexact HaL
        iexact HaR
      isplitl [Ha1]; · iexact Ha1
      isplitl [Hv0]; · iexact Hv0
      isplitl [Hv1]; · iexact Hv1
      isplitl [Hv2]; · iexact Hv2
      iexact Hv3
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)) ]

theorem main_run (c : Dev nD) : main (F := F) c = Pipeline.Seg.run (segs m) := (main_chain c).trans (by chain_rfl)

set_option backward.isDefEq.respectTransparency.types false in
/-- THE RUN: from any memory with zero counters every weakly fair execution of @main terminates, nothing faulting,
    with the result at the last boundary's contents and both arguments as launched. -/
theorem run_main : θ_run defs (onTc (τ := τ) (main (F := F))) ⟨m, fun _ => 0, ρ⟩ (fun r => ∀ c : Dev nD,
      r.2.mem ((c.tc : Thread nD τ).loc main_v3) = W3 m c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => by
      show iprop(StableHlo.held (c : Thread nD τ) (Pipeline.ucRefs τ sig) (W3 m c) ∗ R c)
        ⊢ iprop(Tₙ m c ∗ ∃ W, owes (c : Thread nD τ) (0 : CellTallies nD τ sig Unit) W)
      iintro ⟨Hh, Hp, HO⟩
      isplitr [HO]
      · isplitl [Hh]; · iexact Hh
        iexact Hp
      · iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨h c _ (mem_uc main_v3 (by decide)),
       (h c _ (mem_uc main_arg0 (by decide))).trans (W3_main_arg0 m c),
       (h c _ (mem_uc main_arg1 (by decide))).trans (W3_main_arg1 m c)⟩)

end Cert.KernelIdeal.Frame

end
-- ==== Proof.Fold.lean ====
/-
  What the kernel's four running scalars hold after each grid point, as a fold of the body's arithmetic over the
  blocks the grid points read, and what the last point writes to the result.

  The grid has 64 points, point `t` being the tile (t / 8, t % 8) of the 4096 × 4096 matrix of pairs. At each
  point the body reads a block of 512 rows (the tile's rows), a second block of 512 rows (the tile's columns),
  the labels of the rows as a column and the labels of the columns as a row, computes the tile's four partial
  sums and adds each to its running scalar, which the first point starts from zero. The last point divides and
  adds the four totals.
-/
import proofs.«148408_j45200235823668_1_alg».proof.Proof.Gen.KernelIdeal.Skeleton
import proofs.«148408_j45200235823668_1_alg».proof.Proof.Gen.KernelIdeal.Launch
import proofs.«148408_j45200235823668_1_alg».proof.Proof.Gen.KernelIdeal.Points

noncomputable section

namespace Cert.KernelIdeal.Fold

open Idealize.ShloMosaic Idealize.ShloMosaic.TcCoe Idealize.SL.Sem
open Cert.KernelIdeal Cert.KernelIdeal.Gen

variable {F : FTy → Type} [FloatOps F]

/-- The four running scalars: the positive sum, the negative sum, the positive count, the negative count. -/
structure Acc (F : FTy → Type) where
  s0 : Vec F S1x1 .f32
  s1 : Vec F S1x1 .f32
  s2 : Vec F S1x1 .f32
  s3 : Vec F S1x1 .f32

/-- The four scalars as the first point sets them: zero. -/
def init : Acc F := ⟨k0_pay6, k0_pay7, k0_pay8, k0_pay9⟩

/-- One grid point: each scalar plus the tile's partial sum, from the two row blocks `x0`, `x1` and the two
    label blocks `t0`, `t1` at the tile `i`. -/
def step (i : grid0.Coords) (x0 x1 : Vec F S512x512 .f32) (t0 : Vec F S512x1 .i32) (t1 : Vec F S1x512 .i32) (a : Acc F) : Acc F :=
  ⟨k0_pay1 (k0_pay21 (k0_pay10 x0 x1) (k0_pay11 t0) (k0_pay12 t1) (k0_pay13 i) (k0_pay14 i) a.s0),
   k0_pay2 (k0_pay18 (k0_pay10 x0 x1) (k0_pay11 t0) (k0_pay12 t1)) a.s1,
   k0_pay3 (k0_pay19 (F := F) (k0_pay11 t0) (k0_pay12 t1) (k0_pay13 i) (k0_pay14 i)) a.s2,
   k0_pay4 (k0_pay20 (F := F) (k0_pay11 t0) (k0_pay12 t1)) a.s3⟩

/-- What the last point writes: the positive sum over the positive count plus the negative sum over the
    negative count. -/
def final (a : Acc F) : Vec F S1x1 .f32 := k0_pay5 a.s0 a.s2 a.s1 a.s3

variable (X : S4096x512.Idx → Elt F .f32) (T0 : S4096x1.Idx → Elt F .i32) (T1 : S1x4096.Idx → Elt F .i32)

/-- The blocks point `t` reads: rows of the tile, columns of the tile, their labels. -/
def blkRows (t : Fin cfg0.N) : Vec F S512x512 .f32 := ((cfg0.win 0).blk t).view.read (Elt F) X
def blkCols (t : Fin cfg0.N) : Vec F S512x512 .f32 := ((cfg0.win 1).blk t).view.read (Elt F) X
def blkRowLabels (t : Fin cfg0.N) : Vec F S512x1 .i32 := ((cfg0.win 2).blk t).view.read (Elt F) T0
def blkColLabels (t : Fin cfg0.N) : Vec F S1x512 .i32 := ((cfg0.win 3).blk t).view.read (Elt F) T1

/-- The scalars after point `t` run from scalars `a`. -/
def stepAt (t : Fin cfg0.N) (a : Acc F) : Acc F :=
  step (grid0.coords t) (blkRows X t) (blkCols X t) (blkRowLabels T0 t) (blkColLabels T1 t) a

/-- The four scalars after point `n`: the first point starts them from zero. -/
def accAt : (n : ℕ) → n < cfg0.N → Acc F
  | 0, hn => stepAt X T0 T1 ⟨0, hn⟩ init
  | n + 1, hn => stepAt X T0 T1 ⟨n + 1, hn⟩ (accAt n (Nat.lt_of_succ_lt hn))

/-- The block the last point writes back. -/
def result : Vec F S1x1 .f32 := final (accAt X T0 T1 63 (by have h : cfg0.N = 64 := N_0; omega))

end Cert.KernelIdeal.Fold

end
-- ==== Proof.FoldLink.lean ====
/-
  The kernel body's run, read back as the fold of `Fold`: at each of the three kinds of grid point (first,
  middle, last) every running scalar ends at one store through its whole one-by-one buffer, whose payload
  is the scalar's old value (zero at the first point) plus the tile's partial sum; the last point also
  stores the result block, the two quotients of the four totals added. So, by induction over the 64 points,
  the four scalars after every point are the fold's, and the result block after the last point is the
  fold's result.
-/
import proofs.«148408_j45200235823668_1_alg».proof.Proof.FrameData
import proofs.«148408_j45200235823668_1_alg».proof.Proof.Fold
import Idealize.ShloMosaic.Lib.Pipeline.Value

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offsets of a rank-2 rectangle, however spelt. -/
theorem zero_offsets : (![0, 0] : Fin 2 → Nat) = fun _ => 0 := funext fun a => by fin_cases a <;> rfl

/-! ## What each scalar's stores leave, per kind of point

Every store and every load of the body goes through a buffer's whole rectangle at zero offsets, so what the
stores leave is the last store's payload, a load of an input reads the block, and a load after a store reads
that store's payload. -/

/-- The first point leaves the positive sum at zero plus the tile's part. -/
theorem runA_s0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : cond0_0 i) (hc1 : ¬cond0_1 i)
    (x0 x1 : Vec F S512x512 .f32) (x2 : Vec F S512x1 .i32) (x3 : Vec F S1x512 .i32) :
    rd (kernelRun0_A c i arg2 harg2 arg3 harg3 arg4 harg4 arg5 harg5 arg6 harg6 arg7 harg7 arg8 harg8 arg9 harg9 arg10 harg10 hc0 hc1 x0 x1 x2 x3).1
      = (Fold.step i x0 x1 x2 x3 Fold.init).s0 := by
  unfold rd
  rw [View.read_writes_eq_canon _ _ _ (View.cover_of_tiledL (kernelRun0_A c i arg2 harg2 arg3 harg3 arg4 harg4 arg5 harg5 arg6 harg6 arg7 harg7 arg8 harg8 arg9 harg9 arg10 harg10 hc0 hc1 x0 x1 x2 x3).1 S1x1.size (by sl_kernel_rfl))]
  unfold kernelRun0_A
  dsimp only
  try sl_unfold_words
  simp only [View.canon_cons_unit_zero (S := S1x1) zero_offsets, View.canon_unit_zero (S := S1x1) zero_offsets, View.readCov_unit_zero (S := S1x1) _ zero_offsets, View.readAt_eq_ld, harg2.read_unread, harg3.read_unread, harg4.read_unread, harg5.read_unread, harg6.read_unread, harg7.read_unread, harg8.read_unread, harg9.read_unread, harg10.read_unread, View.ld_unit_zero (S := S512x512) zero_offsets, View.ld_unit_zero (S := S512x1) zero_offsets, View.ld_unit_zero (S := S1x512) zero_offsets, View.ld_unit_zero (S := S1x1) zero_offsets]
  rfl

/-- The first point leaves the negative sum at zero plus the tile's part. -/
theorem runA_s1 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : cond0_0 i) (hc1 : ¬cond0_1 i)
    (x0 x1 : Vec F S512x512 .f32) (x2 : Vec F S512x1 .i32) (x3 : Vec F S1x512 .i32) :
    rd (kernelRun0_A c i arg2 harg2 arg3 harg3 arg4 harg4 arg5 harg5 arg6 harg6 arg7 harg7 arg8 harg8 arg9 harg9 arg10 harg10 hc0 hc1 x0 x1 x2 x3).2.1
      = (Fold.step i x0 x1 x2 x3 Fold.init).s1 := by
  unfold rd
  rw [View.read_writes_eq_canon _ _ _ (View.cover_of_tiledL (kernelRun0_A c i arg2 harg2 arg3 harg3 arg4 harg4 arg5 harg5 arg6 harg6 arg7 harg7 arg8 harg8 arg9 harg9 arg10 harg10 hc0 hc1 x0 x1 x2 x3).2.1 S1x1.size (by sl_kernel_rfl))]
  unfold kernelRun0_A
  dsimp only
  try sl_unfold_words
  simp only [View.canon_cons_unit_zero (S := S1x1) zero_offsets, View.canon_unit_zero (S := S1x1) zero_offsets, View.readCov_unit_zero (S := S1x1) _ zero_offsets, View.readAt_eq_ld, harg2.read_unread, harg3.read_unread, harg4.read_unread, harg5.read_unread, harg6.read_unread, harg7.read_unread, harg8.read_unread, harg9.read_unread, harg10.read_unread, View.ld_unit_zero (S := S512x512) zero_offsets, View.ld_unit_zero (S := S512x1) zero_offsets, View.ld_unit_zero (S := S1x512) zero_offsets, View.ld_unit_zero (S := S1x1) zero_offsets]
  rfl

/-- The first point leaves the positive count at zero plus the tile's part. -/
theorem runA_s2 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : cond0_0 i) (hc1 : ¬cond0_1 i)
    (x0 x1 : Vec F S512x512 .f32) (x2 : Vec F S512x1 .i32) (x3 : Vec F S1x512 .i32) :
    rd (kernelRun0_A c i arg2 harg2 arg3 harg3 arg4 harg4 arg5 harg5 arg6 harg6 arg7 harg7 arg8 harg8 arg9 harg9 arg10 harg10 hc0 hc1 x0 x1 x2 x3).2.2.1
      = (Fold.step i x0 x1 x2 x3 Fold.init).s2 := by
  unfold rd
  rw [View.read_writes_eq_canon _ _ _ (View.cover_of_tiledL (kernelRun0_A c i arg2 harg2 arg3 harg3 arg4 harg4 arg5 harg5 arg6 harg6 arg7 harg7 arg8 harg8 arg9 harg9 arg10 harg10 hc0 hc1 x0 x1 x2 x3).2.2.1 S1x1.size (by sl_kernel_rfl))]
  unfold kernelRun0_A
  dsimp only
  try sl_unfold_words
  simp only [View.canon_cons_unit_zero (S := S1x1) zero_offsets, View.canon_unit_zero (S := S1x1) zero_offsets, View.readCov_unit_zero (S := S1x1) _ zero_offsets, View.readAt_eq_ld, harg2.read_unread, harg3.read_unread, harg4.read_unread, harg5.read_unread, harg6.read_unread, harg7.read_unread, harg8.read_unread, harg9.read_unread, harg10.read_unread, View.ld_unit_zero (S := S512x512) zero_offsets, View.ld_unit_zero (S := S512x1) zero_offsets, View.ld_unit_zero (S := S1x512) zero_offsets, View.ld_unit_zero (S := S1x1) zero_offsets]
  rfl

/-- The first point leaves the negative count at zero plus the tile's part. -/
theorem runA_s3 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : cond0_0 i) (hc1 : ¬cond0_1 i)
    (x0 x1 : Vec F S512x512 .f32) (x2 : Vec F S512x1 .i32) (x3 : Vec F S1x512 .i32) :
    rd (kernelRun0_A c i arg2 harg2 arg3 harg3 arg4 harg4 arg5 harg5 arg6 harg6 arg7 harg7 arg8 harg8 arg9 harg9 arg10 harg10 hc0 hc1 x0 x1 x2 x3).2.2.2.1
      = (Fold.step i x0 x1 x2 x3 Fold.init).s3 := by
  unfold rd
  rw [View.read_writes_eq_canon _ _ _ (View.cover_of_tiledL (kernelRun0_A c i arg2 harg2 arg3 harg3 arg4 harg4 arg5 harg5 arg6 harg6 arg7 harg7 arg8 harg8 arg9 harg9 arg10 harg10 hc0 hc1 x0 x1 x2 x3).2.2.2.1 S1x1.size (by sl_kernel_rfl))]
  unfold kernelRun0_A
  dsimp only
  try sl_unfold_words
  simp only [View.canon_cons_unit_zero (S := S1x1) zero_offsets, View.canon_unit_zero (S := S1x1) zero_offsets, View.readCov_unit_zero (S := S1x1) _ zero_offsets, View.readAt_eq_ld, harg2.read_unread, harg3.read_unread, harg4.read_unread, harg5.read_unread, harg6.read_unread, harg7.read_unread, harg8.read_unread, harg9.read_unread, harg10.read_unread, View.ld_unit_zero (S := S512x512) zero_offsets, View.ld_unit_zero (S := S512x1) zero_offsets, View.ld_unit_zero (S := S1x512) zero_offsets, View.ld_unit_zero (S := S1x1) zero_offsets]
  rfl

/-- A middle point leaves the positive sum at what it held plus the tile's part. -/
theorem runB_s0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : ¬cond0_1 i)
    (x0 x1 : Vec F S512x512 .f32) (x2 : Vec F S512x1 .i32) (x3 : Vec F S1x512 .i32) (xs0 xs1 xs2 xs3 : Vec F S1x1 .f32) :
    rd (kernelRun0_B c i arg2 harg2 arg3 harg3 arg4 harg4 arg5 harg5 arg6 harg6 arg7 harg7 arg8 harg8 arg9 harg9 arg10 harg10 hc0 hc1 x0 x1 x2 x3 xs0 xs1 xs2 xs3).1
      = (Fold.step i x0 x1 x2 x3 ⟨xs0, xs1, xs2, xs3⟩).s0 := by
  unfold rd
  rw [View.read_writes_eq_canon _ _ _ (View.cover_of_tiledL (kernelRun0_B c i arg2 harg2 arg3 harg3 arg4 harg4 arg5 harg5 arg6 harg6 arg7 harg7 arg8 harg8 arg9 harg9 arg10 harg10 hc0 hc1 x0 x1 x2 x3 xs0 xs1 xs2 xs3).1 S1x1.size (by sl_kernel_rfl))]
  unfold kernelRun0_B
  dsimp only
  try sl_unfold_words
  simp only [View.canon_cons_unit_zero (S := S1x1) zero_offsets, View.canon_unit_zero (S := S1x1) zero_offsets, View.readCov_unit_zero (S := S1x1) _ zero_offsets, View.readAt_eq_ld, harg2.read_unread, harg3.read_unread, harg4.read_unread, harg5.read_unread, harg6.read_unread, harg7.read_unread, harg8.read_unread, harg9.read_unread, harg10.read_unread, View.ld_unit_zero (S := S512x512) zero_offsets, View.ld_unit_zero (S := S512x1) zero_offsets, View.ld_unit_zero (S := S1x512) zero_offsets, View.ld_unit_zero (S := S1x1) zero_offsets]
  rfl

/-- A middle point leaves the negative sum at what it held plus the tile's part. -/
theorem runB_s1 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : ¬cond0_1 i)
    (x0 x1 : Vec F S512x512 .f32) (x2 : Vec F S512x1 .i32) (x3 : Vec F S1x512 .i32) (xs0 xs1 xs2 xs3 : Vec F S1x1 .f32) :
    rd (kernelRun0_B c i arg2 harg2 arg3 harg3 arg4 harg4 arg5 harg5 arg6 harg6 arg7 harg7 arg8 harg8 arg9 harg9 arg10 harg10 hc0 hc1 x0 x1 x2 x3 xs0 xs1 xs2 xs3).2.1
      = (Fold.step i x0 x1 x2 x3 ⟨xs0, xs1, xs2, xs3⟩).s1 := by
  unfold rd
  rw [View.read_writes_eq_canon _ _ _ (View.cover_of_tiledL (kernelRun0_B c i arg2 harg2 arg3 harg3 arg4 harg4 arg5 harg5 arg6 harg6 arg7 harg7 arg8 harg8 arg9 harg9 arg10 harg10 hc0 hc1 x0 x1 x2 x3 xs0 xs1 xs2 xs3).2.1 S1x1.size (by sl_kernel_rfl))]
  unfold kernelRun0_B
  dsimp only
  try sl_unfold_words
  simp only [View.canon_cons_unit_zero (S := S1x1) zero_offsets, View.canon_unit_zero (S := S1x1) zero_offsets, View.readCov_unit_zero (S := S1x1) _ zero_offsets, View.readAt_eq_ld, harg2.read_unread, harg3.read_unread, harg4.read_unread, harg5.read_unread, harg6.read_unread, harg7.read_unread, harg8.read_unread, harg9.read_unread, harg10.read_unread, View.ld_unit_zero (S := S512x512) zero_offsets, View.ld_unit_zero (S := S512x1) zero_offsets, View.ld_unit_zero (S := S1x512) zero_offsets, View.ld_unit_zero (S := S1x1) zero_offsets]
  rfl

/-- A middle point leaves the positive count at what it held plus the tile's part. -/
theorem runB_s2 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : ¬cond0_1 i)
    (x0 x1 : Vec F S512x512 .f32) (x2 : Vec F S512x1 .i32) (x3 : Vec F S1x512 .i32) (xs0 xs1 xs2 xs3 : Vec F S1x1 .f32) :
    rd (kernelRun0_B c i arg2 harg2 arg3 harg3 arg4 harg4 arg5 harg5 arg6 harg6 arg7 harg7 arg8 harg8 arg9 harg9 arg10 harg10 hc0 hc1 x0 x1 x2 x3 xs0 xs1 xs2 xs3).2.2.1
      = (Fold.step i x0 x1 x2 x3 ⟨xs0, xs1, xs2, xs3⟩).s2 := by
  unfold rd
  rw [View.read_writes_eq_canon _ _ _ (View.cover_of_tiledL (kernelRun0_B c i arg2 harg2 arg3 harg3 arg4 harg4 arg5 harg5 arg6 harg6 arg7 harg7 arg8 harg8 arg9 harg9 arg10 harg10 hc0 hc1 x0 x1 x2 x3 xs0 xs1 xs2 xs3).2.2.1 S1x1.size (by sl_kernel_rfl))]
  unfold kernelRun0_B
  dsimp only
  try sl_unfold_words
  simp only [View.canon_cons_unit_zero (S := S1x1) zero_offsets, View.canon_unit_zero (S := S1x1) zero_offsets, View.readCov_unit_zero (S := S1x1) _ zero_offsets, View.readAt_eq_ld, harg2.read_unread, harg3.read_unread, harg4.read_unread, harg5.read_unread, harg6.read_unread, harg7.read_unread, harg8.read_unread, harg9.read_unread, harg10.read_unread, View.ld_unit_zero (S := S512x512) zero_offsets, View.ld_unit_zero (S := S512x1) zero_offsets, View.ld_unit_zero (S := S1x512) zero_offsets, View.ld_unit_zero (S := S1x1) zero_offsets]
  rfl

/-- A middle point leaves the negative count at what it held plus the tile's part. -/
theorem runB_s3 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : ¬cond0_1 i)
    (x0 x1 : Vec F S512x512 .f32) (x2 : Vec F S512x1 .i32) (x3 : Vec F S1x512 .i32) (xs0 xs1 xs2 xs3 : Vec F S1x1 .f32) :
    rd (kernelRun0_B c i arg2 harg2 arg3 harg3 arg4 harg4 arg5 harg5 arg6 harg6 arg7 harg7 arg8 harg8 arg9 harg9 arg10 harg10 hc0 hc1 x0 x1 x2 x3 xs0 xs1 xs2 xs3).2.2.2.1
      = (Fold.step i x0 x1 x2 x3 ⟨xs0, xs1, xs2, xs3⟩).s3 := by
  unfold rd
  rw [View.read_writes_eq_canon _ _ _ (View.cover_of_tiledL (kernelRun0_B c i arg2 harg2 arg3 harg3 arg4 harg4 arg5 harg5 arg6 harg6 arg7 harg7 arg8 harg8 arg9 harg9 arg10 harg10 hc0 hc1 x0 x1 x2 x3 xs0 xs1 xs2 xs3).2.2.2.1 S1x1.size (by sl_kernel_rfl))]
  unfold kernelRun0_B
  dsimp only
  try sl_unfold_words
  simp only [View.canon_cons_unit_zero (S := S1x1) zero_offsets, View.canon_unit_zero (S := S1x1) zero_offsets, View.readCov_unit_zero (S := S1x1) _ zero_offsets, View.readAt_eq_ld, harg2.read_unread, harg3.read_unread, harg4.read_unread, harg5.read_unread, harg6.read_unread, harg7.read_unread, harg8.read_unread, harg9.read_unread, harg10.read_unread, View.ld_unit_zero (S := S512x512) zero_offsets, View.ld_unit_zero (S := S512x1) zero_offsets, View.ld_unit_zero (S := S1x512) zero_offsets, View.ld_unit_zero (S := S1x1) zero_offsets]
  rfl

/-- The last point leaves the positive sum at what it held plus the tile's part. -/
theorem runC_s0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : cond0_1 i)
    (x0 x1 : Vec F S512x512 .f32) (x2 : Vec F S512x1 .i32) (x3 : Vec F S1x512 .i32) (xs0 xs1 xs2 xs3 : Vec F S1x1 .f32) :
    rd (kernelRun0_C c i arg2 harg2 arg3 harg3 arg4 harg4 arg5 harg5 arg6 harg6 arg7 harg7 arg8 harg8 arg9 harg9 arg10 harg10 hc0 hc1 x0 x1 x2 x3 xs0 xs1 xs2 xs3).2.1
      = (Fold.step i x0 x1 x2 x3 ⟨xs0, xs1, xs2, xs3⟩).s0 := by
  unfold rd
  rw [View.read_writes_eq_canon _ _ _ (View.cover_of_tiledL (kernelRun0_C c i arg2 harg2 arg3 harg3 arg4 harg4 arg5 harg5 arg6 harg6 arg7 harg7 arg8 harg8 arg9 harg9 arg10 harg10 hc0 hc1 x0 x1 x2 x3 xs0 xs1 xs2 xs3).2.1 S1x1.size (by sl_kernel_rfl))]
  unfold kernelRun0_C
  dsimp only
  try sl_unfold_words
  simp only [View.canon_cons_unit_zero (S := S1x1) zero_offsets, View.canon_unit_zero (S := S1x1) zero_offsets, View.readCov_unit_zero (S := S1x1) _ zero_offsets, View.readAt_eq_ld, harg2.read_unread, harg3.read_unread, harg4.read_unread, harg5.read_unread, harg6.read_unread, harg7.read_unread, harg8.read_unread, harg9.read_unread, harg10.read_unread, View.ld_unit_zero (S := S512x512) zero_offsets, View.ld_unit_zero (S := S512x1) zero_offsets, View.ld_unit_zero (S := S1x512) zero_offsets, View.ld_unit_zero (S := S1x1) zero_offsets]
  rfl

/-- The last point leaves the negative sum at what it held plus the tile's part. -/
theorem runC_s1 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : cond0_1 i)
    (x0 x1 : Vec F S512x512 .f32) (x2 : Vec F S512x1 .i32) (x3 : Vec F S1x512 .i32) (xs0 xs1 xs2 xs3 : Vec F S1x1 .f32) :
    rd (kernelRun0_C c i arg2 harg2 arg3 harg3 arg4 harg4 arg5 harg5 arg6 harg6 arg7 harg7 arg8 harg8 arg9 harg9 arg10 harg10 hc0 hc1 x0 x1 x2 x3 xs0 xs1 xs2 xs3).2.2.1
      = (Fold.step i x0 x1 x2 x3 ⟨xs0, xs1, xs2, xs3⟩).s1 := by
  unfold rd
  rw [View.read_writes_eq_canon _ _ _ (View.cover_of_tiledL (kernelRun0_C c i arg2 harg2 arg3 harg3 arg4 harg4 arg5 harg5 arg6 harg6 arg7 harg7 arg8 harg8 arg9 harg9 arg10 harg10 hc0 hc1 x0 x1 x2 x3 xs0 xs1 xs2 xs3).2.2.1 S1x1.size (by sl_kernel_rfl))]
  unfold kernelRun0_C
  dsimp only
  try sl_unfold_words
  simp only [View.canon_cons_unit_zero (S := S1x1) zero_offsets, View.canon_unit_zero (S := S1x1) zero_offsets, View.readCov_unit_zero (S := S1x1) _ zero_offsets, View.readAt_eq_ld, harg2.read_unread, harg3.read_unread, harg4.read_unread, harg5.read_unread, harg6.read_unread, harg7.read_unread, harg8.read_unread, harg9.read_unread, harg10.read_unread, View.ld_unit_zero (S := S512x512) zero_offsets, View.ld_unit_zero (S := S512x1) zero_offsets, View.ld_unit_zero (S := S1x512) zero_offsets, View.ld_unit_zero (S := S1x1) zero_offsets]
  rfl

/-- The last point leaves the positive count at what it held plus the tile's part. -/
theorem runC_s2 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : cond0_1 i)
    (x0 x1 : Vec F S512x512 .f32) (x2 : Vec F S512x1 .i32) (x3 : Vec F S1x512 .i32) (xs0 xs1 xs2 xs3 : Vec F S1x1 .f32) :
    rd (kernelRun0_C c i arg2 harg2 arg3 harg3 arg4 harg4 arg5 harg5 arg6 harg6 arg7 harg7 arg8 harg8 arg9 harg9 arg10 harg10 hc0 hc1 x0 x1 x2 x3 xs0 xs1 xs2 xs3).2.2.2.1
      = (Fold.step i x0 x1 x2 x3 ⟨xs0, xs1, xs2, xs3⟩).s2 := by
  unfold rd
  rw [View.read_writes_eq_canon _ _ _ (View.cover_of_tiledL (kernelRun0_C c i arg2 harg2 arg3 harg3 arg4 harg4 arg5 harg5 arg6 harg6 arg7 harg7 arg8 harg8 arg9 harg9 arg10 harg10 hc0 hc1 x0 x1 x2 x3 xs0 xs1 xs2 xs3).2.2.2.1 S1x1.size (by sl_kernel_rfl))]
  unfold kernelRun0_C
  dsimp only
  try sl_unfold_words
  simp only [View.canon_cons_unit_zero (S := S1x1) zero_offsets, View.canon_unit_zero (S := S1x1) zero_offsets, View.readCov_unit_zero (S := S1x1) _ zero_offsets, View.readAt_eq_ld, harg2.read_unread, harg3.read_unread, harg4.read_unread, harg5.read_unread, harg6.read_unread, harg7.read_unread, harg8.read_unread, harg9.read_unread, harg10.read_unread, View.ld_unit_zero (S := S512x512) zero_offsets, View.ld_unit_zero (S := S512x1) zero_offsets, View.ld_unit_zero (S := S1x512) zero_offsets, View.ld_unit_zero (S := S1x1) zero_offsets]
  rfl

/-- The last point leaves the negative count at what it held plus the tile's part. -/
theorem runC_s3 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : cond0_1 i)
    (x0 x1 : Vec F S512x512 .f32) (x2 : Vec F S512x1 .i32) (x3 : Vec F S1x512 .i32) (xs0 xs1 xs2 xs3 : Vec F S1x1 .f32) :
    rd (kernelRun0_C c i arg2 harg2 arg3 harg3 arg4 harg4 arg5 harg5 arg6 harg6 arg7 harg7 arg8 harg8 arg9 harg9 arg10 harg10 hc0 hc1 x0 x1 x2 x3 xs0 xs1 xs2 xs3).2.2.2.2.1
      = (Fold.step i x0 x1 x2 x3 ⟨xs0, xs1, xs2, xs3⟩).s3 := by
  unfold rd
  rw [View.read_writes_eq_canon _ _ _ (View.cover_of_tiledL (kernelRun0_C c i arg2 harg2 arg3 harg3 arg4 harg4 arg5 harg5 arg6 harg6 arg7 harg7 arg8 harg8 arg9 harg9 arg10 harg10 hc0 hc1 x0 x1 x2 x3 xs0 xs1 xs2 xs3).2.2.2.2.1 S1x1.size (by sl_kernel_rfl))]
  unfold kernelRun0_C
  dsimp only
  try sl_unfold_words
  simp only [View.canon_cons_unit_zero (S := S1x1) zero_offsets, View.canon_unit_zero (S := S1x1) zero_offsets, View.readCov_unit_zero (S := S1x1) _ zero_offsets, View.readAt_eq_ld, harg2.read_unread, harg3.read_unread, harg4.read_unread, harg5.read_unread, harg6.read_unread, harg7.read_unread, harg8.read_unread, harg9.read_unread, harg10.read_unread, View.ld_unit_zero (S := S512x512) zero_offsets, View.ld_unit_zero (S := S512x1) zero_offsets, View.ld_unit_zero (S := S1x512) zero_offsets, View.ld_unit_zero (S := S1x1) zero_offsets]
  rfl

/-- The last point writes the result block: the two quotients of the four totals, added. -/
theorem runC_o4 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : cond0_1 i)
    (x0 x1 : Vec F S512x512 .f32) (x2 : Vec F S512x1 .i32) (x3 : Vec F S1x512 .i32) (xs0 xs1 xs2 xs3 : Vec F S1x1 .f32) :
    rd (kernelRun0_C c i arg2 harg2 arg3 harg3 arg4 harg4 arg5 harg5 arg6 harg6 arg7 harg7 arg8 harg8 arg9 harg9 arg10 harg10 hc0 hc1 x0 x1 x2 x3 xs0 xs1 xs2 xs3).1
      = Fold.final (Fold.step i x0 x1 x2 x3 ⟨xs0, xs1, xs2, xs3⟩) := by
  unfold rd
  rw [View.read_writes_eq_canon _ _ _ (View.cover_of_tiledL (kernelRun0_C c i arg2 harg2 arg3 harg3 arg4 harg4 arg5 harg5 arg6 harg6 arg7 harg7 arg8 harg8 arg9 harg9 arg10 harg10 hc0 hc1 x0 x1 x2 x3 xs0 xs1 xs2 xs3).1 S1x1.size (by sl_kernel_rfl))]
  unfold kernelRun0_C
  dsimp only
  try sl_unfold_words
  simp only [View.canon_cons_unit_zero (S := S1x1) zero_offsets, View.canon_unit_zero (S := S1x1) zero_offsets, View.readCov_unit_zero (S := S1x1) _ zero_offsets, View.readAt_eq_ld, harg2.read_unread, harg3.read_unread, harg4.read_unread, harg5.read_unread, harg6.read_unread, harg7.read_unread, harg8.read_unread, harg9.read_unread, harg10.read_unread, View.ld_unit_zero (S := S512x512) zero_offsets, View.ld_unit_zero (S := S512x1) zero_offsets, View.ld_unit_zero (S := S1x512) zero_offsets, View.ld_unit_zero (S := S1x1) zero_offsets]
  rfl

variable (m : (ℓ : Loc nD τ sig) → Buf (Elt F) ℓ)

/-! ## The blocks the run reads are the fold's blocks -/

theorem iblk_rows (c : Dev nD) (t : Fin cfg0.N) : iblk m c 0 t = Fold.blkRows (V m c main_arg0) t := rfl
theorem iblk_cols (c : Dev nD) (t : Fin cfg0.N) : iblk m c 1 t = Fold.blkCols (V m c main_arg0) t := rfl
theorem iblk_rowLabels (c : Dev nD) (t : Fin cfg0.N) : iblk m c 2 t = Fold.blkRowLabels (V m c main_v0) t := rfl
theorem iblk_colLabels (c : Dev nD) (t : Fin cfg0.N) : iblk m c 3 t = Fold.blkColLabels (V m c main_v1) t := rfl

/-! ## One grid point -/

/-- The first point's outcome is the fold's step from the zero scalars. -/
theorem outA_acc (c : Dev nD) (t : Fin cfg0.N) (hc0 : cond0_0 (grid0.coords t)) (hc1 : ¬cond0_1 (grid0.coords t)) :
    (outA m c t hc0 hc1).s0 = (Fold.stepAt (V m c main_arg0) (V m c main_v0) (V m c main_v1) t Fold.init).s0
    ∧ (outA m c t hc0 hc1).s1 = (Fold.stepAt (V m c main_arg0) (V m c main_v0) (V m c main_v1) t Fold.init).s1
    ∧ (outA m c t hc0 hc1).s2 = (Fold.stepAt (V m c main_arg0) (V m c main_v0) (V m c main_v1) t Fold.init).s2
    ∧ (outA m c t hc0 hc1).s3 = (Fold.stepAt (V m c main_arg0) (V m c main_v0) (V m c main_v1) t Fold.init).s3 :=
  ⟨runA_s0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t),
   runA_s1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t),
   runA_s2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t),
   runA_s3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t)⟩

/-- A middle point's outcome, from scalars that are the fold's, is the fold's step. -/
theorem outB_acc (c : Dev nD) (t : Fin cfg0.N) (hc0 : ¬cond0_0 (grid0.coords t)) (hc1 : ¬cond0_1 (grid0.coords t))
    (p : Outs F) (a : Fold.Acc F) (h0 : p.s0 = a.s0) (h1 : p.s1 = a.s1) (h2 : p.s2 = a.s2) (h3 : p.s3 = a.s3) :
    (outB m c t hc0 hc1 p).s0 = (Fold.stepAt (V m c main_arg0) (V m c main_v0) (V m c main_v1) t a).s0
    ∧ (outB m c t hc0 hc1 p).s1 = (Fold.stepAt (V m c main_arg0) (V m c main_v0) (V m c main_v1) t a).s1
    ∧ (outB m c t hc0 hc1 p).s2 = (Fold.stepAt (V m c main_arg0) (V m c main_v0) (V m c main_v1) t a).s2
    ∧ (outB m c t hc0 hc1 p).s3 = (Fold.stepAt (V m c main_arg0) (V m c main_v0) (V m c main_v1) t a).s3 := by
  obtain ⟨a0, a1, a2, a3⟩ := a
  obtain ⟨p4, p0, p1, p2, p3⟩ := p
  dsimp only at h0 h1 h2 h3
  subst h0 h1 h2 h3
  exact ⟨runB_s0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) p0 p1 p2 p3,
    runB_s1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) p0 p1 p2 p3,
    runB_s2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) p0 p1 p2 p3,
    runB_s3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) p0 p1 p2 p3⟩

/-- The last point's outcome, from scalars that are the fold's, is the fold's step, and its result block
    the fold's final value. -/
theorem outC_acc (c : Dev nD) (t : Fin cfg0.N) (hc0 : ¬cond0_0 (grid0.coords t)) (hc1 : cond0_1 (grid0.coords t))
    (p : Outs F) (a : Fold.Acc F) (h0 : p.s0 = a.s0) (h1 : p.s1 = a.s1) (h2 : p.s2 = a.s2) (h3 : p.s3 = a.s3) :
    ((outC m c t hc0 hc1 p).s0 = (Fold.stepAt (V m c main_arg0) (V m c main_v0) (V m c main_v1) t a).s0
    ∧ (outC m c t hc0 hc1 p).s1 = (Fold.stepAt (V m c main_arg0) (V m c main_v0) (V m c main_v1) t a).s1
    ∧ (outC m c t hc0 hc1 p).s2 = (Fold.stepAt (V m c main_arg0) (V m c main_v0) (V m c main_v1) t a).s2
    ∧ (outC m c t hc0 hc1 p).s3 = (Fold.stepAt (V m c main_arg0) (V m c main_v0) (V m c main_v1) t a).s3)
    ∧ (outC m c t hc0 hc1 p).o4 = Fold.final (Fold.stepAt (V m c main_arg0) (V m c main_v0) (V m c main_v1) t a) := by
  obtain ⟨a0, a1, a2, a3⟩ := a
  obtain ⟨p4, p0, p1, p2, p3⟩ := p
  dsimp only at h0 h1 h2 h3
  subst h0 h1 h2 h3
  exact ⟨⟨runC_s0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) p0 p1 p2 p3,
    runC_s1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) p0 p1 p2 p3,
    runC_s2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) p0 p1 p2 p3,
    runC_s3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) p0 p1 p2 p3⟩,
    runC_o4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) p0 p1 p2 p3⟩

/-! ## All the points -/

/-- After every point the four running scalars are the fold's. -/
theorem outsAt0_acc (c : Dev nD) : ∀ (n : ℕ) (hn : n < cfg0.N),
    (outsAt0 m c n hn).s0 = (Fold.accAt (V m c main_arg0) (V m c main_v0) (V m c main_v1) n hn).s0
    ∧ (outsAt0 m c n hn).s1 = (Fold.accAt (V m c main_arg0) (V m c main_v0) (V m c main_v1) n hn).s1
    ∧ (outsAt0 m c n hn).s2 = (Fold.accAt (V m c main_arg0) (V m c main_v0) (V m c main_v1) n hn).s2
    ∧ (outsAt0 m c n hn).s3 = (Fold.accAt (V m c main_arg0) (V m c main_v0) (V m c main_v1) n hn).s3
  | 0, hn => outA_acc m c ⟨0, hn⟩ _ _
  | n + 1, hn => by
    have ih := outsAt0_acc c n (Nat.lt_of_succ_lt hn)
    have hN : n + 1 < 64 := lt_of_lt_of_eq hn N64
    have hc0 : ¬cond0_0 (grid0.coords ⟨n + 1, hn⟩) := fun h => by
      have h' := (hcond0_0 ⟨n + 1, hn⟩).mp h
      dsimp only at h'
      omega
    by_cases h1 : (n + 1) % 64 = 63
    · have e : outsAt0 m c (n + 1) hn
          = outC m c ⟨n + 1, hn⟩ hc0 ((hcond0_1 ⟨n + 1, hn⟩).mpr h1) (outsAt0 m c n (Nat.lt_of_succ_lt hn)) :=
        (dif_pos h1).trans rfl
      rw [e]
      exact (outC_acc m c ⟨n + 1, hn⟩ hc0 ((hcond0_1 ⟨n + 1, hn⟩).mpr h1) _ _ ih.1 ih.2.1 ih.2.2.1 ih.2.2.2).1
    · have e : outsAt0 m c (n + 1) hn
          = outB m c ⟨n + 1, hn⟩ hc0 (fun h => h1 ((hcond0_1 ⟨n + 1, hn⟩).mp h)) (outsAt0 m c n (Nat.lt_of_succ_lt hn)) :=
        (dif_neg h1).trans rfl
      rw [e]
      exact outB_acc m c ⟨n + 1, hn⟩ hc0 (fun h => h1 ((hcond0_1 ⟨n + 1, hn⟩).mp h)) _ _ ih.1 ih.2.1 ih.2.2.1 ih.2.2.2

/-- The result block after the last point is the fold's result. -/
theorem outsAt0_result (c : Dev nD) (h63 : 63 < cfg0.N) :
    (outsAt0 m c 63 h63).o4 = Fold.result (V m c main_arg0) (V m c main_v0) (V m c main_v1) := by
  have ih := outsAt0_acc m c 62 (Nat.lt_of_succ_lt h63)
  have hc0 : ¬cond0_0 (grid0.coords ⟨62 + 1, h63⟩) := fun h => by
    have h' := (hcond0_0 ⟨62 + 1, h63⟩).mp h
    dsimp only at h'
    omega
  have h1 : (62 + 1) % 64 = 63 := rfl
  have e : outsAt0 m c (62 + 1) h63
      = outC m c ⟨62 + 1, h63⟩ hc0 ((hcond0_1 ⟨62 + 1, h63⟩).mpr h1) (outsAt0 m c 62 (Nat.lt_of_succ_lt h63)) :=
    (dif_pos h1).trans rfl
  show (outsAt0 m c (62 + 1) h63).o4 = _
  rw [e]
  exact (outC_acc m c ⟨62 + 1, h63⟩ hc0 ((hcond0_1 ⟨62 + 1, h63⟩).mpr h1) _ _ ih.1 ih.2.1 ih.2.2.1 ih.2.2.2).2

end Cert.KernelIdeal.Frame

end
-- ==== Proof.LibColumnCast.lean ====
/-
  A vector as a column: an [a] array cast to [a, 1] reads, at (i, 0), the operand at i.
-/
import Idealize.ShloMosaic.Lib.Pipeline.Value
import Idealize.ShloMosaic.Lib.ValueIdx

noncomputable section

namespace Cert.Lib

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Lib

end
-- ==== Proof.LibRowLayout.lean ====
/-
  A row vector's layout operations read at coordinates. Independent of any program.

  A vector [b] re-laid as the row [1, b] keeps its entries in order, so the row at (0, q) is the vector at q; a row
  [1, b] broadcast down a rows repeats it, so the result at (p, q) is the row at (0, q); and the one entry of a [1, 1]
  array extracted at position (0, 0) is the array at (0, 0).
-/
import Idealize.ShloMosaic.Lib.ValueIdx
import Idealize.ShloMosaic.Lib.Pipeline.Value

noncomputable section

namespace Cert.Lib

open Idealize.ShloMosaic Idealize.ShloMosaic.ValueIdx

/-- A vector [b] shape-cast to the row [1, b], read at (0, q), is the vector at q (any b; with b = 1 this is a [1]
    array re-laid as [1, 1]). -/
theorem vecToRow_apply {α : Type} {b : Nat} (x : (⟨1, ![b]⟩ : Shape).Idx → α)
    (h : (⟨1, ![b]⟩ : Shape).ShapeCasts ⟨2, ![1, b]⟩) (q : Fin b) :
    shapeCast ⟨2, ![1, b]⟩ x h (ix2 0 q) = x (ix1 q) :=
  shapeCast_apply x h (ix2 0 q) (ix1 q) (by
    rw [Shape.rowMajor_val_two, Shape.rowMajor_val_one]; show q.val = 0 * b + q.val; omega)

/-- A row [1, b] broadcast to [a, b], read at (p, q), is the row at (0, q). -/
theorem rowBroadcast_apply {α : Type} {a b : Nat} (x : (⟨2, ![1, b]⟩ : Shape).Idx → α)
    (h : (⟨2, ![1, b]⟩ : Shape).Broadcasts ⟨2, ![a, b]⟩) (p : Fin a) (q : Fin b) :
    broadcastTo ⟨2, ![a, b]⟩ x h (ix2 p q) = x (ix2 0 q) :=
  broadcastTo_apply x h (ix2 p q) (ix2 0 q) (fun d => by
    match d with
    | ⟨0, _⟩ => show (0 : Nat) = if (1 : Nat) = 1 then 0 else p.val; rw [if_pos rfl]
    | ⟨1, _⟩ => show q.val = if b = 1 then 0 else q.val; have := q.isLt; split <;> omega)

/-- The entry of a [1, 1] array extracted at position (0, 0) is the array at (0, 0). -/
theorem extract_one_one {α : Type} (x : (⟨2, ![1, 1]⟩ : Shape).Idx → α)
    (h : ∀ d, (![0, 0] : Fin 2 → Nat) d < (⟨2, ![1, 1]⟩ : Shape).size d) :
    extractAt ![0, 0] x h = x (ix2 0 0) :=
  congrArg x (funext fun d => Fin.ext (by match d with | ⟨0, _⟩ => rfl | ⟨1, _⟩ => rfl))

end Cert.Lib

end
-- ==== Proof.KernelValue.lean ====
/-
  What the kernel's program leaves, in terms of its arguments. The result's window has one block, the whole
  one-by-one array, written back at the last grid point only, so the result's array at the region's exit holds
  the fold's result; the last reshape reads its one entry out as the program's scalar; and the arrays the
  region reads are the rows argument and the label argument re-laid as a column and as a row.
-/
import proofs.«148408_j45200235823668_1_alg».proof.Proof.FoldLink
import proofs.«148408_j45200235823668_1_alg».proof.Proof.FrameBoundary
import proofs.«148408_j45200235823668_1_alg».proof.Proof.LibColumnCast
import proofs.«148408_j45200235823668_1_alg».proof.Proof.LibRowLayout
import Idealize.ShloMosaic.Lib.Pipeline.Value
import Idealize.ShloMosaic.Lib.StableHlo.Run
import Idealize.ShloMosaic.Lib.ValueIdx

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo Idealize.ShloMosaic.ValueIdx
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The result's array at the region's exit -/

/-- The last grid point. -/
abbrev tLast : Fin cfg0.N := ⟨63, by rw [show cfg0.N = 64 from N_0]; decide⟩

/-- The fold's result, as contents of the result's array. -/
abbrev resultArr (c : Dev nD) : Buf (Elt F) ((c : Thread nD τ).loc main_v2) :=
  Fold.result (V m c main_arg0) (V m c main_v0) (V m c main_v1)

/-- The one write-back of the result's window, at the last point, writes the fold's result: the window's one
    block is the whole one-by-one array read at zero offsets. -/
theorem flushed_eq (c : Dev nD) (t : Fin cfg0.N) (hf : (cfg0.win 4).flush t = true) :
    (dats m 0 c).flushed 4 t = ((cfg0.win 4).blk t).view.read (Elt F) (resultArr m c) := by
  have hN : cfg0.N = 64 := N_0
  have h3 : t.val = 63 := by have := (flush0_4 t).mp hf; have := t.isLt; omega
  obtain rfl : t = tLast := Fin.ext h3
  show (cfg0.win 4).cut (grid0.coords tLast) ((dats m 0 c).after 4 tLast) = _
  rw [after0_4]
  have e : (outsAt0 m c tLast.val tLast.isLt).o4 = resultArr m c := outsAt0_result m c tLast.isLt
  rw [e]
  have hz' : (fun a => win0_4.index tLast a * main_v2.ty.shape.size a) = fun _ => 0 :=
    funext fun a => by fin_cases a <;> decide +kernel
  exact (Memref.read_access_unit_zero (Elt F) main_v2 hz' (fun a => by rw [congrFun hz' a]; simp) (resultArr m c)).symm

/-- The result's array ends holding the fold's result: the last point's block covers it. -/
theorem arrAt_result (c : Dev nD) :
    (dats m 0 c).arrAt 4 cfg0.N = Fold.result (V m c main_arg0) (V m c main_v0) (V m c main_v1) :=
  (dats m 0 c).arrAt_eq_of_cover 4 (resultArr m c) (flushed_eq m c) fun i =>
    ⟨tLast, (flush0_4 tLast).mpr rfl, by
      show i ∈ ((View.whole main_v2).slice (win0_4.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_4.index tLast 0 * win0_4.size 0 ≤ (i 0 : Nat)
          ∧ (i 0 : Nat) < win0_4.index tLast 0 * win0_4.size 0 + win0_4.xsize (grid0.coords tLast) 0
        rw [show win0_4.index tLast 0 * win0_4.size 0 = 0 from by decide +kernel,
          show win0_4.xsize (grid0.coords tLast) 0 = 1 from by decide +kernel]
        omega
      | ⟨1, _⟩ =>
        show win0_4.index tLast 1 * win0_4.size 1 ≤ (i 1 : Nat)
          ∧ (i 1 : Nat) < win0_4.index tLast 1 * win0_4.size 1 + win0_4.xsize (grid0.coords tLast) 1
        rw [show win0_4.index tLast 1 * win0_4.size 1 = 0 from by decide +kernel,
          show win0_4.xsize (grid0.coords tLast) 1 = 1 from by decide +kernel]
        omega⟩

/-! ## The scalar result after the last reshape -/

/-- The program's scalar result is the one entry of the fold's result. -/
theorem W3_main_v3 (c : Dev nD) :
    W3 m c (Proc.devRef .tc main_v3)
      = fun _ => Fold.result (V m c main_arg0) (V m c main_v0) (V m c main_v1) (ix2 0 0) := by
  have e : W3 m c (Proc.devRef .tc main_v3)
      = shapeCast S_ (W2 m c (Proc.devRef .tc main_v2)) shapeCasts_S1x1_S_ := by
    show StableHlo.after hostOps1 (W2 m c) (Proc.devRef .tc main_v3) = _
    after_results
    rfl
  funext i
  refine (congrFun e i).trans ?_
  refine (shapeCast_apply (s := S1x1) (t := S_) _ _ i (ix2 0 0) ?_).trans ?_
  · have h1 := (S1x1.rowMajor (ix2 0 0)).isLt
    have h2 := (S_.rowMajor i).isLt
    have n1 : S1x1.numel = 1 := by decide
    have n2 : S_.numel = 1 := by decide
    omega
  · have e2 := W2_v2 m c
    exact (congrFun e2 (ix2 0 0)).trans (congrFun (arrAt_result m c) (ix2 0 0))

/-! ## The arrays the region finds, in terms of the arguments -/

/-- The row-labels column is the label argument. -/
theorem V_main_v0 (c : Dev nD) (r : Fin 4096) :
    V m c main_v0 (ix2 r 0) = m ((c : Thread nD τ).loc main_arg1) (ix1 r) := by
  have e : (V m c main_v0 : S4096x1.Idx → Elt F .i32)
      = shapeCast S4096x1 (m ((c : Thread nD τ).loc main_arg1)) shapeCasts_S4096_S4096x1 := by
    dsimp only [V, V0, hostOps0]
    after_results
    rfl
  exact (congrFun e (ix2 r 0)).trans (Cert.Lib.shapeCast_a_a1_apply _ _ r 0)

/-- The column-labels row is the label argument. -/
theorem V_main_v1 (c : Dev nD) (r : Fin 4096) :
    V m c main_v1 (ix2 0 r) = m ((c : Thread nD τ).loc main_arg1) (ix1 r) := by
  have e : (V m c main_v1 : S1x4096.Idx → Elt F .i32)
      = shapeCast S1x4096 (m ((c : Thread nD τ).loc main_arg1)) shapeCasts_S4096_S1x4096 := by
    dsimp only [V, V0, hostOps0]
    after_results
    rfl
  exact (congrFun e (ix2 0 r)).trans (Cert.Lib.vecToRow_apply _ _ r)

/-- The rows array is the rows argument: no host operation writes it. -/
theorem V_main_arg0' (c : Dev nD) : V m c main_arg0 = m ((c : Thread nD τ).loc main_arg0) :=
  (StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))).trans rfl

end Cert.KernelIdeal.Frame

end
-- ==== Proof.Spec.lean ====
/-
  The contrastive loss of 4096 rows of 512 numbers with integer labels, as one function on the extended
  reals. Each row is divided by its Euclidean norm (at least `eps`); `sim r c` is the inner product of
  rows `r` and `c` so normalised. A pair `(r, c)` with equal labels and `r < c` contributes
  `(1 - sim r c)²` to the positive sum; a pair with different labels contributes `max (sim r c - 1) 0`
  squared to the negative sum. The loss is the positive sum over the number of positive pairs plus the
  negative sum over the number of negative pairs (the quotient's conventions at a zero count are
  `Ideal.div`'s).
-/
import Idealize.ShloMosaic.PureOps.Ideal

noncomputable section

namespace Cert.Spec

open Idealize.ShloMosaic

/-- The norm's lower bound: the binary32 number nearest `1e-8`. -/
def eps : EReal := Ideal.ofBits .f32 0x322BCC77#32
/-- The binary32 word of `1.0`. -/
def one : EReal := Ideal.ofBits .f32 0x3F800000#32

variable (x : Fin 4096 → Fin 512 → EReal) (t : Fin 4096 → BitVec 32)

/-- The Euclidean norm of row `r`. -/
def norm (r : Fin 4096) : EReal := Ideal.sqrt (∑ k : Fin 512, x r k * x r k)

/-- Row `r` divided by its norm, the norm kept at least `eps`. -/
def unit (r : Fin 4096) (k : Fin 512) : EReal := Ideal.div (x r k) (max (norm x r) eps)

/-- The cosine similarity of rows `r` and `c`. -/
def sim (r c : Fin 4096) : EReal := ∑ k : Fin 512, unit x r k * unit x c k

/-- What the pair `(r, c)` adds to the positive sum. -/
def posTerm (r c : Fin 4096) : EReal :=
  if t r = t c ∧ r < c then (one - sim x r c) * (one - sim x r c) else 0

/-- What the pair `(r, c)` adds to the negative sum. -/
def negTerm (r c : Fin 4096) : EReal :=
  if t r = t c then 0 else max (sim x r c - one) 0 * max (sim x r c - one) 0

/-- One for a positive pair, zero otherwise. -/
def posOne (r c : Fin 4096) : EReal := if t r = t c ∧ r < c then 1 else 0

/-- One for a negative pair, zero otherwise. -/
def negOne (r c : Fin 4096) : EReal := if t r = t c then 0 else 1

def posSum : EReal := ∑ r : Fin 4096, ∑ c : Fin 4096, posTerm x t r c
def negSum : EReal := ∑ r : Fin 4096, ∑ c : Fin 4096, negTerm x t r c
def posCount : EReal := ∑ r : Fin 4096, ∑ c : Fin 4096, posOne t r c
def negCount : EReal := ∑ r : Fin 4096, ∑ c : Fin 4096, negOne t r c

/-- The loss. -/
def loss : EReal := Ideal.div (posSum x t) (posCount t) + Ideal.div (negSum x t) (negCount t)

end Cert.Spec

end
-- ==== Proof.TileFold.lean ====
/-
  The sum over all pairs (r, c) of 4096 rows, taken tile by tile.

  The 4096 × 4096 pairs are cut into 8 × 8 tiles of 512 × 512 pairs: row r = 512·i + p, column c = 512·j + q, and
  tile (i, j) is number t = 8·i + j, so i = t / 8 and j = t % 8. Every pair lies in exactly one tile at exactly one
  place, so in an additive commutative monoid (the extended reals under addition are one) the sum over all pairs is the
  sum over the 64 tiles of the sum over the tile's 512 × 512 places. And a sum over the 64 tiles taken one tile after the
  other, as a running total that starts from the first tile, is the sum over the tiles.
-/
import Mathlib.Algebra.BigOperators.Fin
import Mathlib.Algebra.BigOperators.Intervals
import Mathlib.Logic.Equiv.Fin.Basic

namespace Cert.KernelIdeal.TileFold

variable {M : Type*} [AddCommMonoid M]

/-- Place `p` of tile `i` along one axis is a row (or column) number below 4096. -/
theorem place_lt (i : Fin 8) (p : Fin 512) : 512 * i.val + p.val < 4096 := by
  have := i.isLt; have := p.isLt; omega

/-- Row (or column) 512·i + p. -/
def place (i : Fin 8) (p : Fin 512) : Fin 4096 := ⟨512 * i.val + p.val, place_lt i p⟩

theorem place_val (i : Fin 8) (p : Fin 512) : (place i p).val = 512 * i.val + p.val := rfl

/-- A sum over the 4096 rows is the sum over the 8 blocks of rows of the sum over each block's 512 rows. -/
theorem sum_by_blocks (ψ : Fin 4096 → M) : ∑ r : Fin 4096, ψ r = ∑ i : Fin 8, ∑ p : Fin 512, ψ (place i p) := by
  have e := Equiv.sum_comp (finProdFinEquiv : Fin 8 × Fin 512 ≃ Fin (8 * 512)) (fun r : Fin (8 * 512) => ψ r)
  rw [Fintype.sum_prod_type] at e
  refine e.symm.trans ?_
  refine Finset.sum_congr rfl fun i _ => Finset.sum_congr rfl fun p _ => congrArg ψ (Fin.ext ?_)
  show p.val + 512 * i.val = 512 * i.val + p.val
  exact Nat.add_comm _ _

theorem tileRow_lt (t : Fin 64) : t.val / 8 < 8 := by have := t.isLt; omega
theorem tileCol_lt (t : Fin 64) : t.val % 8 < 8 := by omega

/-- The block of rows of tile `t`. -/
def tileRow (t : Fin 64) : Fin 8 := ⟨t.val / 8, tileRow_lt t⟩
/-- The block of columns of tile `t`. -/
def tileCol (t : Fin 64) : Fin 8 := ⟨t.val % 8, tileCol_lt t⟩

/-- A sum over the 8 × 8 tiles by their two numbers is the sum over the 64 tile numbers. -/
theorem sum_tiles (g : Fin 8 → Fin 8 → M) : ∑ i : Fin 8, ∑ j : Fin 8, g i j = ∑ t : Fin 64, g (tileRow t) (tileCol t) := by
  have e := Equiv.sum_comp (finProdFinEquiv : Fin 8 × Fin 8 ≃ Fin (8 * 8)) (fun t : Fin (8 * 8) => g (tileRow t) (tileCol t))
  rw [Fintype.sum_prod_type] at e
  refine Eq.trans ?_ e
  refine Finset.sum_congr rfl fun i _ => Finset.sum_congr rfl fun j _ => ?_
  have hi : tileRow (finProdFinEquiv (i, j)) = i := Fin.ext (by
    show (j.val + 8 * i.val) / 8 = i.val
    have := j.isLt; omega)
  have hj : tileCol (finProdFinEquiv (i, j)) = j := Fin.ext (by
    show (j.val + 8 * i.val) % 8 = j.val
    have := j.isLt; omega)
  rw [hi, hj]

/-- THE SUM OVER ALL PAIRS, TILE BY TILE. -/
theorem sum_pairs_by_tiles (f : Fin 4096 → Fin 4096 → M) :
    ∑ r : Fin 4096, ∑ c : Fin 4096, f r c
      = ∑ t : Fin 64, ∑ p : Fin 512, ∑ q : Fin 512, f (place (tileRow t) p) (place (tileCol t) q) := by
  have h1 : ∑ r : Fin 4096, ∑ c : Fin 4096, f r c = ∑ i : Fin 8, ∑ p : Fin 512, ∑ c : Fin 4096, f (place i p) c :=
    sum_by_blocks (fun r => ∑ c : Fin 4096, f r c)
  have h2 : ∀ i : Fin 8, ∑ p : Fin 512, ∑ c : Fin 4096, f (place i p) c
      = ∑ j : Fin 8, ∑ p : Fin 512, ∑ q : Fin 512, f (place i p) (place j q) := by
    intro i
    have h3 : ∀ p : Fin 512, ∑ c : Fin 4096, f (place i p) c = ∑ j : Fin 8, ∑ q : Fin 512, f (place i p) (place j q) :=
      fun p => sum_by_blocks (fun c => f (place i p) c)
    rw [Finset.sum_congr rfl (fun p _ => h3 p)]
    exact Finset.sum_comm
  rw [h1, Finset.sum_congr rfl (fun i _ => h2 i)]
  exact sum_tiles (fun i j => ∑ p : Fin 512, ∑ q : Fin 512, f (place i p) (place j q))

/-- A running total over the tiles: the first tile's term, then each later tile's term added to what was there. -/
def running (g : Fin 64 → M) : (n : ℕ) → n < 64 → M
  | 0, hn => g ⟨0, hn⟩
  | n + 1, hn => running g n (Nat.lt_of_succ_lt hn) + g ⟨n + 1, hn⟩

/-- The running total after tile `n` is the sum of the terms of tiles `0 … n`. -/
theorem running_eq (g : Fin 64 → M) : ∀ (n : ℕ) (hn : n < 64),
    running g n hn = ∑ k : Fin (n + 1), g ⟨k.val, by have := k.isLt; omega⟩
  | 0, hn => by
    rw [Fin.sum_univ_one]; rfl
  | n + 1, hn => by
    rw [Fin.sum_univ_castSucc, running, running_eq g n (Nat.lt_of_succ_lt hn)]
    rfl

/-- After the last tile the running total is the sum over all 64 tiles. -/
theorem running_last (g : Fin 64 → M) (h : 63 < 64) : running g 63 h = ∑ t : Fin 64, g t :=
  running_eq g 63 h

end Cert.KernelIdeal.TileFold
-- ==== Proof.TileBlocks.lean ====
/-
  The four blocks a grid point reads, entry by entry.

  Grid point t is tile (t / 8, t % 8). Its first block is rows 512·(t / 8) … of the matrix, its second block rows
  512·(t % 8) … of the same matrix (the tile's columns are rows of the matrix too), its third block the labels of the
  first block's rows out of the label column, its fourth the labels of the second block's rows out of the label row. A
  block's coordinate in its array is always the block's index times the block's size plus the coordinate inside the
  block; the indices are read off the kernel's index maps once, over the 64 points.
-/
import proofs.«148408_j45200235823668_1_alg».proof.Proof.Fold
import Idealize.ShloMosaic.Lib.ValueIdx
import Idealize.ShloMosaic.PureOps.Ideal

noncomputable section

namespace Cert.KernelIdeal.TileBlocks

open Idealize.ShloMosaic Idealize.ShloMosaic.ValueIdx Idealize.SL.Sem
open Cert.KernelIdeal Cert.KernelIdeal.Gen

/-- The block indices of the four input windows and the grid coordinates at point `t`: tile row t / 8, tile column
    t % 8. -/
theorem idx_facts : ∀ t : Fin cfg0.N,
    (win0_0.index t (0 : Fin 2) = t.val / 8 ∧ win0_0.index t (1 : Fin 2) = 0)
    ∧ (win0_1.index t (0 : Fin 2) = t.val % 8 ∧ win0_1.index t (1 : Fin 2) = 0)
    ∧ (win0_2.index t (0 : Fin 2) = t.val / 8 ∧ win0_2.index t (1 : Fin 2) = 0)
    ∧ (win0_3.index t (0 : Fin 2) = 0 ∧ win0_3.index t (1 : Fin 2) = t.val % 8)
    ∧ ((grid0.coords t (0 : Fin 2)).val = t.val / 8 ∧ (grid0.coords t (1 : Fin 2)).val = t.val % 8) :=
  (by decide +kernel : ∀ t : Fin grid0.N, _)

variable (X : S4096x512.Idx → Elt Ideal .f32) (T0 : S4096x1.Idx → Elt Ideal .i32) (T1 : S1x4096.Idx → Elt Ideal .i32)

/-- The first block at (p, k) is the matrix at row 512·(t / 8) + p, column k. -/
theorem blkRows_apply (t : Fin cfg0.N) (p k : Fin 512) (r : Fin 4096) (hr : r.val = 512 * (t.val / 8) + p.val) :
    Fold.blkRows (F := Ideal) X t (ix2 p k) = X (ix2 r k) := by
  unfold Fold.blkRows
  rw [View.read_apply]
  show X (((cfg0.win 0).blk t).view.emb (ix2 p k)) = X (ix2 r k)
  refine congrArg X (funext fun a => Fin.ext ?_)
  match a with
  | ⟨0, _⟩ =>
    show win0_0.index t (0 : Fin 2) * 512 + 1 * p.val = r.val
    rw [(idx_facts t).1.1, hr]; omega
  | ⟨1, _⟩ =>
    show win0_0.index t (1 : Fin 2) * 512 + 1 * k.val = k.val
    rw [(idx_facts t).1.2]; omega

/-- The second block at (q, k) is the matrix at row 512·(t % 8) + q, column k. -/
theorem blkCols_apply (t : Fin cfg0.N) (q k : Fin 512) (c : Fin 4096) (hc : c.val = 512 * (t.val % 8) + q.val) :
    Fold.blkCols (F := Ideal) X t (ix2 q k) = X (ix2 c k) := by
  unfold Fold.blkCols
  rw [View.read_apply]
  show X (((cfg0.win 1).blk t).view.emb (ix2 q k)) = X (ix2 c k)
  refine congrArg X (funext fun a => Fin.ext ?_)
  match a with
  | ⟨0, _⟩ =>
    show win0_1.index t (0 : Fin 2) * 512 + 1 * q.val = c.val
    rw [(idx_facts t).2.1.1, hc]; omega
  | ⟨1, _⟩ =>
    show win0_1.index t (1 : Fin 2) * 512 + 1 * k.val = k.val
    rw [(idx_facts t).2.1.2]; omega

/-- The third block at (p, 0) is the label column at row 512·(t / 8) + p. -/
theorem blkRowLabels_apply (t : Fin cfg0.N) (p : Fin 512) (r : Fin 4096) (hr : r.val = 512 * (t.val / 8) + p.val) :
    Fold.blkRowLabels (F := Ideal) T0 t (ix2 p (0 : Fin 1)) = T0 (ix2 r (0 : Fin 1)) := by
  unfold Fold.blkRowLabels
  rw [View.read_apply]
  show T0 (((cfg0.win 2).blk t).view.emb (ix2 p (0 : Fin 1))) = T0 (ix2 r (0 : Fin 1))
  refine congrArg T0 (funext fun a => Fin.ext ?_)
  match a with
  | ⟨0, _⟩ =>
    show win0_2.index t (0 : Fin 2) * 512 + 1 * p.val = r.val
    rw [(idx_facts t).2.2.1.1, hr]; omega
  | ⟨1, _⟩ =>
    show win0_2.index t (1 : Fin 2) * 1 + 1 * 0 = 0
    rw [(idx_facts t).2.2.1.2]

/-- The fourth block at (0, q) is the label row at column 512·(t % 8) + q. -/
theorem blkColLabels_apply (t : Fin cfg0.N) (q : Fin 512) (c : Fin 4096) (hc : c.val = 512 * (t.val % 8) + q.val) :
    Fold.blkColLabels (F := Ideal) T1 t (ix2 (0 : Fin 1) q) = T1 (ix2 (0 : Fin 1) c) := by
  unfold Fold.blkColLabels
  rw [View.read_apply]
  show T1 (((cfg0.win 3).blk t).view.emb (ix2 (0 : Fin 1) q)) = T1 (ix2 (0 : Fin 1) c)
  refine congrArg T1 (funext fun a => Fin.ext ?_)
  match a with
  | ⟨0, _⟩ =>
    show win0_3.index t (0 : Fin 2) * 1 + 1 * 0 = 0
    rw [(idx_facts t).2.2.2.1.1]
  | ⟨1, _⟩ =>
    show win0_3.index t (1 : Fin 2) * 512 + 1 * q.val = c.val
    rw [(idx_facts t).2.2.2.1.2, hc]; omega

end Cert.KernelIdeal.TileBlocks

end
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.LibLinearLayer.lean ====
/-
  A linear layer  mean · Wlᵀ + b + x · Wrᵀ  over the extended reals, read at an output index.

  The weights are stored [o, k] (output features by input features); a kernel transposes each weight to [k, o] and
  multiplies it from the left by an [n, k] block into a zero accumulator, so the product's (p, q) entry is the sum over
  the k input features of block (p, j) · weight (q, j).  The bias is a row [1, o] broadcast down the n rows.  The whole
  layer at (p, q) is therefore

      (∑ j, mean (p, j) · Wl (q, j)) + b (0, q) + ∑ j, x (p, j) · Wr (q, j),

  associated as the operations are applied: the first product, then the bias, then the second product.
  A change of float format on the way into a product is the identity on extended reals.
-/
import Idealize.ShloMosaic.Lib.ValueIdx
import Idealize.ShloMosaic.Lib.ValueLayout
import Idealize.ShloMosaic.Lib.Pipeline.Value
import Idealize.ShloMosaic.PureOps.Ideal.Laws
import proofs.«148408_j45200235823668_1_alg».proof.Proof.LibPlainDot

noncomputable section

namespace Cert.Lib.LinearLayer

open Idealize.ShloMosaic Idealize.ShloMosaic.ValueIdx

/-- An [a, b] array of extended reals. -/
abbrev Mat (a b : Nat) : Type := (⟨2, ![a, b]⟩ : Shape).Idx → EReal

/-- The layer at row `p`, output feature `q`. -/
def lin {n k o : Nat} (mean x : Mat n k) (Wl Wr : Mat o k) (b : Mat 1 o) (p : Fin n) (q : Fin o) : EReal :=
  (∑ j : Fin k, mean (ix2 p j) * Wl (ix2 q j)) + b (ix2 (0 : Fin 1) q) + ∑ j : Fin k, x (ix2 p j) * Wr (ix2 q j)

/-- One product with a bias: `z · Wᵀ + b` at row `p`, output feature `q`. -/
def proj {n k o : Nat} (z : Mat n k) (W : Mat o k) (b : Mat 1 o) (p : Fin n) (q : Fin o) : EReal :=
  (∑ j : Fin k, z (ix2 p j) * W (ix2 q j)) + b (ix2 (0 : Fin 1) q)

/-- The layer over whole arrays. -/
def layer {n k o : Nat} (mean x : Mat n k) (Wl Wr : Mat o k) (b : Mat 1 o) : Mat n o :=
  fun i => lin mean x Wl Wr b (i 0) (i 1)

/-- The layer followed by the maximum with the f32 zero word, over whole arrays. -/
def reluLayer {n k o : Nat} (mean x : Mat n k) (Wl Wr : Mat o k) (b : Mat 1 o) : Mat n o :=
  fun i => max (lin mean x Wl Wr b (i 0) (i 1)) (Ideal.ofBits .f32 0x00000000#32)

/-- The product with a bias over whole arrays. -/
def projLayer {n k o : Nat} (z : Mat n k) (W : Mat o k) (b : Mat 1 o) : Mat n o :=
  fun i => proj z W b (i 0) (i 1)

/-- A block times a transposed weight into a zero accumulator, at (p, q): the sum over the shared axis of
    block (p, j) · weight (q, j). -/
theorem matmul_transposed_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (w : FVec Ideal ⟨2, ![N, K]⟩ φ₂)
    (ht : (⟨2, ![N, K]⟩ : Shape).Transposes [1, 0] ⟨2, ![K, N]⟩) (p : Fin M) (q : Fin N) :
    FloatOps.matmul (Cert.Lib.plainDot M K N wf) prec l (transpose ⟨2, ![K, N]⟩ [1, 0] w ht)
        (constant (F := Ideal) ⟨2, ![M, N]⟩ .f32 0x00000000#32) (ix2 p q)
      = ∑ j : Fin K, l (ix2 p j) * w (ix2 q j) := by
  rw [Cert.Lib.matmul_zero_apply]
  exact Finset.sum_congr rfl fun j _ => by rw [transpose_ix2_apply]

/-- The host's product of an array with a transposed weight, at (p, q). -/
theorem dotGeneral_transposed_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (w : FVec Ideal ⟨2, ![N, K]⟩ φ₂)
    (ht : (⟨2, ![N, K]⟩ : Shape).Transposes [1, 0] ⟨2, ![K, N]⟩) (p : Fin M) (q : Fin N) :
    FloatOps.dotGeneral (Cert.Lib.plainDot M K N wf) prec sched l (transpose ⟨2, ![K, N]⟩ [1, 0] w ht) (ix2 p q)
      = ∑ j : Fin K, l (ix2 p j) * w (ix2 q j) := by
  rw [Cert.Lib.dotGeneral_plain_apply]
  exact Finset.sum_congr rfl fun j _ => by rw [transpose_ix2_apply]

end Cert.Lib.LinearLayer

end
-- ==== Proof.LibAxisSums.lean ====
/-
  The sum of a matrix along one of its two axes, read at an index. Independent of any program.

  A float add-reduction of an [a, b] matrix over its second axis leaves an [a] vector whose entry p is the sum over
  k : Fin b of the matrix at (p, k) — a row sum; over its first axis it leaves a [b] vector whose entry q is the sum
  over k : Fin a of the matrix at (k, q) — a column sum. Over the extended reals the reduction's neutral start value
  contributes nothing, so each is the plain finite sum.
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- ROW SUMS: an add-reduction of an [a, b] matrix over axis 1, at row p, is the sum over k of the matrix at (p, k). -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun c => Fin.ext ?_)
  match c with
  | ⟨0, _⟩ => rfl
  | ⟨1, _⟩ => rfl

/-- COLUMN SUMS: an add-reduction of an [a, b] matrix over axis 0, at column q, is the sum over k of the matrix at (k, q). -/
theorem colSum_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ src acc h hφ hacc (ix1 q) = ∑ k : Fin a, src (ix2 k q) := by
  refine (Ideal.multiReduction_add_single src acc h hφ hacc (ix1 q)).trans ?_
  refine Finset.sum_congr rfl fun k _ => congrArg src (funext fun c => Fin.ext ?_)
  match c with
  | ⟨0, _⟩ => rfl
  | ⟨1, _⟩ => rfl

end Cert.Lib

end
-- ==== Proof.LibColumnBroadcast.lean ====
/-
  A column broadcast over the columns: a [a, 1] array broadcast to [a, b] reads, at (p, c), the operand's row p.
-/
import Idealize.ShloMosaic.Lib.Pipeline.Value
import Idealize.ShloMosaic.Lib.ValueIdx

noncomputable section

namespace Cert.Lib

open Idealize.ShloMosaic Idealize.ShloMosaic.ValueIdx

variable {α : Type}

/-- A `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.TileSim.lean ====
/-
  The similarity block of one tile, entry by entry.

  From a block of 512 rows and a second block of 512 rows, the kernel divides every row by its Euclidean norm (kept at
  least the small constant), and multiplies the first normalised block by the transpose of the second. Its entry (p, q)
  is therefore the inner product of normalised row p of the first block with normalised row q of the second: a function
  of those two rows alone. A change of float format on the way into the product is the identity on extended reals, and
  the product's zero accumulator adds nothing.
-/
import proofs.«148408_j45200235823668_1_alg».proof.Proof.Gen.KernelIdeal.Skeleton
import proofs.«148408_j45200235823668_1_alg».proof.Proof.LibLinearLayer
import proofs.«148408_j45200235823668_1_alg».proof.Proof.LibAxisSums
import proofs.«148408_j45200235823668_1_alg».proof.Proof.LibColumnCast
import proofs.«148408_j45200235823668_1_alg».proof.Proof.LibColumnBroadcast

noncomputable section

namespace Cert.KernelIdeal.TileSim

open Idealize.ShloMosaic Idealize.ShloMosaic.ValueIdx
open Cert.KernelIdeal Cert.KernelIdeal.Gen

/-- The Euclidean norm of a row of 512 numbers. -/
def rowNorm (a : Fin 512 → EReal) : EReal := Ideal.sqrt (∑ k : Fin 512, a k * a k)

/-- A row divided by its norm, the norm kept at least the small constant. -/
def rowUnit (a : Fin 512 → EReal) (k : Fin 512) : EReal :=
  Ideal.div (a k) (max (rowNorm a) (Ideal.ofBits .f32 0x322BCC77#32))

/-- The inner product of two rows, each so normalised. -/
def rowSim (a b : Fin 512 → EReal) : EReal := ∑ k : Fin 512, rowUnit a k * rowUnit b k

/-- A block divided, row by row, by the column of its rows' norms broadcast along the rows: entry (p, k) is the
    normalised row p at k. -/
theorem unit_apply (x : FVec Ideal S512x512 .f32) (p k : Fin 512) :
    divf x (broadcastTo S512x512
        (maximumf
          (sqrt (shapeCast S512x1
            (multiReduction .add [1] S512 (mulf x x) 0x00000000#32 reduces_S512x512_S512 (.inl rfl) rfl)
            shapeCasts_S512_S512x1))
          (broadcast S512x1 (Scalar.ofBits (F := Ideal) .f32 0x322BCC77#32)))
        broadcasts_S512x1_S512x512) (ix2 p k)
      = rowUnit (fun k => x (ix2 p k)) k := by
  show Ideal.div (x (ix2 p k)) (broadcastTo S512x512 _ broadcasts_S512x1_S512x512 (ix2 p k)) = _
  unfold rowUnit rowNorm
  refine congrArg (Ideal.div (x (ix2 p k))) ?_
  refine (Cert.Lib.broadcastTo_a1_ab_apply _ _ p k).trans ?_
  show max (Ideal.sqrt (shapeCast S512x1 _ shapeCasts_S512_S512x1 (ix2 p (0 : Fin 1)))) _ = _
  refine congrArg (fun z => max (Ideal.sqrt z) (Ideal.ofBits .f32 0x322BCC77#32)) ?_
  refine (Cert.Lib.shapeCast_a_a1_apply _ _ p 0).trans ?_
  exact Cert.Lib.rowSum_apply (a := 512) (b := 512) (mulf x x) 0x00000000#32 reduces_S512x512_S512 (.inl rfl) rfl p

/-- THE SIMILARITY BLOCK AT (p, q): the inner product of normalised row p of the first block and normalised row q
    of the second. -/
theorem pay10_apply (x0 x1 : Vec Ideal S512x512 .f32) (p q : Fin 512) :
    k0_pay10 (F := Ideal) x0 x1 (ix2 p q) = rowSim (fun k => x0 (ix2 p k)) (fun k => x1 (ix2 q k)) := by
  unfold k0_pay10
  refine (Cert.Lib.LinearLayer.matmul_transposed_apply (M := 512) (K := 512) (N := 512)
    dot_S512x512_S512x512_S512x512_1_0_0_1_n_n.wf none _ _ transposes_S512x512_p1_0_S512x512 p q).trans ?_
  unfold rowSim
  refine Finset.sum_congr rfl fun k _ => ?_
  exact congrArg₂ (· * ·) (unit_apply x0 p k) (unit_apply x1 q k)

end Cert.KernelIdeal.TileSim

end
-- ==== Proof.LibMaskBit.lean ====
/-
  A one-bit mask word that is set exactly when a proposition holds. Independent of any program.

  A comparison yields a one-bit word, and what is known of it is a proposition: the word is 1 exactly when `P` holds.
  Then a selection on the word chooses as `P` decides; the word widened to 32 bits by zero extension and converted as
  a signed integer to an extended real is 1 where `P` holds and 0 elsewhere (the widened word is 0 or 1, whose signed
  reading is itself, and the conversion is exact); and the word's complement (exclusive or with the set bit) is set
  exactly when the word is not.
-/
import Idealize.ShloMosaic.Lib.ValueIdx
import Idealize.ShloMosaic.PureOps.Ideal

namespace Cert.Lib.MaskBit

open Idealize.ShloMosaic Idealize.ShloMosaic.ValueIdx

/-- The complement of a bit is set exactly when the bit is not. -/
theorem xori_one_eq_one_iff : ∀ b : BitVec 1, IntOp.xori b 1#1 = 1#1 ↔ ¬ b = 1#1 := by decide

/-- A mask bit that is set exactly when `P` holds selects as `P` decides. -/
theorem select_of_iff {α : Type} {b : BitVec 1} {P : Prop} [Decidable P] (h : b = 1#1 ↔ P) (x y : α) :
    Scalar.select b x y = if P then x else y := by
  by_cases hb : b = 1#1
  · rw [if_pos (h.mp hb), hb, select_one]
  · rw [if_neg (fun hP => hb (h.mpr hP)), eq_zero_of_ne_one hb, select_zero]

/-- A mask bit that is set exactly when `P` holds, widened to a 32-bit word and converted as a signed integer to an
    extended real (any float format), is one where `P` holds and zero elsewhere. -/
theorem sitofp_of_iff (φ : FTy) {b : BitVec 1} {P : Prop} [Decidable P] (h : b = 1#1 ↔ P) :
    FloatOps.sitofp (F := Ideal) φ (b.setWidth 32) = if P then (1 : EReal) else 0 := by
  by_cases hb : b = 1#1
  · rw [if_pos (h.mp hb), hb]
    show ((((1#1 : BitVec 1).setWidth 32).toInt : ℝ) : EReal) = 1
    rw [show ((1#1 : BitVec 1).setWidth 32).toInt = 1 from by decide, Int.cast_one, EReal.coe_one]
  · rw [if_neg (fun hP => hb (h.mpr hP)), eq_zero_of_ne_one hb]
    show ((((0#1 : BitVec 1).setWidth 32).toInt : ℝ) : EReal) = 0
    rw [show ((0#1 : BitVec 1).setWidth 32).toInt = 0 from by decide, Int.cast_zero, EReal.coe_zero]

end Cert.Lib.MaskBit
-- ==== Proof.TileMask.lean ====
/-
  The two masks of a tile, entry by entry, as propositions.

  At place (p, q) of a tile the kernel compares the label of the tile's row p with the label of its column q: the
  "same label" bit. The positive mask also asks that the row's number in the whole matrix be below the column's; the
  kernel computes the two numbers as 32-bit words, 512 times the tile's row (column) number plus the place, which for
  the 8 × 8 tiles stay far below 2³¹, so the signed comparison of the words is the comparison of the numbers. The
  negative mask is the complement of the "same label" bit.
-/
import proofs.«148408_j45200235823668_1_alg».proof.Proof.Gen.KernelIdeal.Skeleton
import proofs.«148408_j45200235823668_1_alg».proof.Proof.LibColumnBroadcast
import proofs.«148408_j45200235823668_1_alg».proof.Proof.LibMaskBit
import Idealize.ShloMosaic.Lib.ValueLayout
import Idealize.ShloMosaic.Lib.Affine

noncomputable section

namespace Cert.KernelIdeal.TileMask

open Idealize.ShloMosaic Idealize.ShloMosaic.ValueIdx
open Cert.KernelIdeal Cert.KernelIdeal.Gen

/-- The column of row labels as the kernel re-lays it: unchanged. -/
theorem pay11_eq (t0 : Vec Ideal S512x1 .i32) : k0_pay11 (F := Ideal) t0 = t0 := by
  unfold k0_pay11
  exact shapeCast_self _ _

/-- The row of column labels as the kernel re-lays it: unchanged. -/
theorem pay12_eq (t1 : Vec Ideal S1x512 .i32) : k0_pay12 (F := Ideal) t1 = t1 := by
  unfold k0_pay12
  exact shapeCast_self _ _

/-- The "same label" bit at (p, q): the comparison of row p's label with column q's. -/
theorem pay15_apply (v28 : IVec S512x1 32) (v30 : IVec S1x512 32) (p q : Fin 512) :
    k0_pay15 v28 v30 (ix2 p q) = IntOp.cmpi .eq (v28 (ix2 p (0 : Fin 1))) (v30 (ix2 (0 : Fin 1) q)) := by
  unfold k0_pay15
  show IntOp.cmpi .eq (broadcastTo S512x512 v28 broadcasts_S512x1_S512x512 (ix2 p q))
      (broadcastTo S512x512 v30 broadcasts_S1x512_S512x512 (ix2 p q)) = _
  exact congrArg₂ (IntOp.cmpi .eq) (Cert.Lib.broadcastTo_a1_ab_apply v28 _ p q) (broadcastTo_1b_ab_apply v30 _ p q)

/-- The positive mask's bit at (p, q). -/
theorem pay16_apply (v28 : IVec S512x1 32) (v30 : IVec S1x512 32) (v35 : IVec S512x1 32) (v38 : IVec S1x512 32)
    (p q : Fin 512) :
    k0_pay16 v28 v30 v35 v38 (ix2 p q)
      = IntOp.andi (IntOp.cmpi .eq (v28 (ix2 p (0 : Fin 1))) (v30 (ix2 (0 : Fin 1) q)))
          (IntOp.cmpi .slt (v35 (ix2 p (0 : Fin 1))) (v38 (ix2 (0 : Fin 1) q))) := by
  unfold k0_pay16
  show IntOp.andi (k0_pay15 v28 v30 (ix2 p q))
      (IntOp.cmpi .slt (broadcastTo S512x512 v35 broadcasts_S512x1_S512x512 (ix2 p q))
        (broadcastTo S512x512 v38 broadcasts_S1x512_S512x512 (ix2 p q))) = _
  exact congrArg₂ IntOp.andi (pay15_apply v28 v30 p q)
    (congrArg₂ (IntOp.cmpi .slt) (Cert.Lib.broadcastTo_a1_ab_apply v35 _ p q) (broadcastTo_1b_ab_apply v38 _ p q))

/-- The negative mask's bit at (p, q). -/
theorem pay17_apply (v28 : IVec S512x1 32) (v30 : IVec S1x512 32) (p q : Fin 512) :
    k0_pay17 v28 v30 (ix2 p q)
      = IntOp.xori (IntOp.cmpi .eq (v28 (ix2 p (0 : Fin 1))) (v30 (ix2 (0 : Fin 1) q))) 1#1 := by
  unfold k0_pay17
  show IntOp.xori (k0_pay15 v28 v30 (ix2 p q)) 1#1 = _
  exact congrArg (fun b => IntOp.xori b 1#1) (pay15_apply v28 v30 p q)

/-- 512·n + p as a 32-bit word, for a tile number n below 8 and a place p below 512, read signed, is the number. -/
theorem word_toInt (n p : ℕ) (hn : n < 8) (hp : p < 512) :
    (IntOp.addi (Scalar.muli (BitVec.ofNat 32 n) 512#32) (BitVec.ofNat 32 p)).toInt = ((512 * n + p : ℕ) : ℤ) := by
  have h : (IntOp.addi (Scalar.muli (BitVec.ofNat 32 n) 512#32) (BitVec.ofNat 32 p)).toNat = 512 * n + p := by
    show (BitVec.ofNat 32 n * 512#32 + BitVec.ofNat 32 p).toNat = _
    rw [BitVec.toNat_add, BitVec.toNat_mul, BitVec.toNat_ofNat, BitVec.toNat_ofNat, BitVec.toNat_ofNat]
    omega
  rw [BitVec.toInt_eq_toNat_cond, h]
  have : 2 * (512 * n + p) < 2 ^ 32 := by omega
  rw [if_pos this]

/-- The row numbers of the tile's rows, as the kernel computes them: at row p the word of 512·(tile row) + p. -/
theorem pay13_toInt (i : grid0.Coords) (p : Fin 512) :
    (k0_pay13 i (ix2 p (0 : Fin 1))).toInt = ((512 * (i 0).val + p.val : ℕ) : ℤ) := by
  unfold k0_pay13
  show (IntOp.addi (Scalar.muli (BitVec.ofNat 32 (i 0).val) 512#32)
      (iota .tc S512x1 32 [0] iota_S512x1_d0_w32 (ix2 p (0 : Fin 1)))).toInt = _
  rw [iota_single_apply]
  exact word_toInt (i 0).val p.val (i 0).isLt p.isLt

/-- The column numbers of the tile's columns, as the kernel computes them: at column q the word of
    512·(tile column) + q. -/
theorem pay14_toInt (i : grid0.Coords) (q : Fin 512) :
    (k0_pay14 i (ix2 (0 : Fin 1) q)).toInt = ((512 * (i 1).val + q.val : ℕ) : ℤ) := by
  unfold k0_pay14
  show (IntOp.addi (Scalar.muli (BitVec.ofNat 32 (i 1).val) 512#32)
      (iota .tc S1x512 32 [1] iota_S1x512_d1_w32 (ix2 (0 : Fin 1) q))).toInt = _
  rw [iota_single_apply]
  exact word_toInt (i 1).val q.val (i 1).isLt q.isLt

/-- THE POSITIVE MASK AT (p, q) is set exactly when the labels agree and the row's number is below the column's. -/
theorem pos_iff (v28 : IVec S512x1 32) (v30 : IVec S1x512 32) (i : grid0.Coords) (p q : Fin 512) :
    k0_pay16 v28 v30 (k0_pay13 i) (k0_pay14 i) (ix2 p q) = 1#1
      ↔ v28 (ix2 p (0 : Fin 1)) = v30 (ix2 (0 : Fin 1) q) ∧ 512 * (i 0).val + p.val < 512 * (i 1).val + q.val := by
  rw [pay16_apply, IntOp.andi_eq_one, IntOp.cmpi_eq, IntOp.cmpi_slt, pay13_toInt, pay14_toInt, Nat.cast_lt]

/-- THE NEGATIVE MASK AT (p, q) is set exactly when the labels differ. -/
theorem neg_iff (v28 : IVec S512x1 32) (v30 : IVec S1x512 32) (p q : Fin 512) :
    k0_pay17 v28 v30 (ix2 p q) = 1#1 ↔ ¬ v28 (ix2 p (0 : Fin 1)) = v30 (ix2 (0 : Fin 1) q) := by
  rw [pay17_apply, Cert.Lib.MaskBit.xori_one_eq_one_iff, IntOp.cmpi_eq]

end Cert.KernelIdeal.TileMask

end
-- ==== Proof.TileSums.lean ====
/-
  What one tile adds to each of the four running scalars.

  Each of the four partial results of a tile is a sum over the tile's 512 × 512 places, taken in two steps (along each
  row, then down the column of row sums), of a term that depends on the place's two mask bits and on the similarity at
  the place: the squared distance of the similarity from one where the positive mask is set, the squared excess of the
  similarity over one where the negative mask is set, and for the two counts the mask bit itself read as the number 0 or
  1. The tile's result is added to the scalar the grid point found. At the first point the four scalars are zero.
-/
import proofs.«148408_j45200235823668_1_alg».proof.Proof.Gen.KernelIdeal.Skeleton
import proofs.«148408_j45200235823668_1_alg».proof.Proof.LibAxisSums
import proofs.«148408_j45200235823668_1_alg».proof.Proof.LibColumnCast
import proofs.«148408_j45200235823668_1_alg».proof.Proof.LibRowLayout

noncomputable section

namespace Cert.KernelIdeal.TileSums

open Idealize.ShloMosaic Idealize.ShloMosaic.ValueIdx
open Cert.KernelIdeal Cert.KernelIdeal.Gen

/-- THE TWO-STEP SUM: the row sums of a 512 × 512 block, laid as a column, summed down the column, laid as a 1 × 1
    block, is the sum over all places of the block. -/
theorem twoSums_apply (v : FVec Ideal S512x512 .f32) :
    shapeCast S1x1
        (multiReduction .add [0] S1
          (shapeCast S512x1
            (multiReduction .add [1] S512 v 0x00000000#32 reduces_S512x512_S512 (.inl rfl) rfl)
            shapeCasts_S512_S512x1)
          0x00000000#32 reduces_S512x1_S1 (.inl rfl) rfl)
        shapeCasts_S1_S1x1 (ix2 (0 : Fin 1) (0 : Fin 1))
      = ∑ p : Fin 512, ∑ q : Fin 512, v (ix2 p q) := by
  refine (Cert.Lib.vecToRow_apply (b := 1) _ _ (0 : Fin 1)).trans ?_
  refine (Cert.Lib.colSum_apply (a := 512) (b := 1) _ 0x00000000#32 reduces_S512x1_S1 (.inl rfl) rfl (0 : Fin 1)).trans ?_
  refine Finset.sum_congr rfl fun p _ => ?_
  refine (Cert.Lib.shapeCast_a_a1_apply _ _ p (0 : Fin 1)).trans ?_
  exact Cert.Lib.rowSum_apply (a := 512) (b := 512) v 0x00000000#32 reduces_S512x512_S512 (.inl rfl) rfl p

/-- The positive sum after a tile: what the point found plus, over the tile's places, the squared distance of the
    similarity from one where the positive mask is set (zero elsewhere). -/
theorem pay21_apply (v26 : FVec Ideal S512x512 .f32) (v28 : IVec S512x1 32) (v30 : IVec S1x512 32)
    (v35 : IVec S512x1 32) (v38 : IVec S1x512 32) (v79 : Vec Ideal S1x1 .f32) :
    k0_pay1 (k0_pay21 v26 v28 v30 v35 v38 v79) (ix2 (0 : Fin 1) (0 : Fin 1))
      = v79 (ix2 (0 : Fin 1) (0 : Fin 1))
        + ∑ p : Fin 512, ∑ q : Fin 512,
            Scalar.select (k0_pay16 v28 v30 v35 v38 (ix2 p q))
              ((Ideal.ofBits .f32 0x3F800000#32 - v26 (ix2 p q)) * (Ideal.ofBits .f32 0x3F800000#32 - v26 (ix2 p q)))
              (Ideal.ofBits .f32 0x00000000#32) := by
  unfold k0_pay1
  rw [shapeCast_self]
  unfold k0_pay21
  show v79 (ix2 (0 : Fin 1) (0 : Fin 1)) + _ = _
  refine congrArg (v79 (ix2 (0 : Fin 1) (0 : Fin 1)) + ·) ?_
  refine (twoSums_apply _).trans ?_
  rfl

/-- The negative sum after a tile: what the point found plus, over the tile's places, the squared excess of the
    similarity over one where the negative mask is set (zero elsewhere). -/
theorem pay18_apply (v26 : FVec Ideal S512x512 .f32) (v28 : IVec S512x1 32) (v30 : IVec S1x512 32)
    (v84 : Vec Ideal S1x1 .f32) :
    k0_pay2 (k0_pay18 v26 v28 v30) v84 (ix2 (0 : Fin 1) (0 : Fin 1))
      = v84 (ix2 (0 : Fin 1) (0 : Fin 1))
        + ∑ p : Fin 512, ∑ q : Fin 512,
            Scalar.select (k0_pay17 v28 v30 (ix2 p q))
              (max (v26 (ix2 p q) - Ideal.ofBits .f32 0x3F800000#32) (Ideal.ofBits .f32 0x00000000#32)
                * max (v26 (ix2 p q) - Ideal.ofBits .f32 0x3F800000#32) (Ideal.ofBits .f32 0x00000000#32))
              (Ideal.ofBits .f32 0x00000000#32) := by
  unfold k0_pay2
  rw [shapeCast_self]
  show v84 (ix2 (0 : Fin 1) (0 : Fin 1)) + k0_pay18 v26 v28 v30 (ix2 (0 : Fin 1) (0 : Fin 1)) = _
  refine congrArg (v84 (ix2 (0 : Fin 1) (0 : Fin 1)) + ·) ?_
  unfold k0_pay18
  refine (twoSums_apply _).trans ?_
  rfl

/-- The positive count after a tile: what the point found plus, over the tile's places, the positive mask's bit read
    as a number. -/
theorem pay19_apply (v28 : IVec S512x1 32) (v30 : IVec S1x512 32) (v35 : IVec S512x1 32) (v38 : IVec S1x512 32)
    (v89 : Vec Ideal S1x1 .f32) :
    k0_pay3 (k0_pay19 (F := Ideal) v28 v30 v35 v38) v89 (ix2 (0 : Fin 1) (0 : Fin 1))
      = v89 (ix2 (0 : Fin 1) (0 : Fin 1))
        + ∑ p : Fin 512, ∑ q : Fin 512,
            FloatOps.sitofp (F := Ideal) .f32 ((k0_pay16 v28 v30 v35 v38 (ix2 p q)).setWidth 32) := by
  unfold k0_pay3
  rw [shapeCast_self]
  show v89 (ix2 (0 : Fin 1) (0 : Fin 1)) + k0_pay19 (F := Ideal) v28 v30 v35 v38 (ix2 (0 : Fin 1) (0 : Fin 1)) = _
  refine congrArg (v89 (ix2 (0 : Fin 1) (0 : Fin 1)) + ·) ?_
  unfold k0_pay19
  refine (twoSums_apply _).trans ?_
  rfl

/-- The negative count after a tile: what the point found plus, over the tile's places, the negative mask's bit read
    as a number. -/
theorem pay20_apply (v28 : IVec S512x1 32) (v30 : IVec S1x512 32) (v94 : Vec Ideal S1x1 .f32) :
    k0_pay4 (k0_pay20 (F := Ideal) v28 v30) v94 (ix2 (0 : Fin 1) (0 : Fin 1))
      = v94 (ix2 (0 : Fin 1) (0 : Fin 1))
        + ∑ p : Fin 512, ∑ q : Fin 512,
            FloatOps.sitofp (F := Ideal) .f32 ((k0_pay17 v28 v30 (ix2 p q)).setWidth 32) := by
  unfold k0_pay4
  rw [shapeCast_self]
  show v94 (ix2 (0 : Fin 1) (0 : Fin 1)) + k0_pay20 (F := Ideal) v28 v30 (ix2 (0 : Fin 1) (0 : Fin 1)) = _
  refine congrArg (v94 (ix2 (0 : Fin 1) (0 : Fin 1)) + ·) ?_
  unfold k0_pay20
  refine (twoSums_apply _).trans ?_
  rfl

/-- The four scalars start from zero. -/
theorem pay6_apply : k0_pay6 (F := Ideal) (ix2 (0 : Fin 1) (0 : Fin 1)) = 0 := by
  unfold k0_pay6
  rw [shapeCast_self]
  exact Ideal.ofBits_zero_f32

theorem pay7_apply : k0_pay7 (F := Ideal) (ix2 (0 : Fin 1) (0 : Fin 1)) = 0 := by
  unfold k0_pay7
  rw [shapeCast_self]
  exact Ideal.ofBits_zero_f32

theorem pay8_apply : k0_pay8 (F := Ideal) (ix2 (0 : Fin 1) (0 : Fin 1)) = 0 := by
  unfold k0_pay8
  rw [shapeCast_self]
  exact Ideal.ofBits_zero_f32

theorem pay9_apply : k0_pay9 (F := Ideal) (ix2 (0 : Fin 1) (0 : Fin 1)) = 0 := by
  unfold k0_pay9
  rw [shapeCast_self]
  exact Ideal.ofBits_zero_f32

/-- What the last point writes: the positive sum over the positive count plus the negative sum over the negative
    count. -/
theorem pay5_apply (a b c d : Vec Ideal S1x1 .f32) :
    k0_pay5 a b c d (ix2 (0 : Fin 1) (0 : Fin 1))
      = Ideal.div (a (ix2 (0 : Fin 1) (0 : Fin 1))) (b (ix2 (0 : Fin 1) (0 : Fin 1)))
        + Ideal.div (c (ix2 (0 : Fin 1) (0 : Fin 1))) (d (ix2 (0 : Fin 1) (0 : Fin 1))) := rfl

end Cert.KernelIdeal.TileSums

end
-- ==== Proof.TileValue.lean ====
/-
  The kernel's result is the contrastive loss.

  Grid point t is tile (t / 8, t % 8) of the 4096 × 4096 matrix of pairs: place (p, q) of the tile is the pair of row
  512·(t / 8) + p and column 512·(t % 8) + q. At that place the kernel's similarity block holds the cosine similarity of
  the two rows, its positive mask is set exactly when the two labels agree and the row is before the column, and its
  negative mask exactly when the labels differ (the label row is the label column laid the other way). So what the point
  adds to each of the four running scalars is the sum, over the tile's places, of the specification's term for the pair.
  The scalars start from zero, so after the last point each holds the sum over all 64 tiles, which is the sum over all
  pairs; the last point's quotient and sum is the loss.
-/
import proofs.«148408_j45200235823668_1_alg».proof.Proof.Fold
import proofs.«148408_j45200235823668_1_alg».proof.Proof.Spec
import proofs.«148408_j45200235823668_1_alg».proof.Proof.TileFold
import proofs.«148408_j45200235823668_1_alg».proof.Proof.TileBlocks
import proofs.«148408_j45200235823668_1_alg».proof.Proof.TileSim
import proofs.«148408_j45200235823668_1_alg».proof.Proof.TileMask
import proofs.«148408_j45200235823668_1_alg».proof.Proof.TileSums

noncomputable section

namespace Cert.KernelIdeal.TileValue

open Idealize.ShloMosaic Idealize.ShloMosaic.ValueIdx Idealize.SL.Sem
open Cert.KernelIdeal Cert.KernelIdeal.Gen

variable (X : S4096x512.Idx → Elt Ideal .f32) (T0 : S4096x1.Idx → Elt Ideal .i32) (T1 : S1x4096.Idx → Elt Ideal .i32)

/-- The matrix by rows. -/
abbrev rows : Fin 4096 → Fin 512 → EReal := fun r k => X (ix2 r k)
/-- The labels by rows. -/
abbrev labels : Fin 4096 → BitVec 32 := fun r => T0 (ix2 r (0 : Fin 1))

/-- A grid point's number as a tile number. -/
def tile (t : Fin cfg0.N) : Fin 64 := ⟨t.val, lt_of_lt_of_eq t.isLt N_0⟩

/-- The row of the matrix at place p of the rows of tile s. -/
abbrev rowOf (s : Fin 64) (p : Fin 512) : Fin 4096 := TileFold.place (TileFold.tileRow s) p
/-- The row of the matrix at place q of the columns of tile s. -/
abbrev colOf (s : Fin 64) (q : Fin 512) : Fin 4096 := TileFold.place (TileFold.tileCol s) q

/-- The similarity block of point t at (p, q) is the cosine similarity of the pair's two rows. -/
theorem sim_at (t : Fin cfg0.N) (p q : Fin 512) :
    k0_pay10 (F := Ideal) (Fold.blkRows X t) (Fold.blkCols X t) (ix2 p q)
      = Cert.Spec.sim (rows X) (rowOf (tile t) p) (colOf (tile t) q) := by
  refine (TileSim.pay10_apply _ _ p q).trans ?_
  have e0 : (fun k => Fold.blkRows (F := Ideal) X t (ix2 p k)) = rows X (rowOf (tile t) p) :=
    funext fun k => TileBlocks.blkRows_apply X t p k (rowOf (tile t) p) rfl
  have e1 : (fun k => Fold.blkCols (F := Ideal) X t (ix2 q k)) = rows X (colOf (tile t) q) :=
    funext fun k => TileBlocks.blkCols_apply X t q k (colOf (tile t) q) rfl
  rw [e0, e1]
  rfl

/-- What tile s adds to each scalar: the specification's terms over the tile's places. -/
def posT (s : Fin 64) : EReal :=
  ∑ p : Fin 512, ∑ q : Fin 512, Cert.Spec.posTerm (rows X) (labels T0) (rowOf s p) (colOf s q)
def negT (s : Fin 64) : EReal :=
  ∑ p : Fin 512, ∑ q : Fin 512, Cert.Spec.negTerm (rows X) (labels T0) (rowOf s p) (colOf s q)
def posC (s : Fin 64) : EReal :=
  ∑ p : Fin 512, ∑ q : Fin 512, Cert.Spec.posOne (labels T0) (rowOf s p) (colOf s q)
def negC (s : Fin 64) : EReal :=
  ∑ p : Fin 512, ∑ q : Fin 512, Cert.Spec.negOne (labels T0) (rowOf s p) (colOf s q)

variable (hT : ∀ r : Fin 4096, T1 (ix2 (0 : Fin 1) r) = T0 (ix2 r (0 : Fin 1)))
include hT

/-- The label of the tile's row p against the label of its column q: the labels of the pair's two rows. -/
theorem labels_at (t : Fin cfg0.N) (p q : Fin 512) :
    k0_pay11 (F := Ideal) (Fold.blkRowLabels T0 t) (ix2 p (0 : Fin 1)) = labels T0 (rowOf (tile t) p)
    ∧ k0_pay12 (F := Ideal) (Fold.blkColLabels T1 t) (ix2 (0 : Fin 1) q) = labels T0 (colOf (tile t) q) := by
  constructor
  · rw [TileMask.pay11_eq]
    exact TileBlocks.blkRowLabels_apply T0 t p (rowOf (tile t) p) rfl
  · rw [TileMask.pay12_eq]
    exact (TileBlocks.blkColLabels_apply T1 t q (colOf (tile t) q) rfl).trans (hT (colOf (tile t) q))

/-- The positive mask of point t at (p, q) is set exactly for a positive pair. -/
theorem posMask_iff (t : Fin cfg0.N) (p q : Fin 512) :
    k0_pay16 (k0_pay11 (F := Ideal) (Fold.blkRowLabels T0 t)) (k0_pay12 (F := Ideal) (Fold.blkColLabels T1 t))
        (k0_pay13 (grid0.coords t)) (k0_pay14 (grid0.coords t)) (ix2 p q) = 1#1
      ↔ labels T0 (rowOf (tile t) p) = labels T0 (colOf (tile t) q) ∧ rowOf (tile t) p < colOf (tile t) q := by
  have hmask := TileMask.pos_iff (k0_pay11 (F := Ideal) (Fold.blkRowLabels T0 t))
    (k0_pay12 (F := Ideal) (Fold.blkColLabels T1 t)) (grid0.coords t) p q
  have hl := labels_at T0 T1 hT t p q
  have h0 : (grid0.coords t (0 : Fin 2)).val = t.val / 8 := (TileBlocks.idx_facts t).2.2.2.2.1
  have h1 : (grid0.coords t (1 : Fin 2)).val = t.val % 8 := (TileBlocks.idx_facts t).2.2.2.2.2
  rw [hl.1, hl.2] at hmask
  refine hmask.trans ?_
  show _ ∧ 512 * (grid0.coords t (0 : Fin 2)).val + p.val < 512 * (grid0.coords t (1 : Fin 2)).val + q.val ↔ _
  rw [h0, h1]
  exact Iff.rfl

/-- The negative mask of point t at (p, q) is set exactly for a negative pair. -/
theorem negMask_iff (t : Fin cfg0.N) (p q : Fin 512) :
    k0_pay17 (k0_pay11 (F := Ideal) (Fold.blkRowLabels T0 t)) (k0_pay12 (F := Ideal) (Fold.blkColLabels T1 t)) (ix2 p q) = 1#1
      ↔ ¬ labels T0 (rowOf (tile t) p) = labels T0 (colOf (tile t) q) := by
  have hmask := TileMask.neg_iff (k0_pay11 (F := Ideal) (Fold.blkRowLabels T0 t))
    (k0_pay12 (F := Ideal) (Fold.blkColLabels T1 t)) p q
  have hl := labels_at T0 T1 hT t p q
  rw [hl.1, hl.2] at hmask
  exact hmask

/-- One grid point adds its tile's positive terms to the positive sum. -/
theorem step_s0 (t : Fin cfg0.N) (a : Fold.Acc Ideal) :
    (Fold.stepAt X T0 T1 t a).s0 (ix2 (0 : Fin 1) (0 : Fin 1))
      = a.s0 (ix2 (0 : Fin 1) (0 : Fin 1)) + posT X T0 (tile t) := by
  refine (TileSums.pay21_apply _ _ _ _ _ a.s0).trans ?_
  refine congrArg (a.s0 (ix2 (0 : Fin 1) (0 : Fin 1)) + ·) ?_
  refine Finset.sum_congr rfl fun p _ => Finset.sum_congr rfl fun q _ => ?_
  rw [Cert.Lib.MaskBit.select_of_iff (posMask_iff T0 T1 hT t p q), sim_at X t p q, Ideal.ofBits_zero_f32]
  rfl

/-- One grid point adds its tile's negative terms to the negative sum. -/
theorem step_s1 (t : Fin cfg0.N) (a : Fold.Acc Ideal) :
    (Fold.stepAt X T0 T1 t a).s1 (ix2 (0 : Fin 1) (0 : Fin 1))
      = a.s1 (ix2 (0 : Fin 1) (0 : Fin 1)) + negT X T0 (tile t) := by
  refine (TileSums.pay18_apply _ _ _ a.s1).trans ?_
  refine congrArg (a.s1 (ix2 (0 : Fin 1) (0 : Fin 1)) + ·) ?_
  refine Finset.sum_congr rfl fun p _ => Finset.sum_congr rfl fun q _ => ?_
  rw [Cert.Lib.MaskBit.select_of_iff (negMask_iff T0 T1 hT t p q), sim_at X t p q, Ideal.ofBits_zero_f32, ite_not]
  rfl

/-- One grid point adds its tile's number of positive pairs to the positive count. -/
theorem step_s2 (t : Fin cfg0.N) (a : Fold.Acc Ideal) :
    (Fold.stepAt X T0 T1 t a).s2 (ix2 (0 : Fin 1) (0 : Fin 1))
      = a.s2 (ix2 (0 : Fin 1) (0 : Fin 1)) + posC T0 (tile t) := by
  refine (TileSums.pay19_apply _ _ _ _ a.s2).trans ?_
  refine congrArg (a.s2 (ix2 (0 : Fin 1) (0 : Fin 1)) + ·) ?_
  refine Finset.sum_congr rfl fun p _ => Finset.sum_congr rfl fun q _ => ?_
  rw [Cert.Lib.MaskBit.sitofp_of_iff .f32 (posMask_iff T0 T1 hT t p q)]
  rfl

/-- One grid point adds its tile's number of negative pairs to the negative count. -/
theorem step_s3 (t : Fin cfg0.N) (a : Fold.Acc Ideal) :
    (Fold.stepAt X T0 T1 t a).s3 (ix2 (0 : Fin 1) (0 : Fin 1))
      = a.s3 (ix2 (0 : Fin 1) (0 : Fin 1)) + negC T0 (tile t) := by
  refine (TileSums.pay20_apply _ _ a.s3).trans ?_
  refine congrArg (a.s3 (ix2 (0 : Fin 1) (0 : Fin 1)) + ·) ?_
  refine Finset.sum_congr rfl fun p _ => Finset.sum_congr rfl fun q _ => ?_
  rw [Cert.Lib.MaskBit.sitofp_of_iff .f32 (negMask_iff T0 T1 hT t p q), ite_not]
  rfl

/-- After point n each scalar is the running total of its tiles' terms over the points 0 … n. -/
theorem acc_eq : ∀ (n : ℕ) (hn : n < cfg0.N),
    (Fold.accAt (F := Ideal) X T0 T1 n hn).s0 (ix2 (0 : Fin 1) (0 : Fin 1))
        = TileFold.running (posT X T0) n (lt_of_lt_of_eq hn N_0)
    ∧ (Fold.accAt (F := Ideal) X T0 T1 n hn).s1 (ix2 (0 : Fin 1) (0 : Fin 1))
        = TileFold.running (negT X T0) n (lt_of_lt_of_eq hn N_0)
    ∧ (Fold.accAt (F := Ideal) X T0 T1 n hn).s2 (ix2 (0 : Fin 1) (0 : Fin 1))
        = TileFold.running (posC T0) n (lt_of_lt_of_eq hn N_0)
    ∧ (Fold.accAt (F := Ideal) X T0 T1 n hn).s3 (ix2 (0 : Fin 1) (0 : Fin 1))
        = TileFold.running (negC T0) n (lt_of_lt_of_eq hn N_0)
  | 0, hn => by
    refine ⟨?_, ?_, ?_, ?_⟩
    · show (Fold.stepAt X T0 T1 ⟨0, hn⟩ Fold.init).s0 _ = _
      rw [step_s0 X T0 T1 hT]
      show k0_pay6 (F := Ideal) (ix2 (0 : Fin 1) (0 : Fin 1)) + _ = _
      rw [TileSums.pay6_apply, zero_add]
      rfl
    · show (Fold.stepAt X T0 T1 ⟨0, hn⟩ Fold.init).s1 _ = _
      rw [step_s1 X T0 T1 hT]
      show k0_pay7 (F := Ideal) (ix2 (0 : Fin 1) (0 : Fin 1)) + _ = _
      rw [TileSums.pay7_apply, zero_add]
      rfl
    · show (Fold.stepAt X T0 T1 ⟨0, hn⟩ Fold.init).s2 _ = _
      rw [step_s2 X T0 T1 hT]
      show k0_pay8 (F := Ideal) (ix2 (0 : Fin 1) (0 : Fin 1)) + _ = _
      rw [TileSums.pay8_apply, zero_add]
      rfl
    · show (Fold.stepAt X T0 T1 ⟨0, hn⟩ Fold.init).s3 _ = _
      rw [step_s3 X T0 T1 hT]
      show k0_pay9 (F := Ideal) (ix2 (0 : Fin 1) (0 : Fin 1)) + _ = _
      rw [TileSums.pay9_apply, zero_add]
      rfl
  | n + 1, hn => by
    have ih := acc_eq n (Nat.lt_of_succ_lt hn)
    refine ⟨?_, ?_, ?_, ?_⟩
    · show (Fold.stepAt X T0 T1 ⟨n + 1, hn⟩ (Fold.accAt X T0 T1 n (Nat.lt_of_succ_lt hn))).s0 _ = _
      rw [step_s0 X T0 T1 hT, ih.1]
      rfl
    · show (Fold.stepAt X T0 T1 ⟨n + 1, hn⟩ (Fold.accAt X T0 T1 n (Nat.lt_of_succ_lt hn))).s1 _ = _
      rw [step_s1 X T0 T1 hT, ih.2.1]
      rfl
    · show (Fold.stepAt X T0 T1 ⟨n + 1, hn⟩ (Fold.accAt X T0 T1 n (Nat.lt_of_succ_lt hn))).s2 _ = _
      rw [step_s2 X T0 T1 hT, ih.2.2.1]
      rfl
    · show (Fold.stepAt X T0 T1 ⟨n + 1, hn⟩ (Fold.accAt X T0 T1 n (Nat.lt_of_succ_lt hn))).s3 _ = _
      rw [step_s3 X T0 T1 hT, ih.2.2.2]
      rfl

/-- THE KERNEL'S RESULT IS THE LOSS of the matrix's rows and their labels. -/
theorem result_eq :
    Fold.result (F := Ideal) X T0 T1 (ix2 (0 : Fin 1) (0 : Fin 1))
      = Cert.Spec.loss (fun r k => X (ix2 r k)) (fun r => T0 (ix2 r (0 : Fin 1))) := by
  have h63 : 63 < cfg0.N := by have h : cfg0.N = 64 := N_0; omega
  have h := acc_eq X T0 T1 hT 63 h63
  unfold Fold.result Fold.final
  rw [TileSums.pay5_apply, h.1, h.2.1, h.2.2.1, h.2.2.2]
  rw [TileFold.running_last, TileFold.running_last, TileFold.running_last, TileFold.running_last]
  unfold Cert.Spec.loss Cert.Spec.posSum Cert.Spec.negSum Cert.Spec.posCount Cert.Spec.negCount
  rw [TileFold.sum_pairs_by_tiles (Cert.Spec.posTerm (fun r k => X (ix2 r k)) (fun r => T0 (ix2 r (0 : Fin 1)))),
    TileFold.sum_pairs_by_tiles (Cert.Spec.negTerm (fun r k => X (ix2 r k)) (fun r => T0 (ix2 r (0 : Fin 1)))),
    TileFold.sum_pairs_by_tiles (Cert.Spec.posOne (fun r => T0 (ix2 r (0 : Fin 1)))),
    TileFold.sum_pairs_by_tiles (Cert.Spec.negOne (fun r => T0 (ix2 r (0 : Fin 1))))]
  rfl

end Cert.KernelIdeal.TileValue

end
-- ==== Proof.RefSim.lean ====
/-
  The reference's similarity stage read at a pair of rows: each row divided by its Euclidean norm
  (kept at least `eps`), and the inner product of two rows so normalised, as the terms of `Cert.Spec`.
-/
import proofs.«148408_j45200235823668_1_alg».proof.Proof.Gen.ReferenceIdeal.Read
import proofs.«148408_j45200235823668_1_alg».proof.Proof.Spec
import Idealize.ShloMosaic.Lib.IdealHost

noncomputable section

namespace Cert.ReferenceIdeal.RefSim

open Cert.ReferenceIdeal Idealize.ShloMosaic Idealize.ShloMosaic.ValueIdx

/-- The input array as a function of its two coordinates. -/
def xs (x0 : (⟨S4096x512, .f32⟩ : BufTy).Contents (Elt Ideal)) : Fin 4096 → Fin 512 → EReal :=
  fun r k => x0 (ix2 r k)

/-! ### The index maps at coordinates -/

theorem idx_norm_bcast (r : Fin 4096) (z : Fin 1) : Read.idx_main_call0_v2 (ix2 r z) = ix1 r := by
  funext a; match a with | ⟨0, _⟩ => rfl

theorem idx_norm_sum (r : Fin 4096) (k : Fin 512) : Read.idx_main_call0_v1 (ix1 r) k = ix2 r k := by
  funext a; match a with | ⟨0, _⟩ => rfl | ⟨1, _⟩ => rfl

theorem idx_col_bcast (r : Fin 4096) (k : Fin 512) : Read.idx_main_v3 (ix2 r k) = ix2 r (0 : Fin 1) := by
  funext a; match a with | ⟨0, _⟩ => rfl | ⟨1, _⟩ => rfl

theorem idx_transpose (k : Fin 512) (c : Fin 4096) : Read.idx_main_v5 (ix2 k c) = ix2 c k := by
  funext a; match a with | ⟨0, _⟩ => rfl | ⟨1, _⟩ => rfl

theorem idx_dot_left (r c : Fin 4096) (k : Fin 512) : Read.lidx_main_v6 (ix2 r c) k = ix2 r k := by
  funext a; match a with | ⟨0, _⟩ => rfl | ⟨1, _⟩ => rfl

theorem idx_dot_right (r c : Fin 4096) (k : Fin 512) : Read.ridx_main_v6 (ix2 r c) k = ix2 k c := by
  funext a; match a with | ⟨0, _⟩ => rfl | ⟨1, _⟩ => rfl

/-! ### The stages -/

/-- The sum of squares of row `r`: the initial value is the zero word, which adds nothing. -/
theorem sumsq_apply (x0 : (⟨S4096x512, .f32⟩ : BufTy).Contents (Elt Ideal)) (r : Fin 4096) :
    Read.val_main_call0_v1 (F := Ideal) x0 (ix1 r) = ∑ k : Fin 512, xs x0 r k * xs x0 r k := by
  rw [Read.val_main_call0_v1_apply, Read.val_main_call0_cst_apply, Ideal.ofBits_def, Ideal.ofBits_zero_f32, zero_add]
  refine Finset.sum_congr rfl fun k _ => ?_
  rw [idx_norm_sum, Read.val_main_call0_v0_apply]
  rfl

/-- The norm of row `r`. -/
theorem norm_apply (x0 : (⟨S4096x512, .f32⟩ : BufTy).Contents (Elt Ideal)) (r : Fin 4096) (z : Fin 1) :
    Read.val_main_v0 (F := Ideal) x0 (ix2 r z) = Cert.Spec.norm (xs x0) r := by
  rw [Read.val_main_v0_apply, Read.val_main_call0_v2_apply, idx_norm_bcast, sumsq_apply, Ideal.hostUnary_sqrt_def]
  rfl

/-- The norm kept at least `eps`. -/
theorem clamp_apply (x0 : (⟨S4096x512, .f32⟩ : BufTy).Contents (Elt Ideal)) (r : Fin 4096) (z : Fin 1) :
    Read.val_main_v2 (F := Ideal) x0 (ix2 r z) = max (Cert.Spec.norm (xs x0) r) Cert.Spec.eps := by
  rw [Read.val_main_v2_apply, norm_apply, Read.val_main_v1_apply, Read.val_main_cst_apply, Ideal.maximumf_def,
    Ideal.ofBits_def]
  rfl

/-- Row `r` divided by its clamped norm, at column `k`. -/
theorem unit_apply (x0 : (⟨S4096x512, .f32⟩ : BufTy).Contents (Elt Ideal)) (r : Fin 4096) (k : Fin 512) :
    Read.val_main_v4 (F := Ideal) x0 (ix2 r k) = Cert.Spec.unit (xs x0) r k := by
  rw [Read.val_main_v4_apply, Read.val_main_v3_apply, idx_col_bcast, clamp_apply, Ideal.hostDivf_def]
  rfl

/-- The similarity of rows `r` and `c`: the `dot_general` against the transposed array is the sum over
    the shared coordinate of the products of the two normalised rows. -/
theorem sim_apply (x0 : (⟨S4096x512, .f32⟩ : BufTy).Contents (Elt Ideal)) (r c : Fin 4096) :
    Read.val_main_v6 (F := Ideal) x0 (ix2 r c) = Cert.Spec.sim (xs x0) r c := by
  rw [Read.val_main_v6_apply]
  refine Finset.sum_congr rfl fun k _ => ?_
  rw [idx_dot_left, idx_dot_right, Read.val_main_v5_apply, idx_transpose, unit_apply, unit_apply]

end Cert.ReferenceIdeal.RefSim

end
-- ==== Proof.RefMask.lean ====
/-
  The reference's masks read at a pair of rows, as propositions: the labels agree; the labels agree and
  the pair is strictly above the diagonal; the labels differ. Also what a select and a widening to 32
  bits make of a one-bit word whose being `1` is a known proposition.
-/
import proofs.«148408_j45200235823668_1_alg».proof.Proof.Gen.ReferenceIdeal.Read
import Idealize.ShloMosaic.Lib.Affine

noncomputable section

namespace Cert.ReferenceIdeal.RefMask

open Cert.ReferenceIdeal Idealize.ShloMosaic Idealize.ShloMosaic.ValueIdx

/-- The labels as a function of the row. -/
def ts (x1 : (⟨S4096, .i32⟩ : BufTy).Contents (Elt Ideal)) : Fin 4096 → BitVec 32 :=
  fun r => x1 (ix1 r)

/-! ### One-bit words -/

/-- A select on a bit that is `1` exactly when `P` holds is the `if` on `P`. -/
theorem select_of_iff {α : Type} {b : BitVec 1} {P : Prop} [Decidable P] (h : b = 1#1 ↔ P) (a c : α) :
    Scalar.select b a c = if P then a else c := by
  by_cases hP : P
  · rw [if_pos hP, h.mpr hP]; exact select_one a c
  · rw [if_neg hP, eq_zero_of_ne_one (mt h.mp hP)]; exact select_zero a c

/-- A bit that is `1` exactly when `P` holds widens to the word `1` when `P` holds and to `0` otherwise. -/
theorem setWidth_of_iff {b : BitVec 1} {P : Prop} [Decidable P] (h : b = 1#1 ↔ P) :
    (b.setWidth 32 : BitVec 32) = if P then 1#32 else 0#32 := by
  by_cases hP : P
  · rw [if_pos hP, h.mpr hP]; decide
  · rw [if_neg hP, eq_zero_of_ne_one (mt h.mp hP)]; decide

/-- A row number read as a 32-bit word and then as a signed integer is the row number. -/
theorem toInt_ofNat_row (n : Nat) (h : n < 4096) : (BitVec.ofNat 32 n).toInt = (n : Int) := by
  have h1 : (BitVec.ofNat 32 n).toNat = n := by rw [BitVec.toNat_ofNat]; omega
  rw [BitVec.toInt_eq_toNat_of_lt (by rw [h1]; omega), h1]

/-! ### The index maps at coordinates -/

theorem idx_rows (r c : Fin 4096) : Read.idx_main_v9 (ix2 r c) = ix2 r (0 : Fin 1) := by
  funext a; match a with | ⟨0, _⟩ => rfl | ⟨1, _⟩ => rfl

theorem idx_row (r : Fin 4096) (z : Fin 1) : Read.idx_main_v7 (ix2 r z) = ix1 r := by
  funext a; match a with | ⟨0, _⟩ => rfl

theorem idx_cols (r c : Fin 4096) : Read.idx_main_v10 (ix2 r c) = ix2 (0 : Fin 1) c := by
  funext a; match a with | ⟨0, _⟩ => rfl | ⟨1, _⟩ => rfl

theorem idx_col (z : Fin 1) (c : Fin 4096) : Read.idx_main_v8 (ix2 z c) = ix1 c := by
  funext a; match a with | ⟨0, _⟩ => rfl

/-! ### The masks -/

/-- The label-equality mask at `(r, c)`. -/
theorem same_apply (x1 : (⟨S4096, .i32⟩ : BufTy).Contents (Elt Ideal)) (r c : Fin 4096) :
    Read.val_main_v11 (F := Ideal) x1 (ix2 r c) = 1#1 ↔ ts x1 r = ts x1 c := by
  rw [Read.val_main_v11_apply, Read.val_main_v9_apply, idx_rows, Read.val_main_v7_apply, idx_row,
    Read.val_main_v10_apply, idx_cols, Read.val_main_v8_apply, idx_col, IntOp.cmpi_eq]
  exact Iff.rfl

/-- The lower-triangle mask at `(r, c)` (diagonal included): the row's number is at least the column's. -/
theorem lower_apply (r c : Fin 4096) :
    Read.val_main_call1_v4 (F := Ideal) (ix2 r c) = 1#1 ↔ c ≤ r := by
  rw [Read.val_main_call1_v4_apply, Read.val_main_call1_v2_apply, Read.val_main_call1_v0_apply,
    Read.val_main_call1_v1_apply, Read.val_main_call1_c_apply, Read.val_main_call1_v3_apply, IntOp.cmpi_sge]
  show (BitVec.ofNat 32 c.val).toInt ≤ (BitVec.ofNat 32 r.val + 0#32).toInt ↔ c ≤ r
  rw [BitVec.add_zero, toInt_ofNat_row c.val c.isLt, toInt_ofNat_row r.val r.isLt, Fin.le_def]
  omega

/-- The positive-pair mask at `(r, c)`: equal labels, strictly above the diagonal. -/
theorem pos_apply (x1 : (⟨S4096, .i32⟩ : BufTy).Contents (Elt Ideal)) (r c : Fin 4096) :
    Read.val_main_v12 (F := Ideal) x1 (ix2 r c) = 1#1 ↔ (ts x1 r = ts x1 c ∧ r < c) := by
  rw [Read.val_main_v12_apply, select_of_iff (lower_apply r c), Read.val_main_call1_v5_apply,
    Read.val_main_call1_c_0_apply]
  by_cases h : c ≤ r
  · rw [if_pos h]
    exact ⟨fun h0 => absurd h0 (by decide), fun h1 => absurd h1.2 (not_lt.mpr h)⟩
  · rw [if_neg h, same_apply]
    exact ⟨fun h0 => ⟨h0, not_le.mp h⟩, fun h1 => h1.1⟩

/-- The negative-pair mask at `(r, c)`: the labels differ. -/
theorem neg_apply (x1 : (⟨S4096, .i32⟩ : BufTy).Contents (Elt Ideal)) (r c : Fin 4096) :
    Read.val_main_v13 (F := Ideal) x1 (ix2 r c) = 1#1 ↔ ¬ ts x1 r = ts x1 c := by
  rw [Read.val_main_v13_apply, IntOp.not_eq_one, same_apply]

end Cert.ReferenceIdeal.RefMask

end
-- ==== Proof.RefCount.lean ====
/-
  A pair count of the reference: the 32-bit integer sum, over the whole 4096 by 4096 array, of words that
  are each `0` or `1`, then read as a signed integer and made a float. There are 2^24 entries, so the sum
  of the words never wraps and is nonnegative as a signed word: it is the number of ones, and its float is
  the extended-real sum of the same zeros and ones.
-/
import proofs.«148408_j45200235823668_1_alg».proof.Proof.Gen.ReferenceIdeal.Read
import Idealize.ShloMosaic.PureOps.Reduce
import Idealize.ShloMosaic.Lib.ValueIdx

noncomputable section

namespace Cert.ReferenceIdeal.RefCount

open Cert.ReferenceIdeal Idealize.ShloMosaic Idealize.ShloMosaic.ValueIdx

/-- The fold of 32-bit addition over a finite set, read as a natural number: the sum of the words read
    as natural numbers, modulo 2^32. -/
theorem fold_addi_toNat {ι : Type} (s : Finset ι) (b : BitVec 32) (w : ι → BitVec 32) :
    (s.fold IntOp.addi b w).toNat = (b.toNat + ∑ i ∈ s, (w i).toNat) % 2 ^ 32 := by
  induction s using Finset.cons_induction with
  | empty =>
    rw [Finset.fold_empty, Finset.sum_empty, Nat.add_zero, Nat.mod_eq_of_lt b.isLt]
  | cons a S ha ih =>
    rw [Finset.fold_cons, Finset.sum_cons]
    show (w a + S.fold IntOp.addi b w).toNat = _
    rw [BitVec.toNat_add, ih]
    omega

/-- The integer reduce-add over both axes, read as a natural number. -/
theorem reduce_addi_toNat (w : S4096x4096.Idx → BitVec 32) (init : S_.Idx → BitVec 32)
    (h : S4096x4096.ReducesTo [0, 1] S_) (hu : 0 < S_.numel) (j : S_.Idx) :
    (Host.reduce IntOp.addi w init h hu j).toNat
      = ((init (Shape.Idx.first hu)).toNat + ∑ i : S4096x4096.Idx, (w i).toNat) % 2 ^ 32 := by
  rw [Host.reduce_eq_fold,
    Finset.filter_true_of_mem (fun i _ => funext fun a => a.elim0), fold_addi_toNat]

/-- A double sum of zeros and ones over 4096 by 4096 pairs is at most 2^24. -/
theorem count_le (g : Fin 4096 → Fin 4096 → Nat) (hg : ∀ r c, g r c ≤ 1) :
    ∑ r : Fin 4096, ∑ c : Fin 4096, g r c ≤ 2 ^ 24 := by
  calc ∑ r : Fin 4096, ∑ c : Fin 4096, g r c
      ≤ ∑ _r : Fin 4096, ∑ _c : Fin 4096, 1 :=
        Finset.sum_le_sum fun r _ => Finset.sum_le_sum fun c _ => hg r c
    _ = 2 ^ 24 := by
        simp only [Finset.sum_const, Finset.card_univ, Fintype.card_fin, smul_eq_mul, mul_one]
        norm_num

/-- THE COUNT: when the word at `(r, c)` is `1` if `P r c` and `0` otherwise, the integer sum from the zero
    word, read signed and made a float, is the extended-real sum of ones over the pairs with `P`. -/
theorem count_apply (w : S4096x4096.Idx → BitVec 32) (P : Fin 4096 → Fin 4096 → Prop)
    [∀ r c, Decidable (P r c)] (hw : ∀ r c, w (ix2 r c) = if P r c then 1#32 else 0#32)
    (init : S_.Idx → BitVec 32) (h : S4096x4096.ReducesTo [0, 1] S_) (hu : 0 < S_.numel)
    (h0 : init (Shape.Idx.first hu) = 0#32) (j : S_.Idx) :
    (((Host.reduce IntOp.addi w init h hu j).toInt : ℝ) : EReal)
      = ∑ r : Fin 4096, ∑ c : Fin 4096, (if P r c then (1 : EReal) else 0) := by
  have hsum : ∑ i : S4096x4096.Idx, (w i).toNat
      = ∑ r : Fin 4096, ∑ c : Fin 4096, (if P r c then 1 else 0 : Nat) := by
    rw [sum_idx2]
    refine Finset.sum_congr rfl fun r _ => Finset.sum_congr rfl fun c _ => ?_
    rw [hw]
    by_cases hp : P r c
    · rw [if_pos hp, if_pos hp]; rfl
    · rw [if_neg hp, if_neg hp]; rfl
  have hn : ∑ r : Fin 4096, ∑ c : Fin 4096, (if P r c then 1 else 0 : Nat) ≤ 2 ^ 24 :=
    count_le _ fun r c => by by_cases hp : P r c <;> simp [hp]
  generalize hN : ∑ r : Fin 4096, ∑ c : Fin 4096, (if P r c then 1 else 0 : Nat) = n at hsum hn
  have htoNat : (Host.reduce IntOp.addi w init h hu j).toNat = n := by
    rw [reduce_addi_toNat, h0, hsum]
    show (0 + n) % 2 ^ 32 = n
    omega
  have htoInt : (Host.reduce IntOp.addi w init h hu j).toInt = (n : Int) := by
    rw [BitVec.toInt_eq_toNat_of_lt (by rw [htoNat]; omega), htoNat]
  rw [htoInt, Int.cast_natCast, EReal.coe_natCast, ← hN, Nat.cast_sum]
  refine Finset.sum_congr rfl fun r _ => ?_
  rw [Nat.cast_sum]
  refine Finset.sum_congr rfl fun c _ => ?_
  by_cases hp : P r c
  · rw [if_pos hp, if_pos hp, Nat.cast_one]
  · rw [if_neg hp, if_neg hp, Nat.cast_zero]

end Cert.ReferenceIdeal.RefCount

end
-- ==== Proof.RefValue.lean ====
/-
  The reference's result as the loss of `Cert.Spec`: the two masked float sums over all pairs of rows are
  the positive and negative sums, the two integer pair counts made floats are the positive and negative
  counts, and the result is the sum of the two quotients.
-/
import proofs.«148408_j45200235823668_1_alg».proof.Proof.Gen.ReferenceIdeal.Read
import proofs.«148408_j45200235823668_1_alg».proof.Proof.Spec
import proofs.«148408_j45200235823668_1_alg».proof.Proof.RefSim
import proofs.«148408_j45200235823668_1_alg».proof.Proof.RefMask
import proofs.«148408_j45200235823668_1_alg».proof.Proof.RefCount

noncomputable section

namespace Cert.ReferenceIdeal.RefValue

open Cert.ReferenceIdeal Idealize.ShloMosaic Idealize.ShloMosaic.ValueIdx
open Cert.ReferenceIdeal.RefSim Cert.ReferenceIdeal.RefMask Cert.ReferenceIdeal.RefCount

/-! ### The two masked terms at a pair of rows -/

/-- What the pair `(r, c)` adds to the positive sum. -/
theorem posTerm_apply (x0 : (⟨S4096x512, .f32⟩ : BufTy).Contents (Elt Ideal))
    (x1 : (⟨S4096, .i32⟩ : BufTy).Contents (Elt Ideal)) (r c : Fin 4096) :
    Read.val_main_v21 (F := Ideal) x0 x1 (ix2 r c) = Cert.Spec.posTerm (xs x0) (ts x1) r c := by
  rw [Read.val_main_v21_apply, select_of_iff (pos_apply x1 r c), Read.val_main_v20_apply,
    Read.val_main_v19_apply, Read.val_main_v18_apply, Read.val_main_cst_1_apply, sim_apply,
    Read.val_main_call2_v1_apply, Read.val_main_call2_v0_apply, Read.val_main_cst_2_apply,
    Ideal.ofBits_def, Ideal.ofBits_def, Ideal.ofBits_zero_f32]
  rfl

/-- What the pair `(r, c)` adds to the negative sum. -/
theorem negTerm_apply (x0 : (⟨S4096x512, .f32⟩ : BufTy).Contents (Elt Ideal))
    (x1 : (⟨S4096, .i32⟩ : BufTy).Contents (Elt Ideal)) (r c : Fin 4096) :
    Read.val_main_v29 (F := Ideal) x0 x1 (ix2 r c) = Cert.Spec.negTerm (xs x0) (ts x1) r c := by
  rw [Read.val_main_v29_apply, select_of_iff (neg_apply x1 r c), ite_not, Read.val_main_v28_apply,
    Read.val_main_v27_apply, Read.val_main_v26_apply, Read.val_main_v25_apply, Read.val_main_cst_4_apply,
    sim_apply, Read.val_main_call3_v0_apply, Read.val_main_call3_cst_apply,
    Read.val_main_call4_v1_apply, Read.val_main_call4_v0_apply, Read.val_main_cst_5_apply,
    Ideal.ofBits_def, Ideal.ofBits_def, Ideal.ofBits_zero_f32]
  rfl

/-! ### The two float sums over all pairs -/

theorem posSum_apply (x0 : (⟨S4096x512, .f32⟩ : BufTy).Contents (Elt Ideal))
    (x1 : (⟨S4096, .i32⟩ : BufTy).Contents (Elt Ideal)) (i : S_.Idx) :
    Read.val_main_v22 (F := Ideal) x0 x1 i = Cert.Spec.posSum (xs x0) (ts x1) := by
  rw [Read.val_main_v22_apply, Read.val_main_cst_3_apply, Ideal.ofBits_def, Ideal.ofBits_zero_f32, zero_add,
    sum_idx2]
  exact Finset.sum_congr rfl fun r _ => Finset.sum_congr rfl fun c _ => posTerm_apply x0 x1 r c

theorem negSum_apply (x0 : (⟨S4096x512, .f32⟩ : BufTy).Contents (Elt Ideal))
    (x1 : (⟨S4096, .i32⟩ : BufTy).Contents (Elt Ideal)) (i : S_.Idx) :
    Read.val_main_v30 (F := Ideal) x0 x1 i = Cert.Spec.negSum (xs x0) (ts x1) := by
  rw [Read.val_main_v30_apply, Read.val_main_cst_6_apply, Ideal.ofBits_def, Ideal.ofBits_zero_f32, zero_add,
    sum_idx2]
  exact Finset.sum_congr rfl fun r _ => Finset.sum_congr rfl fun c _ => negTerm_apply x0 x1 r c

/-! ### The two pair counts -/

theorem posCount_apply (x1 : (⟨S4096, .i32⟩ : BufTy).Contents (Elt Ideal)) (i : S_.Idx) :
    Read.val_main_v23 (F := Ideal) x1 i = Cert.Spec.posCount (ts x1) := by
  rw [Read.val_main_v23_apply]
  unfold Read.val_main_v15
  exact count_apply (Read.val_main_v14 (F := Ideal) x1) (fun r c => ts x1 r = ts x1 c ∧ r < c)
    (fun r c => (Read.val_main_v14_apply x1 (ix2 r c)).trans (setWidth_of_iff (pos_apply x1 r c)))
    (Read.val_main_c (F := Ideal)) _ _ rfl i

theorem negCount_apply (x1 : (⟨S4096, .i32⟩ : BufTy).Contents (Elt Ideal)) (i : S_.Idx) :
    Read.val_main_v31 (F := Ideal) x1 i = Cert.Spec.negCount (ts x1) := by
  rw [Read.val_main_v31_apply]
  unfold Read.val_main_v17
  refine (count_apply (Read.val_main_v16 (F := Ideal) x1) (fun r c => ¬ ts x1 r = ts x1 c)
    (fun r c => (Read.val_main_v16_apply x1 (ix2 r c)).trans (setWidth_of_iff (neg_apply x1 r c)))
    (Read.val_main_c_0 (F := Ideal)) _ _ rfl i).trans ?_
  exact Finset.sum_congr rfl fun r _ => Finset.sum_congr rfl fun c _ => ite_not _ _ _

/-! ### The result -/

/-- The reference's result, at every index of its scalar buffer, is the loss of the input array and
    the labels read by coordinates. -/
theorem result_eq (x0 : (⟨S4096x512, .f32⟩ : BufTy).Contents (Elt Ideal))
    (x1 : (⟨S4096, .i32⟩ : BufTy).Contents (Elt Ideal)) :
    Read.val_main_v33 (F := Ideal) x0 x1
      = fun _ => Cert.Spec.loss (fun r k => x0 (ix2 r k)) (fun r => x1 (ix1 r)) := by
  funext i
  rw [Read.val_main_v33_apply, Read.val_main_v24_apply, Read.val_main_v32_apply, posSum_apply, posCount_apply,
    negSum_apply, negCount_apply]
  rfl

end Cert.ReferenceIdeal.RefValue

end
-- ==== Proof.lean ====
/-
  The contrastive loss of 4096 rows of 512 numbers with integer labels, computed two ways, is one number.

  The kernel walks the 8 × 8 tiles of the 4096 × 4096 matrix of pairs. At a tile it normalises the tile's 512 rows
  and 512 columns (each row divided by its norm, kept at least eps), multiplies them into the tile of cosine
  similarities, and adds to four running scalars the tile's sum of (1 − s)² over the pairs with equal labels and
  row < column, its sum of max(s − 1, 0)² over the pairs with different labels, and the two counts of such pairs.
  The first tile starts the scalars from zero; the last tile writes (positive sum / positive count) + (negative sum /
  negative count). The reference computes the whole similarity matrix, the two masks, the two sums and the two counts
  (the counts as 32-bit integer sums, below 2²⁴, then converted) at once.

  Over the extended reals a change of float format is the identity and both matrix products are the plain sum over
  the 512 coordinates, so each side is the function `Cert.Spec.loss` of the rows and the labels: the reference by
  reading its operations one at a time (`RefValue.result_eq`); the kernel because the four scalars after the last
  tile are the sums over the 64 tiles of the tiles' sums, and a sum over all pairs is the sum over the tiles of the
  sum over each tile's pairs — addition of extended reals is commutative and associative, and nothing more is used
  (`TileValue.result_eq`). The precondition is not needed for the equality.

  Each kernel program runs to its end, faults nowhere and leaves its arguments as they were: the region is entered
  with every buffer held whole; the rows array, which two windows read, is held by halves by them and whole again at
  the exit; at each grid point the body runs from the four scalars the point before left (`Frame.run_main`, the same
  argument at the word-level and at the ideal instance).
-/
import proofs.«148408_j45200235823668_1_alg».proof.Defs
import proofs.«148408_j45200235823668_1_alg».proof.Proof.Gen.Kernel
import proofs.«148408_j45200235823668_1_alg».proof.Proof.Gen.KernelIdeal
import proofs.«148408_j45200235823668_1_alg».proof.Proof.Gen.ReferenceIdeal
import proofs.«148408_j45200235823668_1_alg».proof.Proof.Gen.Pre_finite_inputs
import proofs.«148408_j45200235823668_1_alg».proof.Proof.Gen.ReferenceIdeal.Run
import proofs.«148408_j45200235823668_1_alg».proof.Proof.BitsFrameLaunch
import proofs.«148408_j45200235823668_1_alg».proof.Proof.FrameLaunch
import proofs.«148408_j45200235823668_1_alg».proof.Proof.KernelValue
import proofs.«148408_j45200235823668_1_alg».proof.Proof.TileValue
import proofs.«148408_j45200235823668_1_alg».proof.Proof.RefValue

noncomputable section

namespace Cert.Proof

open Idealize.ShloMosaic Idealize.ShloMosaic.TcCoe Idealize.SL.Sem

/-- The word-level kernel runs and leaves its arguments unchanged. -/
theorem frame_k : Cert.frame_Kernel := fun m ρ _ =>
  (θ_run Cert.Kernel.defs _ _).mono (fun _ h c => (h c).2) (Cert.Kernel.Frame.run_main (F := Bits) m ρ)

/-- The idealized kernel runs and leaves its arguments unchanged. -/
theorem frame_ki : Cert.frame_KernelIdeal := fun m ρ _ =>
  (θ_run Cert.KernelIdeal.defs _ _).mono (fun _ h c => (h c).2) (Cert.KernelIdeal.Frame.run_main (F := Ideal) m ρ)

/-- The reference runs and leaves its arguments unchanged. -/
theorem frame_ri : Cert.frame_ReferenceIdeal := fun m ρ _ =>
  (θ_run Cert.ReferenceIdeal.defs _ _).mono (fun _ h c => (h c).2) (Cert.ReferenceIdeal.Value.run (F := Ideal) m ρ)

/-- No operation of the kernel was rewritten for the ideal reading. -/
theorem preserves : Cert.preserves_Kernel_KernelIdeal := trivial

/-- Both programs end with the loss of the rows and the labels. -/
theorem algebraic : Cert.algebraic_KernelIdeal_ReferenceIdeal := by
  intro m ρ m' ρ' _ hagree
  refine ⟨fun c => Cert.KernelIdeal.Frame.W3 m c (Proc.devRef .tc Cert.KernelIdeal.main_v3),
    Cert.KernelIdeal.Frame.run_main (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, Cert.ReferenceIdeal.RefValue.result_eq, (hagree c).1, (hagree c).2]
  show _ = Cert.KernelIdeal.Frame.W3 m c (Proc.devRef .tc Cert.KernelIdeal.main_v3)
  rw [Cert.KernelIdeal.Frame.W3_main_v3,
    Cert.KernelIdeal.TileValue.result_eq _ _ _ (fun r => (Cert.KernelIdeal.Frame.V_main_v1 m c r).trans (Cert.KernelIdeal.Frame.V_main_v0 m c r).symm)]
  funext _
  refine congrArg₂ Cert.Spec.loss (funext fun r => funext fun k => ?_) (funext fun r => ?_)
  · rw [Cert.KernelIdeal.Frame.V_main_arg0']
  · exact (Cert.KernelIdeal.Frame.V_main_v0 m c r).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
